-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512x512 .f32) (main_arg7 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x512 : Shape := ⟨2, ![512, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S16x512 : Shape := ⟨2, ![16, 512]⟩
abbrev S2000x512 : Shape := ⟨2, ![2000, 512]⟩
abbrev S2000x1 : Shape := ⟨2, ![2000, 1]⟩
abbrev S8x512 : Shape := ⟨2, ![8, 512]⟩
abbrev S1x512 : Shape := ⟨2, ![1, 512]⟩

abbrev nBuf : Space → Nat
  | .hbm => 100
  | .vmem => 36
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000, .i1⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000, .f32⟩
  | .hbm, ⟨42, _⟩ => ⟨S3200000, .f32⟩
  | .hbm, ⟨43, _⟩ => ⟨S3200000, .f32⟩
  | .hbm, ⟨44, _⟩ => ⟨S_, .f32⟩
  | .hbm, ⟨45, _⟩ => ⟨S100000, .f32⟩
  | .hbm, ⟨46, _⟩ => ⟨S3200000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S512x512, .f32⟩
  | .hbm, ⟨54, _⟩ => ⟨S512x512, .bf16⟩
  | .hbm, ⟨55, _⟩ => ⟨S512x512, .f32⟩
  | .hbm, ⟨56, _⟩ => ⟨S512x512, .bf16⟩
  | .hbm, ⟨57, _⟩ => ⟨S512x512, .f32⟩
  | .hbm, ⟨58, _⟩ => ⟨S512x512, .bf16⟩
  | .hbm, ⟨59, _⟩ => ⟨S100000x512, .f32⟩
  | .hbm, ⟨60, _⟩ => ⟨S16x512, .f32⟩
  | .hbm, ⟨61, _⟩ => ⟨S16x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S_, .f32⟩
  | .hbm, ⟨66, _⟩ => ⟨S1x512, .f32⟩
  | .hbm, ⟨67, _⟩ => ⟨S1x512, .f32⟩
  | .hbm, ⟨68, _⟩ => ⟨S_, .f32⟩
  | .hbm, ⟨69, _⟩ => ⟨S512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S_, .f32⟩
  | .hbm, ⟨77, _⟩ => ⟨S1x512, .f32⟩
  | .hbm, ⟨78, _⟩ => ⟨S1x512, .f32⟩
  | .hbm, ⟨79, _⟩ => ⟨S100000x512, .f32⟩
  | .hbm, ⟨80, _⟩ => ⟨S16x512, .f32⟩
  | .hbm, ⟨81, _⟩ => ⟨S16x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S_, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x512, .bf16⟩
  | .local _ .vmem, ⟨5, _⟩ => ⟨S512, .f32⟩
  | .local _ .vmem, ⟨6, _⟩ => ⟨S2000x512, .f32⟩
  | .local _ .vmem, ⟨7, _⟩ => ⟨S2000x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2000x512, .f32⟩
  | .local _ .vmem, ⟨13, _⟩ => ⟨S2000x512, .f32⟩
  | .local _ .vmem, ⟨14, _⟩ => ⟨S1x512, .f32⟩
  | .local _ .vmem, ⟨15, _⟩ => ⟨S1x512, .f32⟩
  | .local _ .vmem, ⟨16, _⟩ => ⟨S2000x1, .f32⟩
  | .local _ .vmem, ⟨17, _⟩ => ⟨S2000x1, .f32⟩
  | .local _ .vmem, ⟨18, _⟩ => ⟨S512x512, .bf16⟩
  | .local _ .vmem, ⟨19, _⟩ => ⟨S512, .f32⟩
  | .local _ .vmem, ⟨20, _⟩ => ⟨S2000x512, .f32⟩
  | .local _ .vmem, ⟨21, _⟩ => ⟨S2000x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S2000x512, .f32⟩
  | .local _ .vmem, ⟨27, _⟩ => ⟨S2000x512, .f32⟩
  | .local _ .vmem, ⟨28, _⟩ => ⟨S1x512, .f32⟩
  | .local _ .vmem, ⟨29, _⟩ => ⟨S1x512, .f32⟩
  | .local _ .vmem, ⟨30, _⟩ => ⟨S2000x1, .f32⟩
  | .local _ .vmem, ⟨31, _⟩ => ⟨S2000x1, .f32⟩
  | .local _ .vmem, ⟨32, _⟩ => ⟨S512x512, .bf16⟩
  | .local _ .vmem, ⟨33, _⟩ => ⟨S512, .f32⟩
  | .local _ .vmem, ⟨34, _⟩ => ⟨S2000x512, .f32⟩
  | .local _ .vmem, ⟨35, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55_0 : Ref sig .tc := ⟨.hbm, 79, rfl⟩
abbrev main_v55_1 : Ref sig .tc := ⟨.hbm, 80, rfl⟩
abbrev main_v55_2 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S100000_S100000x1_0 : S100000.BroadcastsInDim S100000x1 (![0] : Fin 1 → Fin S100000x1.rank)
  transposes_S512x512_S512x512_1_0 : S512x512.Transposes [1, 0] S512x512
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S2000x512 : S1x512.Broadcasts S2000x512
  inb_S8x512_S1x512_0_0 : ∀ a, (![0, 0] : Fin 2 → Nat) a + S1x512.size a ≤ S8x512.size a
  h_S1x512 : 0 < S1x512.numel
  reduces_S2000x512_S512 : S2000x512.Reduces [0] S512
  reducesTo_S16x512_S512_d0 : S16x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  shapeCasts_S2000x512_S2000x512 : S2000x512.ShapeCasts S2000x512
  inb_S1x512_S1x512_0_0 : ∀ a, (![0, 0] : Fin 2 → Nat) a + S1x512.size a ≤ S1x512.size a
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S100000x512.size a
  hwx0_4 : ∀ i : grid0.Coords, EltTy.bits .f32 = 32 ∨ (Rect.block (s := S100000x512) S2000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S16x512.size a
  hwx0_5 : ∀ i : grid0.Coords, EltTy.bits .f32 = 32 ∨ (Rect.block (s := S16x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S16x512.size a
  hwx0_6 : ∀ i : grid0.Coords, EltTy.bits .f32 = 32 ∨ (Rect.block (s := S16x512) S8x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x512.size a ≤ S100000x512.size a
  hwx1_6 : ∀ i : grid1.Coords, EltTy.bits .f32 = 32 ∨ (Rect.block (s := S100000x512) S2000x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x512.size a ≤ S16x512.size a
  hwx1_7 : ∀ i : grid1.Coords, EltTy.bits .f32 = 32 ∨ (Rect.block (s := S16x512) S8x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x512.size a ≤ S16x512.size a
  hwx1_8 : ∀ i : grid1.Coords, EltTy.bits .f32 = 32 ∨ (Rect.block (s := S16x512) S8x512.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x512.size a ≤ S100000x512.size a
  hwx2_6 : ∀ i : grid2.Coords, EltTy.bits .f32 = 32 ∨ (Rect.block (s := S100000x512) S2000x512.size (cc2_transform_6 i) (hinb2_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42_1) S8x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_2) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55_0) S2000x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v55_1) S8x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v55_2) S8x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v55_0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x512 : Shape := ⟨2, ![512, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x512 : Shape := ⟨2, ![1, 512]⟩

abbrev nBuf : Space → Nat
  | .hbm => 156
  | .vmem => 0
  | .smem => 0
  | _ => 0

abbrev hbmTy0_0 (i : Nat) : BufTy := match i % 128 with
  | 0 => ⟨S100000x512, .f32⟩
  | 1 => ⟨S2x3200000, .i32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S1x3200000, .i32⟩
  | 9 => ⟨S3200000, .i32⟩
  | 10 => ⟨S1x3200000, .i32⟩
  | 11 => ⟨S3200000, .i32⟩
  | 12 => ⟨S3200000, .i1⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000, .f32⟩
  | 44 => ⟨S_, .f32⟩
  | 45 => ⟨S100000, .f32⟩
  | 46 => ⟨S3200000x1, .i32⟩
  | 47 => ⟨S100000, .f32⟩
  | 48 => ⟨S_, .f32⟩
  | 49 => ⟨S100000, .f32⟩
  | 50 => ⟨S100000, .f32⟩
  | 51 => ⟨S100000, .f32⟩
  | 52 => ⟨S100000x1, .f32⟩
  | 53 => ⟨S512x512, .f32⟩
  | 54 => ⟨S100000x512, .f32⟩
  | 55 => ⟨S100000x512, .f32⟩
  | 56 => ⟨S100000x512, .f32⟩
  | 57 => ⟨S1x512, .f32⟩
  | 58 => ⟨S100000x512, .f32⟩
  | 59 => ⟨S100000x512, .f32⟩
  | 60 => ⟨S_, .f32⟩
  | 61 => ⟨S512, .f32⟩
  | 62 => ⟨S_, .f32⟩
  | 63 => ⟨S512, .f32⟩
  | 64 => ⟨S512, .f32⟩
  | 65 => ⟨S_, .i32⟩
  | 66 => ⟨S_, .f32⟩
  | 67 => ⟨S512, .f32⟩
  | 68 => ⟨S1x512, .f32⟩
  | 69 => ⟨S_, .f32⟩
  | 70 => ⟨S1x512, .f32⟩
  | 71 => ⟨S1x512, .f32⟩
  | 72 => ⟨S100000x512, .f32⟩
  | 73 => ⟨S100000x512, .f32⟩
  | 74 => ⟨S100000x512, .f32⟩
  | 75 => ⟨S_, .f32⟩
  | 76 => ⟨S_, .f32⟩
  | 77 => ⟨S_, .f32⟩
  | 78 => ⟨S_, .f32⟩
  | 79 => ⟨S512, .f32⟩
  | 80 => ⟨S512, .f32⟩
  | 81 => ⟨S512, .f32⟩
  | 82 => ⟨S_, .f32⟩
  | 83 => ⟨S_, .i1⟩
  | 84 => ⟨S_, .f32⟩
  | 85 => ⟨S_, .f32⟩
  | 86 => ⟨S512, .f32⟩
  | 87 => ⟨S512, .f32⟩
  | 88 => ⟨S1x512, .f32⟩
  | 89 => ⟨S100000x512, .f32⟩
  | 90 => ⟨S100000x512, .f32⟩
  | 91 => ⟨S_, .f32⟩
  | 92 => ⟨S512, .f32⟩
  | 93 => ⟨S512, .f32⟩
  | 94 => ⟨S512, .f32⟩
  | 95 => ⟨S1x512, .f32⟩
  | 96 => ⟨S100000x512, .f32⟩
  | 97 => ⟨S100000x512, .f32⟩
  | 98 => ⟨S_, .f32⟩
  | 99 => ⟨S100000x512, .f32⟩
  | 100 => ⟨S100000x512, .f32⟩
  | 101 => ⟨S512x512, .f32⟩
  | 102 => ⟨S100000x512, .f32⟩
  | 103 => ⟨S100000x512, .f32⟩
  | 104 => ⟨S100000x512, .f32⟩
  | 105 => ⟨S1x512, .f32⟩
  | 106 => ⟨S100000x512, .f32⟩
  | 107 => ⟨S100000x512, .f32⟩
  | 108 => ⟨S_, .f32⟩
  | 109 => ⟨S512, .f32⟩
  | 110 => ⟨S_, .f32⟩
  | 111 => ⟨S512, .f32⟩
  | 112 => ⟨S512, .f32⟩
  | 113 => ⟨S_, .i32⟩
  | 114 => ⟨S_, .f32⟩
  | 115 => ⟨S512, .f32⟩
  | 116 => ⟨S1x512, .f32⟩
  | 117 => ⟨S_, .f32⟩
  | 118 => ⟨S1x512, .f32⟩
  | 119 => ⟨S1x512, .f32⟩
  | 120 => ⟨S100000x512, .f32⟩
  | 121 => ⟨S100000x512, .f32⟩
  | 122 => ⟨S100000x512, .f32⟩
  | 123 => ⟨S_, .f32⟩
  | 124 => ⟨S_, .f32⟩
  | 125 => ⟨S_, .f32⟩
  | 126 => ⟨S_, .f32⟩
  | 127 => ⟨S512, .f32⟩
  | _ => ⟨S100000x512, .f32⟩

abbrev hbmTy0_1 (i : Nat) : BufTy := match i % 128 with
  | 0 => ⟨S512, .f32⟩
  | 1 => ⟨S512, .f32⟩
  | 2 => ⟨S_, .f32⟩
  | 3 => ⟨S_, .i1⟩
  | 4 => ⟨S_, .f32⟩
  | 5 => ⟨S_, .f32⟩
  | 6 => ⟨S512, .f32⟩
  | 7 => ⟨S512, .f32⟩
  | 8 => ⟨S1x512, .f32⟩
  | 9 => ⟨S100000x512, .f32⟩
  | 10 => ⟨S100000x512, .f32⟩
  | 11 => ⟨S_, .f32⟩
  | 12 => ⟨S512, .f32⟩
  | 13 => ⟨S512, .f32⟩
  | 14 => ⟨S512, .f32⟩
  | 15 => ⟨S1x512, .f32⟩
  | 16 => ⟨S100000x512, .f32⟩
  | 17 => ⟨S100000x512, .f32⟩
  | 18 => ⟨S_, .f32⟩
  | 19 => ⟨S100000x512, .f32⟩
  | 20 => ⟨S100000x512, .f32⟩
  | 21 => ⟨S512x512, .f32⟩
  | 22 => ⟨S100000x512, .f32⟩
  | 23 => ⟨S100000x512, .f32⟩
  | 24 => ⟨S100000x512, .f32⟩
  | 25 => ⟨S1x512, .f32⟩
  | 26 => ⟨S100000x512, .f32⟩
  | 27 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call1_cst : Ref sig .tc := ⟨.hbm, 98, rfl⟩
abbrev main_call1_v0 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_11 : Ref sig .tc := ⟨.hbm, 108, rfl⟩
abbrev main_v64 : Ref sig .tc := ⟨.hbm, 109, rfl⟩
abbrev main_cst_12 : Ref sig .tc := ⟨.hbm, 110, rfl⟩
abbrev main_v65 : Ref sig .tc := ⟨.hbm, 111, rfl⟩
abbrev main_v66 : Ref sig .tc := ⟨.hbm, 112, rfl⟩
abbrev main_c_13 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_14 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_call3_cst : Ref sig .tc := ⟨.hbm, 146, rfl⟩
abbrev main_call3_v0 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S100000_S100000x1_0 : S100000.BroadcastsInDim S100000x1 (![0] : Fin 1 → Fin S100000x1.rank)
  transposes_S512x512_S512x512_1_0 : S512x512.Transposes [1, 0] S512x512
  bcast_S100000x1_S100000x512_0_1 : S100000x1.BroadcastsInDim S100000x512 (![0, 1] : Fin 2 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S100000x512 : S_.BroadcastsInDim S100000x512 (![] : Fin 0 → Fin S100000x512.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x512_S512x512_S100000x512_1_0_0_1_n_n_wf : DotDims.WF S100000x512 S512x512 S100000x512 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.KRun.lean ====
/-
  The idealized kernel program's run with its result named: every weakly fair execution of the three
  launches and the host operations between them terminates, leaves the eight argument arrays as
  they were, and leaves the result array at the contents the last launch's write-backs give it
  (the last fold `W6` of the buffer contents over the program's segments).
-/
import proofs.«103207_j63436666962551_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's segments, the final thread state read against the final memory:
    the result buffer holds what the last segment boundary's contents say, each argument its
    launch contents. -/
theorem run_result : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KValue

end
-- ==== Proof.Spec.lean ====
/-
  The function both programs compute, stated once over extended reals.

  A graph network of three linear layers on 100000 nodes with 512 features.  Every layer is
  `Y(n, j) = (Σ_k X(n, k) · W(j, k)) · s(n) + b(j)` with one per-node scale `s`; between layers the
  columns of `Y` are centred and scaled by their batch statistics and clipped at zero:
  `X'(n, j) = max ((Y(n, j) − μ(j)) · (v(j) + ε)^(−1/2), 0)`, `μ(j) = (Σ_n Y(n, j)) / 100000`.
  The variance `v` is written in two ways: as the mean of the squared deviations (`var`), and as the
  mean of the squares less the squared mean, clipped at zero (`varK`).  On real data they agree.

  The scale `s` comes from the edge list alone: `scaleTerm` is the chain of host operations that
  computes it (degree counts by an accumulating scatter, the power −1/2, two gathers, a second
  scatter), written once over the shape records it cites so that two printed programs'
  texts are instances of it.
-/
import Idealize.ShloMosaic.PureOps.Ideal
import Idealize.ShloMosaic.Lib.ValueIdx

noncomputable section

namespace Cert.Spec

open Idealize.ShloMosaic Idealize.ShloMosaic.ValueIdx

/-- node × feature tables, weight tables, per-node columns, per-feature rows -/
abbrev Mat := Fin 100000 → Fin 512 → EReal
abbrev Wt := Fin 512 → Fin 512 → EReal
abbrev Col := Fin 100000 → EReal
abbrev Row := Fin 512 → EReal

/-- the node count as the programs spell it (the f32 word of 100000.0) -/
def cN : EReal := Ideal.ofBits .f32 0x47C35000#32
/-- the variance offset as the programs spell it (the f32 word nearest 1e-5) -/
def eps : EReal := Ideal.ofBits .f32 0x3727C5AC#32

/-- one linear layer: contraction with the transposed weights, the node scale, the bias -/
def lin (X : Mat) (W : Wt) (s : Col) (b : Row) : Mat :=
  fun n j => (∑ k : Fin 512, X n k * W j k) * s n + b j

/-- column means -/
def mean (Y : Mat) : Row := fun j => Ideal.div (∑ n : Fin 100000, Y n j) cN

/-- column variances as the mean squared deviation -/
def var (Y : Mat) : Row :=
  fun j => Ideal.div (∑ n : Fin 100000, (Y n j - mean Y j) * (Y n j - mean Y j)) cN

/-- column variances as the mean of squares less the squared mean, clipped at zero -/
def varK (Y : Mat) : Row :=
  fun j => max (Ideal.div (∑ n : Fin 100000, Y n j * Y n j) cN - mean Y j * mean Y j) 0

/-- centre, scale by the inverse root of the offset variance, clip at zero -/
def act (μ v : Row) (Y : Mat) : Mat :=
  fun n j => max ((Y n j - μ j) * Ideal.rsqrt (v j + eps)) 0

/-- the network with the variance as the mean squared deviation -/
def net (X : Mat) (W0 : Wt) (b0 : Row) (W1 : Wt) (b1 : Row) (W2 : Wt) (b2 : Row) (s : Col) : Mat :=
  let Y0 := lin X W0 s b0
  let Y1 := lin (act (mean Y0) (var Y0) Y0) W1 s b1
  lin (act (mean Y1) (var Y1) Y1) W2 s b2

/-- the network with the variance as mean of squares less squared mean -/
def netK (X : Mat) (W0 : Wt) (b0 : Row) (W1 : Wt) (b1 : Row) (W2 : Wt) (b2 : Row) (s : Col) : Mat :=
  let Y0 := lin X W0 s b0
  let Y1 := lin (act (mean Y0) (varK Y0) Y0) W1 s b1
  lin (act (mean Y1) (varK Y1) Y1) W2 s b2

/-- an extended real that is a real number -/
def IsReal (x : EReal) : Prop := ∃ r : ℝ, x = (r : EReal)

/-! ## Arrays read as tables -/

abbrev sNF : Shape := ⟨2, ![100000, 512]⟩
abbrev sFF : Shape := ⟨2, ![512, 512]⟩
abbrev sF : Shape := ⟨1, ![512]⟩
abbrev sN : Shape := ⟨1, ![100000]⟩
abbrev sN1 : Shape := ⟨2, ![100000, 1]⟩
abbrev sE : Shape := ⟨1, ![3200000]⟩
abbrev sE1 : Shape := ⟨2, ![3200000, 1]⟩
abbrev s1E : Shape := ⟨2, ![1, 3200000]⟩
abbrev s2E : Shape := ⟨2, ![2, 3200000]⟩
abbrev s0 : Shape := ⟨0, ![]⟩

def toMat (A : sNF.Idx → EReal) : Mat := fun n j => A (ix2 n j)
def toWt (A : sFF.Idx → EReal) : Wt := fun j k => A (ix2 j k)
def toRow (A : sF.Idx → EReal) : Row := fun j => A (ix1 j)
def toCol (A : sN1.Idx → EReal) : Col := fun n => A (ix2 n 0)

/-! ## The node scale from the edge list -/

section Scale

variable (hsl0 : s2E.Slices ![0, 0] s1E) (hsl1 : s2E.Slices ![1, 0] s1E) (hsc : s1E.ShapeCasts sE)
  (hbN : s0.BroadcastsInDim sN (![] : Fin 0 → Fin sN.rank))
  (hbE : s0.BroadcastsInDim sE (![] : Fin 0 → Fin sE.rank))
  (hbE1 : sE.BroadcastsInDim sE1 (![0] : Fin 1 → Fin sE1.rank))
  (hbN1 : sN.BroadcastsInDim sN1 (![0] : Fin 1 → Fin sN1.rank))
  (sd : ScatterDims sN sE1 sE) (gd : GatherDims sN sE1 sE)

/-- a negative index wraps once by the node count, as the programs' index normalisation does -/
def wrapIdx (v : IVec sE 32) : IVec sE 32 :=
  select (cmpi .slt v (broadcastInDim sE ![] hbE (constantI s0 32 0#32)))
    (addi v (broadcastInDim sE ![] hbE (constantI s0 32 100000#32))) v

/-- the two rows of the edge list -/
def edgeRow0 (e : IVec s2E 32) : IVec sE 32 := shapeCast sE (extractStridedSlice s1E ![0, 0] e hsl0) hsc
def edgeRow1 (e : IVec s2E 32) : IVec sE 32 := shapeCast sE (extractStridedSlice s1E ![1, 0] e hsl1) hsc

/-- 1 on an edge whose ends differ, 0 on a loop -/
def edgeMask (e : IVec s2E 32) : FVec Ideal sE .f32 :=
  uitofp (F := Ideal) .f32 (cmpi .ne (edgeRow0 hsl0 hsc e) (edgeRow1 hsl1 hsc e))

/-- in-degree over non-loop edges, plus one -/
def degTerm (e : IVec s2E 32) : FVec Ideal sN .f32 :=
  addf (Host.scatterAdd (F := Ideal) sd (broadcastInDim sN ![] hbN (constant (F := Ideal) s0 .f32 0x00000000#32))
      (broadcastInDim sE1 ![0] hbE1 (edgeRow1 hsl1 hsc e)) (edgeMask hsl0 hsl1 hsc e))
    (broadcastInDim sN ![] hbN (constant (F := Ideal) s0 .f32 0x3F800000#32))

/-- degree to the power −1/2 -/
def dinvTerm (e : IVec s2E 32) : FVec Ideal sN .f32 :=
  Host.powf (F := Ideal) (degTerm hsl0 hsl1 hsc hbN hbE1 sd e) (broadcastInDim sN ![] hbN (constant (F := Ideal) s0 .f32 0xBF000000#32))

/-- the per-node scale as a column -/
def scaleTerm (e : IVec s2E 32) : FVec Ideal sN1 .f32 :=
  broadcastInDim sN1 ![0] hbN1
    (addf
      (Host.scatterAdd (F := Ideal) sd (broadcastInDim sN ![] hbN (constant (F := Ideal) s0 .f32 0x00000000#32))
        (broadcastInDim sE1 ![0] hbE1 (edgeRow0 hsl0 hsc e))
        (mulf
          (mulf
            (Host.gather gd (dinvTerm hsl0 hsl1 hsc hbN hbE1 sd e) (broadcastInDim sE1 ![0] hbE1 (wrapIdx hbE (edgeRow0 hsl0 hsc e))))
            (Host.gather gd (dinvTerm hsl0 hsl1 hsc hbN hbE1 sd e) (broadcastInDim sE1 ![0] hbE1 (wrapIdx hbE (edgeRow1 hsl1 hsc e)))))
          (edgeMask hsl0 hsl1 hsc e)))
      (Host.divf (F := Ideal) (broadcastInDim sN ![] hbN (constant (F := Ideal) s0 .f32 0x3F800000#32))
        (degTerm hsl0 hsl1 hsc hbN hbE1 sd e)))

end Scale

end Cert.Spec

end
-- ==== Proof.Consts.lean ====
/-
  The float words the specification cites, as the real numbers they denote.
-/
import proofs.«103207_j63436666962551_2_alg».proof.Proof.Spec

noncomputable section

namespace Cert.Spec

open Idealize.ShloMosaic

/-- the node count word denotes 100000 = (2^23 + 4411392) · 2^(16 − 23) -/
theorem cN_eq : cN = ((100000 : ℝ) : EReal) := by
  unfold cN
  simp [Ideal.ofBits, Ideal.ieee]
  rw [← EReal.coe_mul]
  norm_num

/-- the offset word denotes the positive real (2^23 + 2606508) · 2^(−17 − 23) -/
theorem eps_pos : ∃ e : ℝ, 0 < e ∧ eps = (e : EReal) := by
  refine ⟨(10995116 : ℝ) * (2 : ℝ) ^ (-40 : Int), by positivity, ?_⟩
  unfold eps
  simp [Ideal.ofBits, Ideal.ieee]

theorem one_word : Ideal.ofBits .f32 0x3F800000#32 = ((1 : ℝ) : EReal) := by
  simp [Ideal.ofBits, Ideal.ieee]
  rw [← EReal.coe_mul, ← EReal.coe_one]
  norm_num

theorem neg_half_word : Ideal.ofBits .f32 0xBF000000#32 = ((-(1/2) : ℝ) : EReal) := by
  simp [Ideal.ofBits, Ideal.ieee]
  rw [← EReal.coe_mul]
  norm_num

theorem zero_word : Ideal.ofBits .f32 0x00000000#32 = (0 : EReal) := by
  simp [Ideal.ofBits, Ideal.ieee]

end Cert.Spec

end
-- ==== Proof.KStats.lean ====
/-
  The host's batch statistics between two launches.  Each launch leaves two [16, 512] tables of
  partial column sums (of the layer's values and of their squares).  The host adds the sixteen
  rows, divides by the node count and forms  max (mean of squares − mean², 0).  Read at a column
  `j`: the mean row is (Σ_r S(r, j)) / 100000 and the variance row is
  max ((Σ_r Q(r, j)) / 100000 − mean(j)², 0).
-/
import proofs.«103207_j63436666962551_2_alg».proof.Proof.Consts
import Idealize.ShloMosaic.PureOps.Ideal.Laws
import Idealize.ShloMosaic.Lib.ValueIdx

noncomputable section

namespace Cert.Spec

open Idealize.ShloMosaic Idealize.ShloMosaic.ValueIdx

/-- an array of extended reals read at an index, with the entry type stated -/
abbrev rd (S : Shape) (x : S.Idx → EReal) (i : S.Idx) : EReal := x i

abbrev s16F : Shape := ⟨2, ![16, 512]⟩
abbrev s1F : Shape := ⟨2, ![1, 512]⟩

section Stats

variable (hr : s16F.ReducesTo [0] sF) (h0 : 0 < s0.numel)
  (hb1 : sF.BroadcastsInDim s1F (![1] : Fin 1 → Fin s1F.rank))
  (hb0 : s0.BroadcastsInDim s1F (![] : Fin 0 → Fin s1F.rank))

/-- the sixteen rows added, as a [1, 512] row, over the node count -/
def meanRow (S : FVec Ideal s16F .f32) : FVec Ideal s1F .f32 :=
  Host.divf (F := Ideal)
    (broadcastInDim s1F ![1] hb1 (Host.reduceAdd (F := Ideal) S (constant (F := Ideal) s0 .f32 0x00000000#32) hr h0))
    (broadcastInDim s1F ![] hb0 (constant (F := Ideal) s0 .f32 0x47C35000#32))

/-- mean of squares less squared mean, clipped at zero -/
def varRow (S Q : FVec Ideal s16F .f32) : FVec Ideal s1F .f32 :=
  maximumf (F := Ideal)
    (subf (F := Ideal) (meanRow hr h0 hb1 hb0 Q) (mulf (F := Ideal) (meanRow hr h0 hb1 hb0 S) (meanRow hr h0 hb1 hb0 S)))
    (broadcastInDim s1F ![] hb0 (constant (F := Ideal) s0 .f32 0x00000000#32))

theorem meanRow_apply (S : FVec Ideal s16F .f32) (j : Fin 512) :
    meanRow hr h0 hb1 hb0 S (ix2 0 j) = Ideal.div (∑ r : Fin 16, S (ix2 r j)) cN := by
  have hred : s16F.Reduces [0] sF := by decide
  have e : (fun a : Fin sF.rank => if h1 : sF.size a = 1 then (⟨0, by omega⟩ : Fin (sF.size a))
      else ⟨((ix2 (0 : Fin 1) j : s1F.Idx) ((![1] : Fin 1 → Fin s1F.rank) a)).val, by
        rcases hb1.2 a with h2 | h2
        · exact absurd h2 h1
        · rw [h2]; exact ((ix2 (0 : Fin 1) j : s1F.Idx) ((![1] : Fin 1 → Fin s1F.rank) a)).isLt⟩) = ix1 j := by
    funext a
    match a with
    | ⟨0, _⟩ => rfl
  unfold meanRow
  show Ideal.div (Host.reduceAdd (F := Ideal) S (constant (F := Ideal) s0 .f32 0x00000000#32) hr h0 _)
      (Ideal.ofBits .f32 0x47C35000#32) = _
  rw [e]
  show Ideal.div (Ideal.hostReduceAdd hr S (Ideal.ofBits .f32 0x00000000#32) (ix1 j)) cN = _
  rw [Ideal.hostReduceAdd_single hr hred S _ (ix1 j), zero_word, zero_add]
  show Ideal.div (∑ k : Fin 16, S (hred.lift (ix1 j) k)) cN = _
  refine congrArg (fun x => Ideal.div x cN) (Finset.sum_congr rfl fun k _ => congrArg S (funext fun a => Fin.ext ?_))
  match a with
  | ⟨0, _⟩ => rfl
  | ⟨1, _⟩ => rfl

theorem varRow_apply (S Q : FVec Ideal s16F .f32) (j : Fin 512) :
    varRow hr h0 hb1 hb0 S Q (ix2 0 j)
      = max (Ideal.div (∑ r : Fin 16, Q (ix2 r j)) cN
          - Ideal.div (∑ r : Fin 16, S (ix2 r j)) cN * Ideal.div (∑ r : Fin 16, S (ix2 r j)) cN) 0 := by
  unfold varRow
  show max (meanRow hr h0 hb1 hb0 Q (ix2 0 j) - meanRow hr h0 hb1 hb0 S (ix2 0 j) * meanRow hr h0 hb1 hb0 S (ix2 0 j))
      (Ideal.ofBits .f32 0x00000000#32) = _
  rw [meanRow_apply, meanRow_apply, zero_word]

end Stats

end Cert.Spec

end
-- ==== Proof.KGlue.lean ====
/-
  What each launch finds in its windows, and what the program returns.

  Between the launches the host only (i) computes the node scale column from the edge list, once,
  (ii) transposes the three weight tables, and (iii) turns each launch's two tables of partial
  column sums into a mean row and a variance row.  Every buffer a launch reads is therefore one of:
  an argument, the scale column, a transposed weight table, the previous launch's output array, or
  a mean / variance row of the previous launch's partial sums.
-/
import proofs.«103207_j63436666962551_2_alg».proof.Proof.Gen.KernelIdeal.Frame
import proofs.«103207_j63436666962551_2_alg».proof.Proof.KStats
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- the node scale column as this program's host operations compute it from the edge list -/
abbrev scaleK (e : IVec S2x3200000 32) : FVec Ideal S100000x1 .f32 :=
  Cert.Spec.scaleTerm Facts₀.slices_S2x3200000_S1x3200000_0_0 Facts₀.slices_S2x3200000_S1x3200000_1_0 Facts₀.shapeCasts_S1x3200000_S3200000
    Facts₀.bcast_S_S100000 Facts₀.bcast_S_S3200000 Facts₀.bcast_S3200000_S3200000x1_0 Facts₀.bcast_S100000_S100000x1_0
    scatter_S100000_S3200000x1_S3200000_n_0_0_1 gather_S100000_S3200000x1_S3200000_n_0_n_n_0_1_1 e

/-- the host's mean and variance rows over this program's shape facts -/
abbrev meanK (S : FVec Ideal S16x512 .f32) : FVec Ideal S1x512 .f32 :=
  Cert.Spec.meanRow Facts₀.reducesTo_S16x512_S512_d0 Facts₀.h_S_ Facts₀.bcast_S512_S1x512_1 Facts₀.bcast_S_S1x512 S
abbrev varK (S Q : FVec Ideal S16x512 .f32) : FVec Ideal S1x512 .f32 :=
  Cert.Spec.varRow Facts₀.reducesTo_S16x512_S512_d0 Facts₀.h_S_ Facts₀.bcast_S512_S1x512_1 Facts₀.bcast_S_S1x512 S Q

/-! ## After the first stretch of host operations -/

theorem W1_arg0 : W1 (F := Ideal) m ρ c (Proc.devRef .tc main_arg0) = m ((c : Thread nD τ).loc main_arg0) := by
  show StableHlo.after hostOps0 (W0 m ρ c) (Proc.devRef .tc main_arg0) = _
  after_results_simp

theorem W1_arg3 : W1 (F := Ideal) m ρ c (Proc.devRef .tc main_arg3) = m ((c : Thread nD τ).loc main_arg3) := by
  show StableHlo.after hostOps0 (W0 m ρ c) (Proc.devRef .tc main_arg3) = _
  after_results_simp

theorem W1_arg5 : W1 (F := Ideal) m ρ c (Proc.devRef .tc main_arg5) = m ((c : Thread nD τ).loc main_arg5) := by
  show StableHlo.after hostOps0 (W0 m ρ c) (Proc.devRef .tc main_arg5) = _
  after_results_simp

theorem W1_arg7 : W1 (F := Ideal) m ρ c (Proc.devRef .tc main_arg7) = m ((c : Thread nD τ).loc main_arg7) := by
  show StableHlo.after hostOps0 (W0 m ρ c) (Proc.devRef .tc main_arg7) = _
  after_results_simp

theorem W1_v35 : (W1 (F := Ideal) m ρ c (Proc.devRef .tc main_v35) : S100000x1.Idx → EReal)
    = scaleK (m ((c : Thread nD τ).loc main_arg1)) := by
  show StableHlo.after hostOps0 (W0 m ρ c) (Proc.devRef .tc main_v35) = _
  after_results_simp
  rfl

theorem W1_v37 (k j : Fin 512) : (W1 (F := Ideal) m ρ c (Proc.devRef .tc main_v37) : S512x512.Idx → EReal) (ix2 k j)
    = (m ((c : Thread nD τ).loc main_arg2) : S512x512.Idx → EReal) (ix2 j k) := by
  have e : (W1 (F := Ideal) m ρ c (Proc.devRef .tc main_v37) : S512x512.Idx → EReal)
      = truncf (F := Ideal) .bf16 (transpose S512x512 [1, 0] (m ((c : Thread nD τ).loc main_arg2)) Facts₀.transposes_S512x512_S512x512_1_0) Facts₀.bitsLt_bf16_f32 := by
    show StableHlo.after hostOps0 (W0 m ρ c) (Proc.devRef .tc main_v37) = _
    after_results_simp
  rw [e]
  exact transpose_ix2_apply _ _ k j

theorem W1_v39 (k j : Fin 512) : (W1 (F := Ideal) m ρ c (Proc.devRef .tc main_v39) : S512x512.Idx → EReal) (ix2 k j)
    = (m ((c : Thread nD τ).loc main_arg4) : S512x512.Idx → EReal) (ix2 j k) := by
  have e : (W1 (F := Ideal) m ρ c (Proc.devRef .tc main_v39) : S512x512.Idx → EReal)
      = truncf (F := Ideal) .bf16 (transpose S512x512 [1, 0] (m ((c : Thread nD τ).loc main_arg4)) Facts₀.transposes_S512x512_S512x512_1_0) Facts₀.bitsLt_bf16_f32 := by
    show StableHlo.after hostOps0 (W0 m ρ c) (Proc.devRef .tc main_v39) = _
    after_results_simp
  rw [e]
  exact transpose_ix2_apply _ _ k j

theorem W1_v41 (k j : Fin 512) : (W1 (F := Ideal) m ρ c (Proc.devRef .tc main_v41) : S512x512.Idx → EReal) (ix2 k j)
    = (m ((c : Thread nD τ).loc main_arg6) : S512x512.Idx → EReal) (ix2 j k) := by
  have e : (W1 (F := Ideal) m ρ c (Proc.devRef .tc main_v41) : S512x512.Idx → EReal)
      = truncf (F := Ideal) .bf16 (transpose S512x512 [1, 0] (m ((c : Thread nD τ).loc main_arg6)) Facts₀.transposes_S512x512_S512x512_1_0) Facts₀.bitsLt_bf16_f32 := by
    show StableHlo.after hostOps0 (W0 m ρ c) (Proc.devRef .tc main_v41) = _
    after_results_simp
  rw [e]
  exact transpose_ix2_apply _ _ k j

/-! ## What the second launch finds: buffers the first launch does not write pass through it -/

theorem W3_pass (b : Ref sig .tc) (h0 : ∀ w, Pipeline.arrRef spec0 w ≠ b)
    (h1 : StableHlo.after hostOps1 (W2 (F := Ideal) m ρ c) (Proc.devRef .tc b) = W2 m ρ c (Proc.devRef .tc b)) :
    W3 (F := Ideal) m ρ c (Proc.devRef .tc b) = W1 m ρ c (Proc.devRef .tc b) :=
  h1.trans (W2_of_ne m ρ c b h0)

theorem W3_v35 : (W3 (F := Ideal) m ρ c (Proc.devRef .tc main_v35) : S100000x1.Idx → EReal)
    = scaleK (m ((c : Thread nD τ).loc main_arg1)) := by
  have e : W3 (F := Ideal) m ρ c (Proc.devRef .tc main_v35) = W2 m ρ c (Proc.devRef .tc main_v35) := by
    show StableHlo.after hostOps1 (W2 m ρ c) (Proc.devRef .tc main_v35) = _
    after_results_simp
  have e' : W2 (F := Ideal) m ρ c (Proc.devRef .tc main_v35) = W1 m ρ c (Proc.devRef .tc main_v35) :=
    (W2_arr m ρ c 1).trans (((dat0 (V1 m ρ) c).arrAt_in 1 rfl _).trans (A_eq0 (V1 m ρ) c 1))
  exact (e.trans e').trans (W1_v35 m ρ c)

theorem W3_v39 (k j : Fin 512) : (W3 (F := Ideal) m ρ c (Proc.devRef .tc main_v39) : S512x512.Idx → EReal) (ix2 k j)
    = (m ((c : Thread nD τ).loc main_arg4) : S512x512.Idx → EReal) (ix2 j k) := by
  rw [W3_pass m ρ c main_v39 (by decide) (by after_results_simp)]
  exact W1_v39 m ρ c k j

theorem W3_arg5 : W3 (F := Ideal) m ρ c (Proc.devRef .tc main_arg5) = m ((c : Thread nD τ).loc main_arg5) :=
  (W3_pass m ρ c main_arg5 (by decide) (by after_results_simp)).trans (W1_arg5 m ρ c)

theorem W3_v42_0 : W3 (F := Ideal) m ρ c (Proc.devRef .tc main_v42_0) = W2 m ρ c (Proc.devRef .tc main_v42_0) := by
  show StableHlo.after hostOps1 (W2 m ρ c) (Proc.devRef .tc main_v42_0) = _
  after_results_simp

theorem W3_v46 : (W3 (F := Ideal) m ρ c (Proc.devRef .tc main_v46) : S1x512.Idx → EReal)
    = meanK (W2 m ρ c (Proc.devRef .tc main_v42_1)) := by
  show StableHlo.after hostOps1 (W2 m ρ c) (Proc.devRef .tc main_v46) = _
  after_results_simp
  rfl

theorem W3_v54 : (W3 (F := Ideal) m ρ c (Proc.devRef .tc main_v54) : S1x512.Idx → EReal)
    = varK (W2 m ρ c (Proc.devRef .tc main_v42_1)) (W2 m ρ c (Proc.devRef .tc main_v42_2)) := by
  show StableHlo.after hostOps1 (W2 m ρ c) (Proc.devRef .tc main_v54) = _
  after_results_simp
  rfl

/-! ## What the third launch finds -/

theorem W5_pass (b : Ref sig .tc) (h0 : ∀ w, Pipeline.arrRef spec1 w ≠ b)
    (h1 : StableHlo.after hostOps2 (W4 (F := Ideal) m ρ c) (Proc.devRef .tc b) = W4 m ρ c (Proc.devRef .tc b)) :
    W5 (F := Ideal) m ρ c (Proc.devRef .tc b) = W3 m ρ c (Proc.devRef .tc b) :=
  h1.trans (W4_of_ne m ρ c b h0)

theorem W5_v35 : (W5 (F := Ideal) m ρ c (Proc.devRef .tc main_v35) : S100000x1.Idx → EReal)
    = scaleK (m ((c : Thread nD τ).loc main_arg1)) := by
  have e : W5 (F := Ideal) m ρ c (Proc.devRef .tc main_v35) = W4 m ρ c (Proc.devRef .tc main_v35) := by
    show StableHlo.after hostOps2 (W4 m ρ c) (Proc.devRef .tc main_v35) = _
    after_results_simp
  have e' : W4 (F := Ideal) m ρ c (Proc.devRef .tc main_v35) = W3 m ρ c (Proc.devRef .tc main_v35) :=
    (W4_arr m ρ c 3).trans (((dat1 (V3 m ρ) c).arrAt_in 3 rfl _).trans (A_eq1 (V3 m ρ) c 3))
  exact (e.trans e').trans (W3_v35 m ρ c)

theorem W5_v41 (k j : Fin 512) : (W5 (F := Ideal) m ρ c (Proc.devRef .tc main_v41) : S512x512.Idx → EReal) (ix2 k j)
    = (m ((c : Thread nD τ).loc main_arg6) : S512x512.Idx → EReal) (ix2 j k) := by
  rw [W5_pass m ρ c main_v41 (by decide) (by after_results_simp),
    W3_pass m ρ c main_v41 (by decide) (by after_results_simp)]
  exact W1_v41 m ρ c k j

theorem W5_arg7 : W5 (F := Ideal) m ρ c (Proc.devRef .tc main_arg7) = m ((c : Thread nD τ).loc main_arg7) :=
  ((W5_pass m ρ c main_arg7 (by decide) (by after_results_simp)).trans
    (W3_pass m ρ c main_arg7 (by decide) (by after_results_simp))).trans (W1_arg7 m ρ c)

theorem W5_v55_0 : W5 (F := Ideal) m ρ c (Proc.devRef .tc main_v55_0) = W4 m ρ c (Proc.devRef .tc main_v55_0) := by
  show StableHlo.after hostOps2 (W4 m ρ c) (Proc.devRef .tc main_v55_0) = _
  after_results_simp

theorem W5_v59 : (W5 (F := Ideal) m ρ c (Proc.devRef .tc main_v59) : S1x512.Idx → EReal)
    = meanK (W4 m ρ c (Proc.devRef .tc main_v55_1)) := by
  show StableHlo.after hostOps2 (W4 m ρ c) (Proc.devRef .tc main_v59) = _
  after_results_simp
  rfl

theorem W5_v67 : (W5 (F := Ideal) m ρ c (Proc.devRef .tc main_v67) : S1x512.Idx → EReal)
    = varK (W4 m ρ c (Proc.devRef .tc main_v55_1)) (W4 m ρ c (Proc.devRef .tc main_v55_2)) := by
  show StableHlo.after hostOps2 (W4 m ρ c) (Proc.devRef .tc main_v67) = _
  after_results_simp
  rfl

end Cert.KernelIdeal.KValue

end
-- ==== Proof.KValue.lean ====
/-
  The idealized kernel program's result is the network `netK` of its arguments.

  Three launches, each one linear layer.  The first leaves Y0 = lin X W0 s b0 and the column sums
  of Y0 and of Y0², from which the host forms mean Y0 and varK Y0.  The second normalises Y0 with
  them and leaves Y1 = lin (act (mean Y0) (varK Y0) Y0) W1 s b1 with its column sums; the third
  leaves lin (act (mean Y1) (varK Y1) Y1) W2 s b2, which is `netK` unfolded.
  Each launch's fact enters in the shape "an output array of the launch, read at an index, as a
  function of the arrays the launch found" (`found0`, `found1`, `found2` below).
-/
import proofs.«103207_j63436666962551_2_alg».proof.Proof.KGlue

set_option maxRecDepth 16384

noncomputable section

namespace Cert.KernelIdeal.KValue

open Idealize.ShloMosaic Idealize.ShloMosaic.TcCoe Idealize.ShloMosaic.ValueIdx
open Cert.KernelIdeal Cert.KernelIdeal.Gen Cert.Spec

variable (m : (ℓ : Loc nD τ sig) → Buf (Elt Ideal) ℓ) (ρ : Dev nD → PrngReg) (c : Dev nD)

/-- the argument tables -/
abbrev aX : Mat := toMat (m ((c : Thread nD τ).loc main_arg0))
abbrev aW0 : Wt := toWt (m ((c : Thread nD τ).loc main_arg2))
abbrev ab0 : Row := toRow (m ((c : Thread nD τ).loc main_arg3))
abbrev aW1 : Wt := toWt (m ((c : Thread nD τ).loc main_arg4))
abbrev ab1 : Row := toRow (m ((c : Thread nD τ).loc main_arg5))
abbrev aW2 : Wt := toWt (m ((c : Thread nD τ).loc main_arg6))
abbrev ab2 : Row := toRow (m ((c : Thread nD τ).loc main_arg7))
abbrev aS : Col := toCol (scaleK (m ((c : Thread nD τ).loc main_arg1)))

/-- the first and second layers' values -/
def layer0 : Mat := lin (aX m c) (aW0 m c) (aS m c) (ab0 m c)
def layer1 : Mat :=
  lin (act (mean (layer0 m c)) (Spec.varK (layer0 m c)) (layer0 m c)) (aW1 m c) (aS m c) (ab1 m c)

/-- a [1, 512] row read as a function of the column -/
abbrev rowOf (R : S1x512.Idx → EReal) : Row := fun j => R (ix2 (0 : Fin 1) j)
/-- a transposed weight table read as weights -/
abbrev wtOf (WT : S512x512.Idx → EReal) : Wt := fun j k => WT (ix2 k j)

/-- each launch's layer over the arrays it found in its windows -/
def found0 : Mat :=
  lin (toMat (W1 (F := Ideal) m ρ c (Proc.devRef .tc main_arg0))) (wtOf (W1 (F := Ideal) m ρ c (Proc.devRef .tc main_v37)))
    (toCol (W1 (F := Ideal) m ρ c (Proc.devRef .tc main_v35))) (toRow (W1 (F := Ideal) m ρ c (Proc.devRef .tc main_arg3)))
def found1 : Mat :=
  lin (act (rowOf (W3 (F := Ideal) m ρ c (Proc.devRef .tc main_v46))) (rowOf (W3 (F := Ideal) m ρ c (Proc.devRef .tc main_v54)))
        (toMat (W3 (F := Ideal) m ρ c (Proc.devRef .tc main_v42_0))))
    (wtOf (W3 (F := Ideal) m ρ c (Proc.devRef .tc main_v39)))
    (toCol (W3 (F := Ideal) m ρ c (Proc.devRef .tc main_v35))) (toRow (W3 (F := Ideal) m ρ c (Proc.devRef .tc main_arg5)))
def found2 : Mat :=
  lin (act (rowOf (W5 (F := Ideal) m ρ c (Proc.devRef .tc main_v59))) (rowOf (W5 (F := Ideal) m ρ c (Proc.devRef .tc main_v67)))
        (toMat (W5 (F := Ideal) m ρ c (Proc.devRef .tc main_v55_0))))
    (wtOf (W5 (F := Ideal) m ρ c (Proc.devRef .tc main_v41)))
    (toCol (W5 (F := Ideal) m ρ c (Proc.devRef .tc main_v35))) (toRow (W5 (F := Ideal) m ρ c (Proc.devRef .tc main_arg7)))

/-- what the first launch found is the arguments: its layer is the first layer -/
theorem found0_eq : found0 m ρ c = layer0 m c := by
  unfold found0 layer0
  rw [W1_arg0, W1_v35, W1_arg3]
  have e : wtOf (W1 (F := Ideal) m ρ c (Proc.devRef .tc main_v37)) = aW0 m c := by
    funext j k; exact W1_v37 m ρ c k j
  rw [e]

section Compose

variable
  (H04 : ∀ (n : Fin 100000) (j : Fin 512),
    rd S100000x512 (W2 (F := Ideal) m ρ c (Proc.devRef .tc main_v42_0)) (ix2 n j) = found0 m ρ c n j)
  (H05 : ∀ j : Fin 512, ∑ r : Fin 16, rd S16x512 (W2 (F := Ideal) m ρ c (Proc.devRef .tc main_v42_1)) (ix2 r j)
    = ∑ n : Fin 100000, found0 m ρ c n j)
  (H06 : ∀ j : Fin 512, ∑ r : Fin 16, rd S16x512 (W2 (F := Ideal) m ρ c (Proc.devRef .tc main_v42_2)) (ix2 r j)
    = ∑ n : Fin 100000, found0 m ρ c n j * found0 m ρ c n j)
  (H16 : ∀ (n : Fin 100000) (j : Fin 512),
    rd S100000x512 (W4 (F := Ideal) m ρ c (Proc.devRef .tc main_v55_0)) (ix2 n j) = found1 m ρ c n j)
  (H17 : ∀ j : Fin 512, ∑ r : Fin 16, rd S16x512 (W4 (F := Ideal) m ρ c (Proc.devRef .tc main_v55_1)) (ix2 r j)
    = ∑ n : Fin 100000, found1 m ρ c n j)
  (H18 : ∀ j : Fin 512, ∑ r : Fin 16, rd S16x512 (W4 (F := Ideal) m ρ c (Proc.devRef .tc main_v55_2)) (ix2 r j)
    = ∑ n : Fin 100000, found1 m ρ c n j * found1 m ρ c n j)
  (H26 : ∀ (n : Fin 100000) (j : Fin 512),
    rd S100000x512 (W6 (F := Ideal) m ρ c (Proc.devRef .tc main_v68)) (ix2 n j) = found2 m ρ c n j)

include H04 H05 H06 in
/-- the second launch found the first layer, its mean and its variance: its layer is the second layer -/
theorem found1_eq : found1 m ρ c = layer1 m c := by
  have hY : toMat (W3 (F := Ideal) m ρ c (Proc.devRef .tc main_v42_0)) = layer0 m c := by
    funext n j
    show rd S100000x512 (W3 (F := Ideal) m ρ c (Proc.devRef .tc main_v42_0)) (ix2 n j) = _
    rw [W3_v42_0, H04 n j, found0_eq]
  have hμ : rowOf (W3 (F := Ideal) m ρ c (Proc.devRef .tc main_v46)) = mean (layer0 m c) := by
    funext j
    show (W3 (F := Ideal) m ρ c (Proc.devRef .tc main_v46) : S1x512.Idx → EReal) (ix2 (0 : Fin 1) j) = _
    rw [W3_v46]
    refine (Spec.meanRow_apply _ _ _ _ _ j).trans ?_
    rw [H05 j, found0_eq]; rfl
  have hv : rowOf (W3 (F := Ideal) m ρ c (Proc.devRef .tc main_v54)) = Spec.varK (layer0 m c) := by
    funext j
    show (W3 (F := Ideal) m ρ c (Proc.devRef .tc main_v54) : S1x512.Idx → EReal) (ix2 (0 : Fin 1) j) = _
    rw [W3_v54]
    refine (Spec.varRow_apply _ _ _ _ _ _ j).trans ?_
    rw [H05 j, H06 j, found0_eq]; rfl
  have hW : wtOf (W3 (F := Ideal) m ρ c (Proc.devRef .tc main_v39)) = aW1 m c := by
    funext j k; exact W3_v39 m ρ c k j
  unfold found1 layer1
  rw [hY, hμ, hv, hW, W3_v35, W3_arg5]

include H04 H05 H06 H16 H17 H18 in
/-- the third launch found the second layer, its mean and its variance -/
theorem found2_eq : found2 m ρ c
    = lin (act (mean (layer1 m c)) (Spec.varK (layer1 m c)) (layer1 m c)) (aW2 m c) (aS m c) (ab2 m c) := by
  have f1 := found1_eq m ρ c H04 H05 H06
  have hY : toMat (W5 (F := Ideal) m ρ c (Proc.devRef .tc main_v55_0)) = layer1 m c := by
    funext n j
    show rd S100000x512 (W5 (F := Ideal) m ρ c (Proc.devRef .tc main_v55_0)) (ix2 n j) = _
    rw [W5_v55_0, H16 n j, f1]
  have hμ : rowOf (W5 (F := Ideal) m ρ c (Proc.devRef .tc main_v59)) = mean (layer1 m c) := by
    funext j
    show (W5 (F := Ideal) m ρ c (Proc.devRef .tc main_v59) : S1x512.Idx → EReal) (ix2 (0 : Fin 1) j) = _
    rw [W5_v59]
    refine (Spec.meanRow_apply _ _ _ _ _ j).trans ?_
    rw [H17 j, f1]; rfl
  have hv : rowOf (W5 (F := Ideal) m ρ c (Proc.devRef .tc main_v67)) = Spec.varK (layer1 m c) := by
    funext j
    show (W5 (F := Ideal) m ρ c (Proc.devRef .tc main_v67) : S1x512.Idx → EReal) (ix2 (0 : Fin 1) j) = _
    rw [W5_v67]
    refine (Spec.varRow_apply _ _ _ _ _ _ j).trans ?_
    rw [H17 j, H18 j, f1]; rfl
  have hW : wtOf (W5 (F := Ideal) m ρ c (Proc.devRef .tc main_v41)) = aW2 m c := by
    funext j k; exact W5_v41 m ρ c k j
  unfold found2
  rw [hY, hμ, hv, hW, W5_v35, W5_arg7]

include H04 H05 H06 H16 H17 H18 H26 in
/-- the result array, read at (n, j), is the network of the arguments with the clipped-difference variance -/
theorem result_of (n : Fin 100000) (j : Fin 512) :
    rd S100000x512 (W6 (F := Ideal) m ρ c (Proc.devRef .tc main_v68)) (ix2 n j)
      = netK (aX m c) (aW0 m c) (ab0 m c) (aW1 m c) (ab1 m c) (aW2 m c) (ab2 m c) (aS m c) n j := by
  rw [H26 n j, found2_eq m ρ c H04 H05 H06 H16 H17 H18]
  rfl

end Compose

end Cert.KernelIdeal.KValue

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KRegion0Pay.lean ====
/-
  The arithmetic of the first layer's body at one grid point, read index by index over extended reals.

  The body takes a 2000-row block x of the node features, the transposed weights w ([k, j]), the block's
  scale column s and the bias row b, and forms  y(p, q) = (Σ_k x(p, k) · w(k, q)) · s(p) + b(q).
  It stores y whole, and adds to row 0 of two running-sum blocks the column sums  Σ_p y(p, q)  and
  Σ_p y(p, q)².
-/
import proofs.«103207_j63436666962551_2_alg».proof.Proof.Gen.KernelIdeal.Skeleton
import proofs.«103207_j63436666962551_2_alg».proof.Proof.LibPlainMatmul
import proofs.«103207_j63436666962551_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue0

open Idealize.ShloMosaic Idealize.ShloMosaic.ValueIdx
open Cert.KernelIdeal Cert.KernelIdeal.Gen

/-- Summing an [a, b] array over its rows from zero: at column q the result is the sum over p of the entries (p, q). -/
theorem column_sum_zero_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = FKind.add.neutral .f32 hφ) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  show ∑ p : Fin a, src (h.lift (ix1 q) p) = _
  refine Finset.sum_congr rfl fun p _ => congrArg src ?_
  funext c; apply Fin.ext
  fin_cases c <;> rfl

/-- A [b] vector recast as a [1, b] row reads, at (u, q), the vector at q. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The layer's value at (p, q) of the block. -/
theorem pay3_apply (v3 : Vec Ideal S2000x512 .f32) (v5 : Vec Ideal S512x512 .bf16) (v8 : Vec Ideal S2000x1 .f32)
    (v12 : Vec Ideal S512 .f32) (p : Fin 2000) (q : Fin 512) :
    k0_pay3 (F := Ideal) v3 v5 v8 v12 (ix2 p q)
      = (∑ k : Fin 512, v3 (ix2 p k) * v5 (ix2 k q)) * v8 (ix2 p (0 : Fin 1)) + v12 (ix1 q) := by
  unfold k0_pay3
  simp only [shapeCast_self]
  rw [addf_apply, mulf_apply]
  refine congrArg₂ (· + ·) (congrArg₂ (· * ·) ?_ ?_) ?_
  · exact Cert.Lib.matmul_plain_zero_apply none (truncf .bf16 v3 bitsLt_bf16_f32) v5 p q
  · exact Cert.Lib.broadcastTo_a1_ab_apply v8 broadcasts_S2000x1_S2000x512 p q
  · refine (broadcastTo_1b_ab_apply _ broadcasts_S1x512_S2000x512 p q).trans ?_
    exact shapeCast_b_1b_apply v12 shapeCasts_S512_S1x512 0 q

/-- The running column sums: row 0 of the block plus the column sums of the layer's value. -/
theorem pay4_apply (v3 : Vec Ideal S2000x512 .f32) (v5 : Vec Ideal S512x512 .bf16) (v8 : Vec Ideal S2000x1 .f32)
    (v12 : Vec Ideal S512 .f32) (v19 : Vec Ideal S1x512 .f32) (q : Fin 512) :
    k0_pay4 (F := Ideal) v3 v5 v8 v12 v19 (ix2 (0 : Fin 1) q)
      = v19 (ix2 (0 : Fin 1) q) + ∑ p : Fin 2000, k0_pay3 (F := Ideal) v3 v5 v8 v12 (ix2 p q) := by
  unfold k0_pay4
  simp only [shapeCast_self]
  rw [addf_apply]
  refine congrArg (v19 (ix2 (0 : Fin 1) q) + ·) ?_
  refine (shapeCast_b_1b_apply _ shapeCasts_S512_S1x512 0 q).trans ?_
  exact column_sum_zero_apply (k0_pay3 (F := Ideal) v3 v5 v8 v12) reduces_S2000x512_S512 (.inl rfl) rfl q

/-- The running column sums of squares. -/
theorem pay5_apply (v3 : Vec Ideal S2000x512 .f32) (v5 : Vec Ideal S512x512 .bf16) (v8 : Vec Ideal S2000x1 .f32)
    (v12 : Vec Ideal S512 .f32) (v25 : Vec Ideal S1x512 .f32) (q : Fin 512) :
    k0_pay5 (F := Ideal) v3 v5 v8 v12 v25 (ix2 (0 : Fin 1) q)
      = v25 (ix2 (0 : Fin 1) q)
        + ∑ p : Fin 2000, k0_pay3 (F := Ideal) v3 v5 v8 v12 (ix2 p q) * k0_pay3 (F := Ideal) v3 v5 v8 v12 (ix2 p q) := by
  unfold k0_pay5
  simp only [shapeCast_self]
  rw [addf_apply]
  refine congrArg (v25 (ix2 (0 : Fin 1) q) + ·) ?_
  refine (shapeCast_b_1b_apply _ shapeCasts_S512_S1x512 0 q).trans ?_
  exact column_sum_zero_apply (mulf (k0_pay3 (F := Ideal) v3 v5 v8 v12) (k0_pay3 (F := Ideal) v3 v5 v8 v12))
    reduces_S2000x512_S512 (.inl rfl) rfl q

end Cert.KernelIdeal.KValue0

end
-- ==== Proof.KRegion0Blocks.lean ====
/-
  The blocks the first layer's body loads at a grid point, read off the arrays the region finds.

  Point t (of 50) loads rows 2000·t … 2000·t + 1999 of the node features X and of the scale column s,
  the whole transposed weights and the whole bias; so the body's value at (p, q) of its block is the
  layer's value  Y(n, q) = (Σ_k X(n, k) · W(q, k)) · s(n) + b(q)  at row n = 2000·t + p.
-/
import proofs.«103207_j63436666962551_2_alg».proof.Proof.Gen.KernelIdeal.Frame
import proofs.«103207_j63436666962551_2_alg».proof.Proof.KRegion0Pay
import proofs.«103207_j63436666962551_2_alg».proof.Proof.Spec
import Idealize.ShloMosaic.Lib.Pipeline.Value
import Idealize.ShloMosaic.Lib.ValueIdx

noncomputable section

namespace Cert.KernelIdeal.KValue0

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The four arrays the region reads, as tables. -/
def X0 : Spec.Mat := Spec.toMat (V c (Pipeline.arrRef spec0 0))
def s0 : Spec.Col := Spec.toCol (V c (Pipeline.arrRef spec0 1))
def W0 : Spec.Wt := fun j k => V c (Pipeline.arrRef spec0 2) (ix2 k j)
def b0 : Spec.Row := Spec.toRow (V c (Pipeline.arrRef spec0 3))
/-- The layer's value. -/
def Y0 : Spec.Mat := Spec.lin (X0 V c) (W0 V c) (s0 V c) (b0 V c)

/-- The block index maps, decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val / 25 ∧ win0_5.index t (1 : Fin 2) = 0
    ∧ win0_6.index t (0 : Fin 2) = t.val / 25 ∧ win0_6.index t (1 : Fin 2) = 0 :=
  (by decide +kernel : ∀ t : Fin grid0.N, _)

/-- The feature block at point t, at (p, k): the features at row 2000·t + p. -/
theorem blk_0 (t : Fin cfg0.N) (p : Fin 2000) (k : Fin 512) (n : Fin 100000) (hn : n.val = t.val * 2000 + p.val) :
    (iblk0 V c 0 t : Vec Ideal S2000x512 .f32) (ix2 p k) = X0 V c n k := by
  obtain ⟨e0, e1, -⟩ := idx_facts t
  show V c (Pipeline.arrRef spec0 0) (((cfg0.win 0).blk t).view.emb (ix2 p k)) = V c (Pipeline.arrRef spec0 0) (ix2 n k)
  refine congrArg (V c (Pipeline.arrRef spec0 0)) ?_
  funext a; apply Fin.ext
  match a with
  | ⟨0, _⟩ => show win0_0.index t (0 : Fin 2) * 2000 + 1 * p.val = n.val; rw [e0, hn]; omega
  | ⟨1, _⟩ => show win0_0.index t (1 : Fin 2) * 512 + 1 * k.val = k.val; rw [e1]; omega

/-- The scale block at point t, at (p, 0): the scale of row 2000·t + p. -/
theorem blk_1 (t : Fin cfg0.N) (p : Fin 2000) (n : Fin 100000) (hn : n.val = t.val * 2000 + p.val) :
    (iblk0 V c 1 t : Vec Ideal S2000x1 .f32) (ix2 p (0 : Fin 1)) = s0 V c n := by
  obtain ⟨-, -, e0, e1, -⟩ := idx_facts t
  show V c (Pipeline.arrRef spec0 1) (((cfg0.win 1).blk t).view.emb (ix2 p (0 : Fin 1))) = V c (Pipeline.arrRef spec0 1) (ix2 n (0 : Fin 1))
  refine congrArg (V c (Pipeline.arrRef spec0 1)) ?_
  funext a; apply Fin.ext
  match a with
  | ⟨0, _⟩ => show win0_1.index t (0 : Fin 2) * 2000 + 1 * p.val = n.val; rw [e0, hn]; omega
  | ⟨1, _⟩ => show win0_1.index t (1 : Fin 2) * 1 + 1 * 0 = 0; rw [e1]

/-- The weights block is the whole transposed weights. -/
theorem blk_2 (t : Fin cfg0.N) (k j : Fin 512) :
    (iblk0 V c 2 t : Vec Ideal S512x512 .bf16) (ix2 k j) = W0 V c j k := by
  obtain ⟨-, -, -, -, e0, e1, -⟩ := idx_facts t
  show V c (Pipeline.arrRef spec0 2) (((cfg0.win 2).blk t).view.emb (ix2 k j)) = V c (Pipeline.arrRef spec0 2) (ix2 k j)
  refine congrArg (V c (Pipeline.arrRef spec0 2)) ?_
  funext a; apply Fin.ext
  match a with
  | ⟨0, _⟩ => show win0_2.index t (0 : Fin 2) * 512 + 1 * k.val = k.val; rw [e0]; omega
  | ⟨1, _⟩ => show win0_2.index t (1 : Fin 2) * 512 + 1 * j.val = j.val; rw [e1]; omega

/-- The bias block is the whole bias. -/
theorem blk_3 (t : Fin cfg0.N) (j : Fin 512) :
    (iblk0 V c 3 t : Vec Ideal S512 .f32) (ix1 j) = b0 V c j := by
  obtain ⟨-, -, -, -, -, -, e0, -⟩ := idx_facts t
  show V c (Pipeline.arrRef spec0 3) (((cfg0.win 3).blk t).view.emb (ix1 j)) = V c (Pipeline.arrRef spec0 3) (ix1 j)
  refine congrArg (V c (Pipeline.arrRef spec0 3)) ?_
  funext a; apply Fin.ext
  match a with
  | ⟨0, _⟩ => show win0_3.index t (0 : Fin 1) * 512 + 1 * j.val = j.val; rw [e0]; omega

/-- The body's value at point t, at (p, q), is the layer's value at row 2000·t + p. -/
theorem pay3_blocks (t : Fin cfg0.N) (p : Fin 2000) (q : Fin 512) (n : Fin 100000) (hn : n.val = t.val * 2000 + p.val) :
    k0_pay3 (F := Ideal) (iblk0 V c 0 t) (iblk0 V c 2 t) (iblk0 V c 1 t) (iblk0 V c 3 t) (ix2 p q) = Y0 V c n q := by
  refine (pay3_apply (iblk0 V c 0 t) (iblk0 V c 2 t) (iblk0 V c 1 t) (iblk0 V c 3 t) p q).trans ?_
  show _ = (∑ k : Fin 512, X0 V c n k * W0 V c q k) * s0 V c n + b0 V c q
  rw [blk_1 V c t p n hn, blk_3 V c t q]
  refine congrArg (fun z => z * s0 V c n + b0 V c q) ?_
  refine Finset.sum_congr rfl fun k _ => ?_
  rw [blk_0 V c t p k n hn, blk_2 V c t k q]

end Cert.KernelIdeal.KValue0

end
-- ==== Proof.KRegion0Acc.lean ====
/-
  What the first layer's body leaves in its three output blocks at one grid point, as functions of the
  blocks it loads.

  The layer's value y (a 2000 × 512 block) is stored whole.  Each running-sum block (8 × 512) is, at
  the first point of a half of the grid, zeroed and then its row 0 overwritten by (row 0 read back) plus
  the column sums; at every other point only row 0 is overwritten, by (row 0 as the point before left
  it) plus the column sums, and rows 1-7 keep what they held.
-/
import proofs.«103207_j63436666962551_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx

noncomputable section

namespace Cert.KernelIdeal.KValue0

open Idealize.ShloMosaic Idealize.ShloMosaic.TcCoe Idealize.SL.Sem Idealize.ShloMosaic.Tactic
open Idealize.ShloMosaic.ValueIdx
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The zero word of a float format. -/
abbrev zeroWord : F .f32 := Scalar.ofBits .f32 0x00000000#32

/-- Row 0 of an 8 × 512 block, as the body loads it. -/
abbrev row0 (xo : Vec F S8x512 .f32) : Vec F S1x512 .f32 :=
  View.ld xo (Rect.unit (s := S8x512) ![0, 0] S1x512.size inb_S8x512_S1x512_0_0)

theorem row0_apply (xo : Vec F S8x512 .f32) (q : Fin 512) : row0 xo (ix2 (0 : Fin 1) q) = xo (ix2 (0 : Fin 8) q) := by
  show xo _ = xo _
  refine congrArg xo ?_
  funext a; apply Fin.ext
  match a with
  | ⟨0, _⟩ => rfl
  | ⟨1, _⟩ => show 0 + 1 * q.val = q.val; omega

/-- At a first point the stored block is the layer's value of the loaded blocks. -/
theorem out_A_4 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : cond0_0 i)
    (x0 : Vec F S2000x512 .f32) (x1 : Vec F S2000x1 .f32) (x2 : Vec F S512x512 .bf16) (x3 : Vec F S512 .f32) :
    out0_A_4 c i arg2 harg2 arg3 harg3 arg4 harg4 arg5 harg5 arg6 harg6 arg7 harg7 arg8 harg8 hc0 x0 x1 x2 x3 = k0_pay3 x0 x2 x1 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  rw [View.canon_unit_zero hz2]
  simp only [View.readAt_eq_ld, harg2.read_unread, harg3.read_unread, harg4.read_unread, harg5.read_unread,
    View.ld_unit_zero (S := S2000x512) hz2, View.ld_unit_zero (S := S512x512) hz2, View.ld_unit_zero (S := S2000x1) hz2,
    View.ld_unit_zero (S := S512) hz1]

/-- At every other point too. -/
theorem out_B_4 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i)
    (x0 : Vec F S2000x512 .f32) (x1 : Vec F S2000x1 .f32) (x2 : Vec F S512x512 .bf16) (x3 : Vec F S512 .f32) (xo5 xo6 : Vec F S8x512 .f32) :
    out0_B_4 c i arg2 harg2 arg3 harg3 arg4 harg4 arg5 harg5 arg6 harg6 arg7 harg7 arg8 harg8 hc0 x0 x1 x2 x3 xo5 xo6 = k0_pay3 x0 x2 x1 x3 := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  unfold kernelRun0_B
  dsimp only
  rw [View.canon_unit_zero hz2]
  simp only [View.readAt_eq_ld, harg2.read_unread, harg3.read_unread, harg4.read_unread, harg5.read_unread,
    View.ld_unit_zero (S := S2000x512) hz2, View.ld_unit_zero (S := S512x512) hz2, View.ld_unit_zero (S := S2000x1) hz2,
    View.ld_unit_zero (S := S512) hz1]

/-- Output 5 at a later point, row 0: the payload over row 0 of what the point before left. -/
theorem out_B_5_row0 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i)
    (x0 : Vec F S2000x512 .f32) (x1 : Vec F S2000x1 .f32) (x2 : Vec F S512x512 .bf16) (x3 : Vec F S512 .f32) (xo5 xo6 : Vec F S8x512 .f32)
    (q : Fin 512) :
    out0_B_5 c i arg2 harg2 arg3 harg3 arg4 harg4 arg5 harg5 arg6 harg6 arg7 harg7 arg8 harg8 hc0 x0 x1 x2 x3 xo5 xo6 (ix2 (0 : Fin 8) q) = k0_pay4 x0 x2 x1 x3 (row0 xo5) (ix2 (0 : Fin 1) q) := by
  unfold out0_B_5
  unfold kernelRun0_B
  dsimp only
  refine (View.read_writes_cons_rows_of_mem (o := 0) arg7.view (harg7.unread xo5) inb_S8x512_S1x512_0_0 _ [] (ix2 (0 : Fin 8) q) (ix2 (0 : Fin 1) q) rfl rfl rfl).trans ?_
  simp only [View.readAt_eq_ld, harg2.read_unread, harg3.read_unread, harg4.read_unread, harg5.read_unread, harg7.read_unread,
    View.ld_unit_zero (S := S2000x512) hz2, View.ld_unit_zero (S := S512x512) hz2, View.ld_unit_zero (S := S2000x1) hz2,
    View.ld_unit_zero (S := S512) hz1]

/-- Output 5 at a later point, rows 1-7: what the point before left. -/
theorem out_B_5_rest (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i)
    (x0 : Vec F S2000x512 .f32) (x1 : Vec F S2000x1 .f32) (x2 : Vec F S512x512 .bf16) (x3 : Vec F S512 .f32) (xo5 xo6 : Vec F S8x512 .f32)
    (r : Fin 8) (hr : r.val ≠ 0) (q : Fin 512) :
    out0_B_5 c i arg2 harg2 arg3 harg3 arg4 harg4 arg5 harg5 arg6 harg6 arg7 harg7 arg8 harg8 hc0 x0 x1 x2 x3 xo5 xo6 (ix2 r q) = xo5 (ix2 r q) := by
  unfold out0_B_5
  unfold kernelRun0_B
  dsimp only
  refine (View.read_writes_cons_rows_of_not_mem (o := 0) (W := 1) arg7.view (harg7.unread xo5) inb_S8x512_S1x512_0_0 _ [] (ix2 r q) rfl rfl
    (Or.inr (by show 0 + 1 ≤ r.val; omega))).trans ?_
  rw [View.writes_nil, harg7.read_unread]

/-- Output 5 at a first point, row 0: the payload over a zero row. -/
theorem out_A_5_row0 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : cond0_0 i)
    (x0 : Vec F S2000x512 .f32) (x1 : Vec F S2000x1 .f32) (x2 : Vec F S512x512 .bf16) (x3 : Vec F S512 .f32) (q : Fin 512) :
    out0_A_5 c i arg2 harg2 arg3 harg3 arg4 harg4 arg5 harg5 arg6 harg6 arg7 harg7 arg8 harg8 hc0 x0 x1 x2 x3 (ix2 (0 : Fin 8) q) = k0_pay4 x0 x2 x1 x3 (broadcast S1x512 zeroWord) (ix2 (0 : Fin 1) q) := by
  unfold out0_A_5
  unfold kernelRun0_A
  dsimp only
  sl_unfold_words
  refine (View.read_writes_cons_rows_of_mem (o := 0) VO0_5 VO0_5.junk inb_S8x512_S1x512_0_0 _ _ (ix2 (0 : Fin 8) q) (ix2 (0 : Fin 1) q) rfl rfl rfl).trans ?_
  have e : arg7.view.readCov [(⟨Rect.unit (s := S8x512) ![0, 0] S8x512.size inb_S8x512_S8x512_0_0, k0_pay1⟩ : View.Piece (Elt F) S8x512 .f32)]
      (Rect.unit (s := S8x512) ![0, 0] S1x512.size inb_S8x512_S1x512_0_0).toLoadRect = broadcast S1x512 zeroWord := by
    rw [View.readCov_eq_canon', View.canon_unit_zero hz2]; rfl
  rw [e]
  simp only [View.readAt_eq_ld, harg2.read_unread, harg3.read_unread, harg4.read_unread, harg5.read_unread,
    View.ld_unit_zero (S := S2000x512) hz2, View.ld_unit_zero (S := S512x512) hz2, View.ld_unit_zero (S := S2000x1) hz2,
    View.ld_unit_zero (S := S512) hz1]

/-- Output 5 at a first point, rows 1-7: zero. -/
theorem out_A_5_rest (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : cond0_0 i)
    (x0 : Vec F S2000x512 .f32) (x1 : Vec F S2000x1 .f32) (x2 : Vec F S512x512 .bf16) (x3 : Vec F S512 .f32)
    (r : Fin 8) (hr : r.val ≠ 0) (q : Fin 512) :
    out0_A_5 c i arg2 harg2 arg3 harg3 arg4 harg4 arg5 harg5 arg6 harg6 arg7 harg7 arg8 harg8 hc0 x0 x1 x2 x3 (ix2 r q) = zeroWord := by
  unfold out0_A_5
  unfold kernelRun0_A
  dsimp only
  sl_unfold_words
  refine (View.read_writes_cons_rows_of_not_mem (o := 0) (W := 1) VO0_5 VO0_5.junk inb_S8x512_S1x512_0_0 _ _ (ix2 r q) rfl rfl
    (Or.inr (by show 0 + 1 ≤ r.val; omega))).trans ?_
  rw [View.read_writes_junk_apply_eq_canon, View.canon_unit_zero hz2]
  rfl

/-- Output 6 at a later point, row 0: the payload over row 0 of what the point before left. -/
theorem out_B_6_row0 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i)
    (x0 : Vec F S2000x512 .f32) (x1 : Vec F S2000x1 .f32) (x2 : Vec F S512x512 .bf16) (x3 : Vec F S512 .f32) (xo5 xo6 : Vec F S8x512 .f32)
    (q : Fin 512) :
    out0_B_6 c i arg2 harg2 arg3 harg3 arg4 harg4 arg5 harg5 arg6 harg6 arg7 harg7 arg8 harg8 hc0 x0 x1 x2 x3 xo5 xo6 (ix2 (0 : Fin 8) q) = k0_pay5 x0 x2 x1 x3 (row0 xo6) (ix2 (0 : Fin 1) q) := by
  unfold out0_B_6
  unfold kernelRun0_B
  dsimp only
  refine (View.read_writes_cons_rows_of_mem (o := 0) arg8.view (harg8.unread xo6) inb_S8x512_S1x512_0_0 _ [] (ix2 (0 : Fin 8) q) (ix2 (0 : Fin 1) q) rfl rfl rfl).trans ?_
  simp only [View.readAt_eq_ld, harg2.read_unread, harg3.read_unread, harg4.read_unread, harg5.read_unread, harg8.read_unread,
    View.ld_unit_zero (S := S2000x512) hz2, View.ld_unit_zero (S := S512x512) hz2, View.ld_unit_zero (S := S2000x1) hz2,
    View.ld_unit_zero (S := S512) hz1]

/-- Output 6 at a later point, rows 1-7: what the point before left. -/
theorem out_B_6_rest (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : ¬cond0_0 i)
    (x0 : Vec F S2000x512 .f32) (x1 : Vec F S2000x1 .f32) (x2 : Vec F S512x512 .bf16) (x3 : Vec F S512 .f32) (xo5 xo6 : Vec F S8x512 .f32)
    (r : Fin 8) (hr : r.val ≠ 0) (q : Fin 512) :
    out0_B_6 c i arg2 harg2 arg3 harg3 arg4 harg4 arg5 harg5 arg6 harg6 arg7 harg7 arg8 harg8 hc0 x0 x1 x2 x3 xo5 xo6 (ix2 r q) = xo6 (ix2 r q) := by
  unfold out0_B_6
  unfold kernelRun0_B
  dsimp only
  refine (View.read_writes_cons_rows_of_not_mem (o := 0) (W := 1) arg8.view (harg8.unread xo6) inb_S8x512_S1x512_0_0 _ [] (ix2 r q) rfl rfl
    (Or.inr (by show 0 + 1 ≤ r.val; omega))).trans ?_
  rw [View.writes_nil, harg8.read_unread]

/-- Output 6 at a first point, row 0: the payload over a zero row. -/
theorem out_A_6_row0 (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : cond0_0 i)
    (x0 : Vec F S2000x512 .f32) (x1 : Vec F S2000x1 .f32) (x2 : Vec F S512x512 .bf16) (x3 : Vec F S512 .f32) (q : Fin 512) :
    out0_A_6 c i arg2 harg2 arg3 harg3 arg4 harg4 arg5 harg5 arg6 harg6 arg7 harg7 arg8 harg8 hc0 x0 x1 x2 x3 (ix2 (0 : Fin 8) q) = k0_pay5 x0 x2 x1 x3 (broadcast S1x512 zeroWord) (ix2 (0 : Fin 1) q) := by
  unfold out0_A_6
  unfold kernelRun0_A
  dsimp only
  sl_unfold_words
  refine (View.read_writes_cons_rows_of_mem (o := 0) VO0_6 VO0_6.junk inb_S8x512_S1x512_0_0 _ _ (ix2 (0 : Fin 8) q) (ix2 (0 : Fin 1) q) rfl rfl rfl).trans ?_
  have e : arg8.view.readCov [(⟨Rect.unit (s := S8x512) ![0, 0] S8x512.size inb_S8x512_S8x512_0_0, k0_pay2⟩ : View.Piece (Elt F) S8x512 .f32)]
      (Rect.unit (s := S8x512) ![0, 0] S1x512.size inb_S8x512_S1x512_0_0).toLoadRect = broadcast S1x512 zeroWord := by
    rw [View.readCov_eq_canon', View.canon_unit_zero hz2]; rfl
  rw [e]
  simp only [View.readAt_eq_ld, harg2.read_unread, harg3.read_unread, harg4.read_unread, harg5.read_unread,
    View.ld_unit_zero (S := S2000x512) hz2, View.ld_unit_zero (S := S512x512) hz2, View.ld_unit_zero (S := S2000x1) hz2,
    View.ld_unit_zero (S := S512) hz1]

/-- Output 6 at a first point, rows 1-7: zero. -/
theorem out_A_6_rest (c : Dev nD) (i : grid0.Coords) (arg2 : Memref sig .tc .vmem S2000x512 .f32) (harg2 : arg2.IsWhole) (arg3 : Memref sig .tc .vmem S2000x1 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2000x512 .f32) (harg6 : arg6.IsWhole) (arg7 : Memref sig .tc .vmem S8x512 .f32) (harg7 : arg7.IsWhole) (arg8 : Memref sig .tc .vmem S8x512 .f32) (harg8 : arg8.IsWhole) (hc0 : cond0_0 i)
    (x0 : Vec F S2000x512 .f32) (x1 : Vec F S2000x1 .f32) (x2 : Vec F S512x512 .bf16) (x3 : Vec F S512 .f32)
    (r : Fin 8) (hr : r.val ≠ 0) (q : Fin 512) :
    out0_A_6 c i arg2 harg2 arg3 harg3 arg4 harg4 arg5 harg5 arg6 harg6 arg7 harg7 arg8 harg8 hc0 x0 x1 x2 x3 (ix2 r q) = zeroWord := by
  unfold out0_A_6
  unfold kernelRun0_A
  dsimp only
  sl_unfold_words
  refine (View.read_writes_cons_rows_of_not_mem (o := 0) (W := 1) VO0_6 VO0_6.junk inb_S8x512_S1x512_0_0 _ _ (ix2 r q) rfl rfl
    (Or.inr (by show 0 + 1 ≤ r.val; omega))).trans ?_
  rw [View.read_writes_junk_apply_eq_canon, View.canon_unit_zero hz2]
  rfl

end Cert.KernelIdeal.KValue0

end
-- ==== Proof.KRegion0Out4.lean ====
/-
  Output 4 of the first layer's region: the layer's value, whole.

  Every grid point stores the body's value of its blocks and writes it back to rows
  2000·t … 2000·t + 1999; the 50 blocks tile the 100000 rows, so after the region the array holds
  Y(n, j) = (Σ_k X(n, k) · W(j, k)) · s(n) + b(j)  at every (n, j).
-/
import proofs.«103207_j63436666962551_2_alg».proof.Proof.Gen.KernelIdeal.Frame
import proofs.«103207_j63436666962551_2_alg».proof.Proof.KRegion0Blocks
import proofs.«103207_j63436666962551_2_alg».proof.Proof.KRegion0Acc
import Idealize.ShloMosaic.Lib.Pipeline.Value
import Idealize.ShloMosaic.Lib.ValueIdx

noncomputable section

namespace Cert.KernelIdeal.KValue0

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- After every point the stored block is the body's value of that point's blocks. -/
theorem outs_1 (t : Fin cfg0.N) :
    (outsAt0 V c t.val t.isLt).1 = k0_pay3 (F := Ideal) (iblk0 V c 0 t) (iblk0 V c 2 t) (iblk0 V c 1 t) (iblk0 V c 3 t) := by
  by_cases h0 : t.val % 25 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- What output 4's array holds after the region. -/
def G4 : S100000x512.Idx → EReal := fun i => Y0 V c (i 0) (i 1)

/-- The body's value at point t sits where the block's rectangle puts it. -/
theorem flushed4_at (t : Fin cfg0.N) (y : S2000x512.Idx) :
    k0_pay3 (F := Ideal) (iblk0 V c 0 t) (iblk0 V c 2 t) (iblk0 V c 1 t) (iblk0 V c 3 t) y
      = G4 V c (((cfg0.win 4).blk t).view.emb y) := by
  have hN : t.val < 50 := lt_of_lt_of_eq t.isLt (show cfg0.N = 50 from N_0)
  obtain ⟨-, -, -, -, -, -, -, e0, e1, -⟩ := idx_facts t
  obtain ⟨p, q, rfl⟩ : ∃ (p : Fin 2000) (q : Fin 512), y = ix2 p q := ⟨y 0, y 1, eq_ix2 y⟩
  rw [pay3_blocks V c t p q ⟨t.val * 2000 + p.val, by omega⟩ rfl]
  show Y0 V c _ _ = Y0 V c _ _
  refine congrArg₂ (Y0 V c) (Fin.ext ?_) (Fin.ext ?_)
  · show t.val * 2000 + p.val = win0_4.index t (0 : Fin 2) * 2000 + 1 * p.val; rw [e0]; omega
  · show q.val = win0_4.index t (1 : Fin 2) * 512 + 1 * q.val; rw [e1]; omega

/-- What point t writes back is block t of the layer's value. -/
theorem flushed4_eq (t : Fin cfg0.N) (_ : (cfg0.win 4).flush t = true) :
    (dat0 V c).flushed 4 t = ((cfg0.win 4).blk t).view.read (Elt Ideal) (G4 V c) := by
  show (cfg0.win 4).cut (grid0.coords t) ((dat0 V c).after 4 t) = _
  rw [after0_4, outs_1]
  exact funext fun y => flushed4_at V c t y

/-- An index of the array is in point t's block iff each coordinate is in the block's range on its axis. -/
theorem mem_blk4 (t : Fin cfg0.N) (i : S100000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v42_0).slice (win0_4.rect t)).set ↔ _
  rw [View.set_slice_whole, Rect.mem_set_unit]
  exact Iff.rfl

/-- Row r is in the block of point r / 2000. -/
theorem cover4 (i : S100000x512.Idx) :
    ∃ t : Fin cfg0.N, (cfg0.win 4).flush t = true ∧ i ∈ ((cfg0.win 4).blk t).view.set := by
  have h0 : (i 0).val < 100000 := (i 0).isLt
  have h1 : (i 1).val < 512 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, e0, e1, -⟩ := idx_facts t
  refine ⟨t, flush0_4 t, ?_⟩
  rw [mem_blk4]
  intro a
  match a with
  | ⟨0, _⟩ =>
    show win0_4.index t (0 : Fin 2) * 2000 ≤ (i 0).val ∧ (i 0).val < win0_4.index t (0 : Fin 2) * 2000 + 2000
    rw [e0, ht]; omega
  | ⟨1, _⟩ =>
    show win0_4.index t (1 : Fin 2) * 512 ≤ (i 1).val ∧ (i 1).val < win0_4.index t (1 : Fin 2) * 512 + 512
    rw [e1]; omega

/-- Output 4 after the region, at (n, j): the layer's value. -/
theorem arr0_4 (n : Fin 100000) (j : Fin 512) :
    (Gen.dat0 (F := Ideal) V c).arrAt 4 cfg0.N (ValueIdx.ix2 n j) = Y0 V c n j := by
  rw [(dat0 V c).arrAt_eq_of_cover 4 (G4 V c) (flushed4_eq V c) (cover4)]
  rfl

end Cert.KernelIdeal.KValue0

end
-- ==== Proof.KSums.lean ====
/-
  Finite sums over the 100000 rows read block by block, a sixteen-row table with two live rows,
  and a running sum that restarts every 25 steps.

  100000 = 50 · 2000 = (2 · 25) · 2000: a row n is t · 2000 + r with t < 50, r < 2000, and
  t = h · 25 + i with h < 2, i < 25, each in exactly one way, so a sum over rows is the iterated
  sum over (t, r) or (h, i, r).
-/
import proofs.«103207_j63436666962551_2_alg».proof.Proof.Spec

namespace Cert.Spec

variable {M : Type*} [AddCommMonoid M]

/-- rows in 50 blocks of 2000 -/
theorem sum_rows_blocks (F : Fin 100000 → M) :
    ∑ n, F n = ∑ t : Fin 50, ∑ r : Fin 2000, F ⟨t.val * 2000 + r.val, by omega⟩ := by
  rw [← (finProdFinEquiv (m := 50) (n := 2000)).sum_comp F, Fintype.sum_prod_type]
  refine Finset.sum_congr rfl fun t _ => Finset.sum_congr rfl fun r _ => congrArg F (Fin.ext ?_)
  simp only [finProdFinEquiv_apply_val]
  omega

/-- 50 blocks as 2 halves of 25 -/
theorem sum_blocks_halves (G : Fin 50 → M) :
    ∑ t, G t = ∑ h : Fin 2, ∑ i : Fin 25, G ⟨h.val * 25 + i.val, by omega⟩ := by
  rw [← (finProdFinEquiv (m := 2) (n := 25)).sum_comp G, Fintype.sum_prod_type]
  refine Finset.sum_congr rfl fun h _ => Finset.sum_congr rfl fun i _ => congrArg G (Fin.ext ?_)
  simp only [finProdFinEquiv_apply_val]
  omega

/-- rows in 2 halves of 25 blocks of 2000 -/
theorem sum_rows_halves_blocks (F : Fin 100000 → M) :
    ∑ n, F n = ∑ h : Fin 2, ∑ i : Fin 25, ∑ r : Fin 2000,
      F ⟨(h.val * 25 + i.val) * 2000 + r.val, by omega⟩ := by
  rw [sum_rows_blocks F,
    sum_blocks_halves (fun t => ∑ r : Fin 2000, F ⟨t.val * 2000 + r.val, by omega⟩)]

/-- the same for a function of the row number -/
theorem sum_rows_blocks_nat (G : ℕ → M) :
    ∑ n : Fin 100000, G n.val = ∑ t : Fin 50, ∑ r : Fin 2000, G (t.val * 2000 + r.val) :=
  sum_rows_blocks (fun n => G n.val)

theorem sum_rows_halves_blocks_nat (G : ℕ → M) :
    ∑ n : Fin 100000, G n.val
      = ∑ h : Fin 2, ∑ i : Fin 25, ∑ r : Fin 2000, G ((h.val * 25 + i.val) * 2000 + r.val) :=
  sum_rows_halves_blocks (fun n => G n.val)

/-- a sixteen-row table that vanishes off rows 0 and 8 -/
theorem sum_sixteen (T : Fin 16 → M) (h : ∀ r : Fin 16, r.val ≠ 0 → r.val ≠ 8 → T r = 0) :
    ∑ r, T r = T 0 + T 8 := by
  refine Finset.sum_eq_add (0 : Fin 16) 8 (by decide) (fun c _ hc => h c ?_ ?_)
    (fun h0 => absurd (Finset.mem_univ _) h0) (fun h8 => absurd (Finset.mem_univ _) h8)
  · intro hv; exact hc.1 (Fin.ext hv)
  · intro hv; exact hc.2 (Fin.ext hv)

/-- a running sum over 50 steps that restarts at steps 0 and 25: at step q · 25 + r it holds
    the terms of its half up to and including the current one -/
theorem acc_run_aux (b acc : ℕ → M)
    (h0 : ∀ k, k < 50 → k % 25 = 0 → acc k = 0 + b k)
    (hs : ∀ k, k < 50 → k % 25 ≠ 0 → acc k = acc (k - 1) + b k) (q : ℕ) (hq : q < 2) :
    ∀ r, r < 25 → acc (q * 25 + r) = ∑ i ∈ Finset.range (r + 1), b (q * 25 + i) := by
  intro r
  induction r with
  | zero =>
    intro _
    rw [h0 (q * 25 + 0) (by omega) (by omega), zero_add, Finset.sum_range_one]
  | succ r ih =>
    intro hr
    rw [hs (q * 25 + (r + 1)) (by omega) (by omega), Finset.sum_range_succ, ← ih (by omega)]
    rfl

theorem acc_run (b acc : ℕ → M)
    (h0 : ∀ k, k < 50 → k % 25 = 0 → acc k = 0 + b k)
    (hs : ∀ k, k < 50 → k % 25 ≠ 0 → acc k = acc (k - 1) + b k) (k : ℕ) (hk : k < 50) :
    acc k = ∑ i ∈ Finset.range (k % 25 + 1), b (k / 25 * 25 + i) := by
  have h := acc_run_aux b acc h0 hs (k / 25) (by omega) (k % 25) (by omega)
  rwa [Nat.div_add_mod' k 25] at h

/-- the first half's total -/
theorem acc_run_24 (b acc : ℕ → M)
    (h0 : ∀ k, k < 50 → k % 25 = 0 → acc k = 0 + b k)
    (hs : ∀ k, k < 50 → k % 25 ≠ 0 → acc k = acc (k - 1) + b k) :
    acc 24 = ∑ i : Fin 25, b i.val := by
  rw [acc_run b acc h0 hs 24 (by omega), ← Finset.sum_range (fun i => b i)]
  exact Finset.sum_congr rfl fun i _ => by rw [show 24 / 25 * 25 + i = i by omega]

/-- the second half's total -/
theorem acc_run_49 (b acc : ℕ → M)
    (h0 : ∀ k, k < 50 → k % 25 = 0 → acc k = 0 + b k)
    (hs : ∀ k, k < 50 → k % 25 ≠ 0 → acc k = acc (k - 1) + b k) :
    acc 49 = ∑ i : Fin 25, b (25 + i.val) := by
  rw [acc_run b acc h0 hs 49 (by omega), ← Finset.sum_range (fun i => b (25 + i))]

end Cert.Spec
-- ==== Proof.KRegion0Out5.lean ====
/-
  Output 5 of the first layer's region: the running column sums of the layer's value.

  The 16 × 512 array has one 8-row block per half of the grid.  Within a half the block stays in its
  staging buffer: the half's first point zeroes it and then adds its block's column sums into row 0, every
  later point adds its own into row 0, and the block is written back after the half's last point.  So the
  array ends with, in row 0 (row 8), the sum over the first (second) 25 blocks of 2000 rows, and zeros in
  the other rows; its 16 rows add up to the sum over all 100000 rows.
-/
import proofs.«103207_j63436666962551_2_alg».proof.Proof.Gen.KernelIdeal.Frame
import proofs.«103207_j63436666962551_2_alg».proof.Proof.KRegion0Blocks
import proofs.«103207_j63436666962551_2_alg».proof.Proof.KRegion0Acc
import proofs.«103207_j63436666962551_2_alg».proof.Proof.KSums
import Idealize.ShloMosaic.Lib.Pipeline.Value
import Idealize.ShloMosaic.Lib.ValueIdx

noncomputable section

namespace Cert.KernelIdeal.KValue0

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The column sum, at column q, over the 2000 rows of block k (zero past the 50 blocks). -/
def bsum5 (q : Fin 512) (k : ℕ) : EReal :=
  if h : k < 50 then ∑ p : Fin 2000, Y0 V c ⟨k * 2000 + p.val, by omega⟩ q else 0

/-- The body's column sums at point t are block t's. -/
theorem colsum5_blocks (t : Fin cfg0.N) (q : Fin 512) :
    ∑ p : Fin 2000, k0_pay3 (F := Ideal) (iblk0 V c 0 t) (iblk0 V c 2 t) (iblk0 V c 1 t) (iblk0 V c 3 t) (ix2 p q) = bsum5 V c q t.val := by
  have hN : t.val < 50 := lt_of_lt_of_eq t.isLt (show cfg0.N = 50 from N_0)
  unfold bsum5
  rw [dif_pos hN]
  refine Finset.sum_congr rfl fun p _ => ?_
  rw [pay3_blocks V c t p q ⟨t.val * 2000 + p.val, by omega⟩ rfl]

/-- Row 0 after a half's first point: that point's column sums over zero. -/
theorem first5 (t : Fin cfg0.N) (hm : t.val % 25 = 0) (q : Fin 512) :
    (outsAt0 V c t.val t.isLt).2.1 (ix2 (0 : Fin 8) q) = 0 + bsum5 V c q t.val := by
  rw [outsAt0_A V c t hm]
  dsimp only
  refine (out_A_5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hm) (iblk0 V c 0 t) (iblk0 V c 1 t) (iblk0 V c 2 t) (iblk0 V c 3 t) q).trans ?_
  refine (pay4_apply (iblk0 V c 0 t) (iblk0 V c 2 t) (iblk0 V c 1 t) (iblk0 V c 3 t) (broadcast S1x512 (zeroWord (F := Ideal))) q).trans ?_
  rw [colsum5_blocks V c t q]
  show Ideal.ofBits .f32 0x00000000#32 + _ = 0 + _
  rw [Ideal.ofBits_zero_f32]

/-- Row 0 after a later point: what the point before left plus this point's column sums. -/
theorem step5 (t : Fin cfg0.N) (hm : ¬t.val % 25 = 0) (q : Fin 512) :
    (outsAt0 V c t.val t.isLt).2.1 (ix2 (0 : Fin 8) q)
      = (outsAt0 V c (t.val - 1) (Nat.lt_of_le_of_lt (Nat.sub_le _ _) t.isLt)).2.1 (ix2 (0 : Fin 8) q) + bsum5 V c q t.val := by
  rw [outsAt0_B V c t hm]
  dsimp only
  refine (out_B_5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hm ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2 q).trans ?_
  refine (pay4_apply (iblk0 V c 0 t) (iblk0 V c 2 t) (iblk0 V c 1 t) (iblk0 V c 3 t) (row0 (outsAt0 V c (t.val - 1) (Nat.lt_of_le_of_lt (Nat.sub_le _ _) t.isLt)).2.1) q).trans ?_
  rw [colsum5_blocks V c t q, row0_apply]

/-- Rows 1-7 are zero after every point. -/
theorem rest5 : ∀ (k : ℕ) (hk : k < cfg0.N) (r : Fin 8) (_ : r.val ≠ 0) (q : Fin 512),
    (outsAt0 V c k hk).2.1 (ix2 r q) = 0
  | 0, hk, r, hr, q => by
    show (outsAt0 V c (⟨0, hk⟩ : Fin cfg0.N).val (⟨0, hk⟩ : Fin cfg0.N).isLt).2.1 (ix2 r q) = 0
    rw [outsAt0_A V c ⟨0, hk⟩ rfl]
    dsimp only
    refine (out_A_5_rest (F := Ideal) c (grid0.coords ⟨0, hk⟩) (ms0_0 ⟨0, hk⟩) (hs0_0 ⟨0, hk⟩) (ms0_1 ⟨0, hk⟩) (hs0_1 ⟨0, hk⟩) (ms0_2 ⟨0, hk⟩) (hs0_2 ⟨0, hk⟩) (ms0_3 ⟨0, hk⟩) (hs0_3 ⟨0, hk⟩) (ms0_4 ⟨0, hk⟩) (hs0_4 ⟨0, hk⟩) (ms0_5 ⟨0, hk⟩) (hs0_5 ⟨0, hk⟩) (ms0_6 ⟨0, hk⟩) (hs0_6 ⟨0, hk⟩) ((hcond0_0 ⟨0, hk⟩).mpr rfl) (iblk0 V c 0 ⟨0, hk⟩) (iblk0 V c 1 ⟨0, hk⟩) (iblk0 V c 2 ⟨0, hk⟩) (iblk0 V c 3 ⟨0, hk⟩) r hr q).trans ?_
    exact Ideal.ofBits_zero_f32
  | k + 1, hk, r, hr, q => by
    show (outsAt0 V c (⟨k + 1, hk⟩ : Fin cfg0.N).val (⟨k + 1, hk⟩ : Fin cfg0.N).isLt).2.1 (ix2 r q) = 0
    by_cases hm : (⟨k + 1, hk⟩ : Fin cfg0.N).val % 25 = 0
    · rw [outsAt0_A V c ⟨k + 1, hk⟩ hm]
      dsimp only
      refine (out_A_5_rest (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) ((hcond0_0 ⟨k + 1, hk⟩).mpr hm) (iblk0 V c 0 ⟨k + 1, hk⟩) (iblk0 V c 1 ⟨k + 1, hk⟩) (iblk0 V c 2 ⟨k + 1, hk⟩) (iblk0 V c 3 ⟨k + 1, hk⟩) r hr q).trans ?_
      exact Ideal.ofBits_zero_f32
    · rw [outsAt0_B V c ⟨k + 1, hk⟩ hm]
      dsimp only
      refine (out_B_5_rest (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) (fun h => hm ((hcond0_0 ⟨k + 1, hk⟩).mp h)) (iblk0 V c 0 ⟨k + 1, hk⟩) (iblk0 V c 1 ⟨k + 1, hk⟩) (iblk0 V c 2 ⟨k + 1, hk⟩) (iblk0 V c 3 ⟨k + 1, hk⟩) _ _ r hr q).trans ?_
      exact rest5 k (Nat.lt_of_succ_lt hk) r hr q

/-- The point's number alone decides what the outputs hold after it. -/
theorem outsAt0_congr5 (k k' : ℕ) (hk : k < cfg0.N) (hk' : k' < cfg0.N) (e : k = k') :
    outsAt0 V c k hk = outsAt0 V c k' hk' := by subst e; rfl

/-- Row 0 after point k, as a function of the point's number (zero past the grid). -/
def acc5 (q : Fin 512) (k : ℕ) : EReal :=
  if h : k < cfg0.N then (outsAt0 V c k h).2.1 (ix2 (0 : Fin 8) q) else 0

theorem acc5_first (q : Fin 512) (k : ℕ) (hk : k < 50) (hm : k % 25 = 0) : acc5 V c q k = 0 + bsum5 V c q k := by
  have hk' : k < cfg0.N := lt_of_lt_of_eq hk (show cfg0.N = 50 from N_0).symm
  unfold acc5
  rw [dif_pos hk']
  exact first5 V c ⟨k, hk'⟩ hm q

theorem acc5_step (q : Fin 512) (k : ℕ) (hk : k < 50) (hm : k % 25 ≠ 0) :
    acc5 V c q k = acc5 V c q (k - 1) + bsum5 V c q k := by
  have hk' : k < cfg0.N := lt_of_lt_of_eq hk (show cfg0.N = 50 from N_0).symm
  have hk1 : k - 1 < cfg0.N := Nat.lt_of_le_of_lt (Nat.sub_le _ _) hk'
  unfold acc5
  rw [dif_pos hk', dif_pos hk1]
  exact step5 V c ⟨k, hk'⟩ hm q

/-- What output 5's array holds after the region. -/
def G5 : S16x512.Idx → EReal := fun i =>
  if (i 0).val = 0 then ∑ u : Fin 25, bsum5 V c (i 1) u.val
  else if (i 0).val = 8 then ∑ u : Fin 25, bsum5 V c (i 1) (25 + u.val)
  else 0

/-- The block a half's last point leaves, at (r, q), is the array's entry where the block's rectangle puts it. -/
theorem flushed5_at (t : Fin cfg0.N) (hf : t.val % 25 = 24) (y : S8x512.Idx) :
    (outsAt0 V c t.val t.isLt).2.1 y = G5 V c (((cfg0.win 5).blk t).view.emb y) := by
  have hN : t.val < 50 := lt_of_lt_of_eq t.isLt (show cfg0.N = 50 from N_0)
  obtain ⟨-, -, -, -, -, -, -, -, -, e50, e51, e60, e61⟩ := idx_facts t
  obtain ⟨r, q, rfl⟩ : ∃ (r : Fin 8) (q : Fin 512), y = ix2 r q := ⟨y 0, y 1, eq_ix2 y⟩
  have hrow : ((((cfg0.win 5).blk t).view.emb (ix2 r q)) 0).val = t.val / 25 * 8 + r.val := by
    show win0_5.index t (0 : Fin 2) * 8 + 1 * r.val = _; rw [e50]; omega
  have hcol : (((cfg0.win 5).blk t).view.emb (ix2 r q)) 1 = q := by
    apply Fin.ext
    show win0_5.index t (1 : Fin 2) * 512 + 1 * q.val = q.val; rw [e51]; omega
  unfold G5
  rw [hrow, hcol]
  have h24 : t.val = 24 ∨ t.val = 49 := by omega
  by_cases hr : r.val = 0
  · obtain rfl : r = 0 := Fin.ext hr
    rcases h24 with h | h
    · rw [if_pos (by rw [h]; rfl)]
      have := Spec.acc_run_24 (bsum5 V c q) (acc5 V c q) (acc5_first V c q) (acc5_step V c q)
      rw [← this]
      unfold acc5
      rw [dif_pos (by rw [show cfg0.N = 50 from N_0]; omega)]
      rw [outsAt0_congr5 V c t.val 24 t.isLt (by rw [show cfg0.N = 50 from N_0]; omega) h]
    · rw [if_neg (by rw [h]; decide), if_pos (by rw [h]; rfl)]
      have := Spec.acc_run_49 (bsum5 V c q) (acc5 V c q) (acc5_first V c q) (acc5_step V c q)
      rw [← this]
      unfold acc5
      rw [dif_pos (by rw [show cfg0.N = 50 from N_0]; omega)]
      rw [outsAt0_congr5 V c t.val 49 t.isLt (by rw [show cfg0.N = 50 from N_0]; omega) h]
  · rw [rest5 V c t.val t.isLt r hr q]
    have hr8 : r.val < 8 := r.isLt
    rw [if_neg (by omega), if_neg (by omega)]

/-- What a half's last point writes back is its block of that array. -/
theorem flushed5_eq (t : Fin cfg0.N) (hf : (cfg0.win 5).flush t = true) :
    (dat0 V c).flushed 5 t = ((cfg0.win 5).blk t).view.read (Elt Ideal) (G5 V c) := by
  have h24 : t.val % 25 = 24 := (flush0_5 t).mp hf
  show (cfg0.win 5).cut (grid0.coords t) ((dat0 V c).after 5 t) = _
  rw [after0_5]
  exact funext fun y => flushed5_at V c t h24 y

/-- An index of the array is in point t's block iff each coordinate is in the block's range on its axis. -/
theorem mem_blk5 (t : Fin cfg0.N) (i : S16x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v42_1).slice (win0_5.rect t)).set ↔ _
  rw [View.set_slice_whole, Rect.mem_set_unit]
  exact Iff.rfl

/-- Rows 0-7 are in the block of point 24, rows 8-15 in that of point 49. -/
theorem cover5 (i : S16x512.Idx) :
    ∃ t : Fin cfg0.N, (cfg0.win 5).flush t = true ∧ i ∈ ((cfg0.win 5).blk t).view.set := by
  have h0 : (i 0).val < 16 := (i 0).isLt
  have h1 : (i 1).val < 512 := (i 1).isLt
  have hN : cfg0.N = 50 := N_0
  obtain ⟨t, ht⟩ : ∃ t : Fin cfg0.N, t.val = (i 0).val / 8 * 25 + 24 := ⟨⟨(i 0).val / 8 * 25 + 24, by rw [hN]; omega⟩, rfl⟩
  obtain ⟨-, -, -, -, -, -, -, -, -, e50, e51, e60, e61⟩ := idx_facts t
  refine ⟨t, (flush0_5 t).mpr (by rw [ht]; omega), ?_⟩
  rw [mem_blk5]
  intro a
  match a with
  | ⟨0, _⟩ =>
    show win0_5.index t (0 : Fin 2) * 8 ≤ (i 0).val ∧ (i 0).val < win0_5.index t (0 : Fin 2) * 8 + 8
    rw [e50, ht]; omega
  | ⟨1, _⟩ =>
    show win0_5.index t (1 : Fin 2) * 512 ≤ (i 1).val ∧ (i 1).val < win0_5.index t (1 : Fin 2) * 512 + 512
    rw [e51]; omega

/-- Output 5 after the region, at (r, j). -/
theorem arr0_5 (r : Fin 16) (j : Fin 512) :
    @Eq EReal ((Gen.dat0 (F := Ideal) V c).arrAt 5 cfg0.N (ValueIdx.ix2 r j)) (G5 V c (ix2 r j)) := by
  rw [(dat0 V c).arrAt_eq_of_cover 5 (G5 V c) (flushed5_eq V c) (cover5)]

/-- The 16 rows of output 5 add up to the column sums over all 100000 rows. -/
theorem arr0_5_sum (j : Fin 512) :
    (∑ r : Fin 16, ((Gen.dat0 (F := Ideal) V c).arrAt 5 cfg0.N (ValueIdx.ix2 r j) : EReal) : EReal) = ∑ n : Fin 100000, Y0 V c n j := by
  refine (Finset.sum_congr (M := EReal) rfl fun r _ => arr0_5 V c r j).trans ?_
  rw [Spec.sum_sixteen (fun r => G5 V c (ix2 r j)) (fun r h0 h8 => by
    show (if r.val = 0 then _ else if r.val = 8 then _ else (0 : EReal)) = 0
    rw [if_neg h0, if_neg h8])]
  rw [Spec.sum_rows_blocks (fun n => Y0 V c n j), Spec.sum_blocks_halves, Fin.sum_univ_two]
  refine congrArg₂ (· + ·) ?_ ?_
  · show (if (0 : ℕ) = 0 then ∑ u : Fin 25, bsum5 V c j u.val else _) = _
    rw [if_pos rfl]
    refine Finset.sum_congr rfl fun u _ => ?_
    unfold bsum5
    rw [dif_pos (by omega)]
    refine Finset.sum_congr rfl fun p _ => ?_
    refine congrArg (fun n : Fin 100000 => Y0 V c n j) (Fin.ext ?_)
    show u.val * 2000 + p.val = (0 * 25 + u.val) * 2000 + p.val
    omega
  · show (if (8 : ℕ) = 0 then _ else if (8 : ℕ) = 8 then ∑ u : Fin 25, bsum5 V c j (25 + u.val) else _) = _
    rw [if_neg (by decide), if_pos rfl]
    refine Finset.sum_congr rfl fun u _ => ?_
    unfold bsum5
    rw [dif_pos (by omega)]
    refine Finset.sum_congr rfl fun p _ => ?_
    refine congrArg (fun n : Fin 100000 => Y0 V c n j) (Fin.ext ?_)
    show (25 + u.val) * 2000 + p.val = (1 * 25 + u.val) * 2000 + p.val
    omega

end Cert.KernelIdeal.KValue0

end
-- ==== Proof.KRegion0Out6.lean ====
/-
  Output 6 of the first layer's region: the running column sums of the squares of the layer's value.

  The 16 × 512 array has one 8-row block per half of the grid.  Within a half the block stays in its
  staging buffer: the half's first point zeroes it and then adds its block's column sums into row 0, every
  later point adds its own into row 0, and the block is written back after the half's last point.  So the
  array ends with, in row 0 (row 8), the sum over the first (second) 25 blocks of 2000 rows, and zeros in
  the other rows; its 16 rows add up to the sum over all 100000 rows.
-/
import proofs.«103207_j63436666962551_2_alg».proof.Proof.Gen.KernelIdeal.Frame
import proofs.«103207_j63436666962551_2_alg».proof.Proof.KRegion0Blocks
import proofs.«103207_j63436666962551_2_alg».proof.Proof.KRegion0Acc
import proofs.«103207_j63436666962551_2_alg».proof.Proof.KSums
import Idealize.ShloMosaic.Lib.Pipeline.Value
import Idealize.ShloMosaic.Lib.ValueIdx

noncomputable section

namespace Cert.KernelIdeal.KValue0

open Idealize.ShloMosaic Idealize.ShloMosaic.TcCoe Idealize.SL.Sem
open Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The column sum, at column q, over the 2000 rows of block k (zero past the 50 blocks). -/
def bsum6 (q : Fin 512) (k : ℕ) : EReal :=
  if h : k < 50 then ∑ p : Fin 2000, Y0 V c ⟨k * 2000 + p.val, by omega⟩ q * Y0 V c ⟨k * 2000 + p.val, by omega⟩ q else 0

/-- The body's column sums at point t are block t's. -/
theorem colsum6_blocks (t : Fin cfg0.N) (q : Fin 512) :
    ∑ p : Fin 2000, k0_pay3 (F := Ideal) (iblk0 V c 0 t) (iblk0 V c 2 t) (iblk0 V c 1 t) (iblk0 V c 3 t) (ix2 p q) * k0_pay3 (F := Ideal) (iblk0 V c 0 t) (iblk0 V c 2 t) (iblk0 V c 1 t) (iblk0 V c 3 t) (ix2 p q) = bsum6 V c q t.val := by
  have hN : t.val < 50 := lt_of_lt_of_eq t.isLt (show cfg0.N = 50 from N_0)
  unfold bsum6
  rw [dif_pos hN]
  refine Finset.sum_congr rfl fun p _ => ?_
  rw [pay3_blocks V c t p q ⟨t.val * 2000 + p.val, by omega⟩ rfl]

/-- Row 0 after a half's first point: that point's column sums over zero. -/
theorem first6 (t : Fin cfg0.N) (hm : t.val % 25 = 0) (q : Fin 512) :
    (outsAt0 V c t.val t.isLt).2.2 (ix2 (0 : Fin 8) q) = 0 + bsum6 V c q t.val := by
  rw [outsAt0_A V c t hm]
  dsimp only
  refine (out_A_6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hm) (iblk0 V c 0 t) (iblk0 V c 1 t) (iblk0 V c 2 t) (iblk0 V c 3 t) q).trans ?_
  refine (pay5_apply (iblk0 V c 0 t) (iblk0 V c 2 t) (iblk0 V c 1 t) (iblk0 V c 3 t) (broadcast S1x512 (zeroWord (F := Ideal))) q).trans ?_
  rw [colsum6_blocks V c t q]
  show Ideal.ofBits .f32 0x00000000#32 + _ = 0 + _
  rw [Ideal.ofBits_zero_f32]

/-- Row 0 after a later point: what the point before left plus this point's column sums. -/
theorem step6 (t : Fin cfg0.N) (hm : ¬t.val % 25 = 0) (q : Fin 512) :
    (outsAt0 V c t.val t.isLt).2.2 (ix2 (0 : Fin 8) q)
      = (outsAt0 V c (t.val - 1) (Nat.lt_of_le_of_lt (Nat.sub_le _ _) t.isLt)).2.2 (ix2 (0 : Fin 8) q) + bsum6 V c q t.val := by
  rw [outsAt0_B V c t hm]
  dsimp only
  refine (out_B_6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => hm ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2 q).trans ?_
  refine (pay5_apply (iblk0 V c 0 t) (iblk0 V c 2 t) (iblk0 V c 1 t) (iblk0 V c 3 t) (row0 (outsAt0 V c (t.val - 1) (Nat.lt_of_le_of_lt (Nat.sub_le _ _) t.isLt)).2.2) q).trans ?_
  rw [colsum6_blocks V c t q, row0_apply]

/-- Rows 1-7 are zero after every point. -/
theorem rest6 : ∀ (k : ℕ) (hk : k < cfg0.N) (r : Fin 8) (_ : r.val ≠ 0) (q : Fin 512),
    (outsAt0 V c k hk).2.2 (ix2 r q) = 0
  | 0, hk, r, hr, q => by
    show (outsAt0 V c (⟨0, hk⟩ : Fin cfg0.N).val (⟨0, hk⟩ : Fin cfg0.N).isLt).2.2 (ix2 r q) = 0
    rw [outsAt0_A V c ⟨0, hk⟩ rfl]
    dsimp only
    refine (out_A_6_rest (F := Ideal) c (grid0.coords ⟨0, hk⟩) (ms0_0 ⟨0, hk⟩) (hs0_0 ⟨0, hk⟩) (ms0_1 ⟨0, hk⟩) (hs0_1 ⟨0, hk⟩) (ms0_2 ⟨0, hk⟩) (hs0_2 ⟨0, hk⟩) (ms0_3 ⟨0, hk⟩) (hs0_3 ⟨0, hk⟩) (ms0_4 ⟨0, hk⟩) (hs0_4 ⟨0, hk⟩) (ms0_5 ⟨0, hk⟩) (hs0_5 ⟨0, hk⟩) (ms0_6 ⟨0, hk⟩) (hs0_6 ⟨0, hk⟩) ((hcond0_0 ⟨0, hk⟩).mpr rfl) (iblk0 V c 0 ⟨0, hk⟩) (iblk0 V c 1 ⟨0, hk⟩) (iblk0 V c 2 ⟨0, hk⟩) (iblk0 V c 3 ⟨0, hk⟩) r hr q).trans ?_
    exact Ideal.ofBits_zero_f32
  | k + 1, hk, r, hr, q => by
    show (outsAt0 V c (⟨k + 1, hk⟩ : Fin cfg0.N).val (⟨k + 1, hk⟩ : Fin cfg0.N).isLt).2.2 (ix2 r q) = 0
    by_cases hm : (⟨k + 1, hk⟩ : Fin cfg0.N).val % 25 = 0
    · rw [outsAt0_A V c ⟨k + 1, hk⟩ hm]
      dsimp only
      refine (out_A_6_rest (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) ((hcond0_0 ⟨k + 1, hk⟩).mpr hm) (iblk0 V c 0 ⟨k + 1, hk⟩) (iblk0 V c 1 ⟨k + 1, hk⟩) (iblk0 V c 2 ⟨k + 1, hk⟩) (iblk0 V c 3 ⟨k + 1, hk⟩) r hr q).trans ?_
      exact Ideal.ofBits_zero_f32
    · rw [outsAt0_B V c ⟨k + 1, hk⟩ hm]
      dsimp only
      refine (out_B_6_rest (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) (fun h => hm ((hcond0_0 ⟨k + 1, hk⟩).mp h)) (iblk0 V c 0 ⟨k + 1, hk⟩) (iblk0 V c 1 ⟨k + 1, hk⟩) (iblk0 V c 2 ⟨k + 1, hk⟩) (iblk0 V c 3 ⟨k + 1, hk⟩) _ _ r hr q).trans ?_
      exact rest6 k (Nat.lt_of_succ_lt hk) r hr q

/-- The point's number alone decides what the outputs hold after it. -/
theorem outsAt0_congr6 (k k' : ℕ) (hk : k < cfg0.N) (hk' : k' < cfg0.N) (e : k = k') :
    outsAt0 V c k hk = outsAt0 V c k' hk' := by subst e; rfl

/-- Row 0 after point k, as a function of the point's number (zero past the grid). -/
def acc6 (q : Fin 512) (k : ℕ) : EReal :=
  if h : k < cfg0.N then (outsAt0 V c k h).2.2 (ix2 (0 : Fin 8) q) else 0

theorem acc6_first (q : Fin 512) (k : ℕ) (hk : k < 50) (hm : k % 25 = 0) : acc6 V c q k = 0 + bsum6 V c q k := by
  have hk' : k < cfg0.N := lt_of_lt_of_eq hk (show cfg0.N = 50 from N_0).symm
  unfold acc6
  rw [dif_pos hk']
  exact first6 V c ⟨k, hk'⟩ hm q

theorem acc6_step (q : Fin 512) (k : ℕ) (hk : k < 50) (hm : k % 25 ≠ 0) :
    acc6 V c q k = acc6 V c q (k - 1) + bsum6 V c q k := by
  have hk' : k < cfg0.N := lt_of_lt_of_eq hk (show cfg0.N = 50 from N_0).symm
  have hk1 : k - 1 < cfg0.N := Nat.lt_of_le_of_lt (Nat.sub_le _ _) hk'
  unfold acc6
  rw [dif_pos hk', dif_pos hk1]
  exact step6 V c ⟨k, hk'⟩ hm q

/-- What output 6's array holds after the region. -/
def G6 : S16x512.Idx → EReal := fun i =>
  if (i 0).val = 0 then ∑ u : Fin 25, bsum6 V c (i 1) u.val
  else if (i 0).val = 8 then ∑ u : Fin 25, bsum6 V c (i 1) (25 + u.val)
  else 0

/-- The block a half's last point leaves, at (r, q), is the array's entry where the block's rectangle puts it. -/
theorem flushed6_at (t : Fin cfg0.N) (hf : t.val % 25 = 24) (y : S8x512.Idx) :
    (outsAt0 V c t.val t.isLt).2.2 y = G6 V c (((cfg0.win 6).blk t).view.emb y) := by
  have hN : t.val < 50 := lt_of_lt_of_eq t.isLt (show cfg0.N = 50 from N_0)
  obtain ⟨-, -, -, -, -, -, -, -, -, e50, e51, e60, e61⟩ := idx_facts t
  obtain ⟨r, q, rfl⟩ : ∃ (r : Fin 8) (q : Fin 512), y = ix2 r q := ⟨y 0, y 1, eq_ix2 y⟩
  have hrow : ((((cfg0.win 6).blk t).view.emb (ix2 r q)) 0).val = t.val / 25 * 8 + r.val := by
    show win0_6.index t (0 : Fin 2) * 8 + 1 * r.val = _; rw [e60]; omega
  have hcol : (((cfg0.win 6).blk t).view.emb (ix2 r q)) 1 = q := by
    apply Fin.ext
    show win0_6.index t (1 : Fin 2) * 512 + 1 * q.val = q.val; rw [e61]; omega
  unfold G6
  rw [hrow, hcol]
  have h24 : t.val = 24 ∨ t.val = 49 := by omega
  by_cases hr : r.val = 0
  · obtain rfl : r = 0 := Fin.ext hr
    rcases h24 with h | h
    · rw [if_pos (by rw [h]; rfl)]
      have := Spec.acc_run_24 (bsum6 V c q) (acc6 V c q) (acc6_first V c q) (acc6_step V c q)
      rw [← this]
      unfold acc6
      rw [dif_pos (by rw [show cfg0.N = 50 from N_0]; omega)]
      rw [outsAt0_congr6 V c t.val 24 t.isLt (by rw [show cfg0.N = 50 from N_0]; omega) h]
    · rw [if_neg (by rw [h]; decide), if_pos (by rw [h]; rfl)]
      have := Spec.acc_run_49 (bsum6 V c q) (acc6 V c q) (acc6_first V c q) (acc6_step V c q)
      rw [← this]
      unfold acc6
      rw [dif_pos (by rw [show cfg0.N = 50 from N_0]; omega)]
      rw [outsAt0_congr6 V c t.val 49 t.isLt (by rw [show cfg0.N = 50 from N_0]; omega) h]
  · rw [rest6 V c t.val t.isLt r hr q]
    have hr8 : r.val < 8 := r.isLt
    rw [if_neg (by omega), if_neg (by omega)]

/-- What a half's last point writes back is its block of that array. -/
theorem flushed6_eq (t : Fin cfg0.N) (hf : (cfg0.win 6).flush t = true) :
    (dat0 V c).flushed 6 t = ((cfg0.win 6).blk t).view.read (Elt Ideal) (G6 V c) := by
  have h24 : t.val % 25 = 24 := (flush0_6 t).mp hf
  show (cfg0.win 6).cut (grid0.coords t) ((dat0 V c).after 6 t) = _
  rw [after0_6]
  exact funext fun y => flushed6_at V c t h24 y

/-- An index of the array is in point t's block iff each coordinate is in the block's range on its axis. -/
theorem mem_blk6 (t : Fin cfg0.N) (i : S16x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v42_2).slice (win0_6.rect t)).set ↔ _
  rw [View.set_slice_whole, Rect.mem_set_unit]
  exact Iff.rfl

/-- Rows 0-7 are in the block of point 24, rows 8-15 in that of point 49. -/
theorem cover6 (i : S16x512.Idx) :
    ∃ t : Fin cfg0.N, (cfg0.win 6).flush t = true ∧ i ∈ ((cfg0.win 6).blk t).view.set := by
  have h0 : (i 0).val < 16 := (i 0).isLt
  have h1 : (i 1).val < 512 := (i 1).isLt
  have hN : cfg0.N = 50 := N_0
  obtain ⟨t, ht⟩ : ∃ t : Fin cfg0.N, t.val = (i 0).val / 8 * 25 + 24 := ⟨⟨(i 0).val / 8 * 25 + 24, by rw [hN]; omega⟩, rfl⟩
  obtain ⟨-, -, -, -, -, -, -, -, -, e50, e51, e60, e61⟩ := idx_facts t
  refine ⟨t, (flush0_6 t).mpr (by rw [ht]; omega), ?_⟩
  rw [mem_blk6]
  intro a
  match a with
  | ⟨0, _⟩ =>
    show win0_6.index t (0 : Fin 2) * 8 ≤ (i 0).val ∧ (i 0).val < win0_6.index t (0 : Fin 2) * 8 + 8
    rw [e60, ht]; omega
  | ⟨1, _⟩ =>
    show win0_6.index t (1 : Fin 2) * 512 ≤ (i 1).val ∧ (i 1).val < win0_6.index t (1 : Fin 2) * 512 + 512
    rw [e61]; omega

/-- Output 6 after the region, at (r, j). -/
theorem arr0_6 (r : Fin 16) (j : Fin 512) :
    @Eq EReal ((Gen.dat0 (F := Ideal) V c).arrAt 6 cfg0.N (ValueIdx.ix2 r j)) (G6 V c (ix2 r j)) := by
  rw [(dat0 V c).arrAt_eq_of_cover 6 (G6 V c) (flushed6_eq V c) (cover6)]

/-- The 16 rows of output 6 add up to the column sums over all 100000 rows. -/
theorem arr0_6_sum (j : Fin 512) :
    (∑ r : Fin 16, ((Gen.dat0 (F := Ideal) V c).arrAt 6 cfg0.N (ValueIdx.ix2 r j) : EReal) : EReal) = ∑ n : Fin 100000, Y0 V c n j * Y0 V c n j := by
  refine (Finset.sum_congr (M := EReal) rfl fun r _ => arr0_6 V c r j).trans ?_
  rw [Spec.sum_sixteen (fun r => G6 V c (ix2 r j)) (fun r h0 h8 => by
    show (if r.val = 0 then _ else if r.val = 8 then _ else (0 : EReal)) = 0
    rw [if_neg h0, if_neg h8])]
  rw [Spec.sum_rows_blocks (fun n => Y0 V c n j * Y0 V c n j), Spec.sum_blocks_halves, Fin.sum_univ_two]
  refine congrArg₂ (· + ·) ?_ ?_
  · show (if (0 : ℕ) = 0 then ∑ u : Fin 25, bsum6 V c j u.val else _) = _
    rw [if_pos rfl]
    refine Finset.sum_congr rfl fun u _ => ?_
    unfold bsum6
    rw [dif_pos (by omega)]
    refine Finset.sum_congr rfl fun p _ => ?_
    refine congrArg (fun n : Fin 100000 => Y0 V c n j * Y0 V c n j) (Fin.ext ?_)
    show u.val * 2000 + p.val = (0 * 25 + u.val) * 2000 + p.val
    omega
  · show (if (8 : ℕ) = 0 then _ else if (8 : ℕ) = 8 then ∑ u : Fin 25, bsum6 V c j (25 + u.val) else _) = _
    rw [if_neg (by decide), if_pos rfl]
    refine Finset.sum_congr rfl fun u _ => ?_
    unfold bsum6
    rw [dif_pos (by omega)]
    refine Finset.sum_congr rfl fun p _ => ?_
    refine congrArg (fun n : Fin 100000 => Y0 V c n j * Y0 V c n j) (Fin.ext ?_)
    show (25 + u.val) * 2000 + p.val = (1 * 25 + u.val) * 2000 + p.val
    omega

end Cert.KernelIdeal.KValue0

end
-- ==== Proof.KRegion0.lean ====
/-
  The three arrays the first layer's region leaves, read at an index — the statements of the three
  output modules gathered under the region's name.

  With X, s, W, b the node features, the scale column, the weights (read from the transposed weights
  window) and the bias as the region finds them, and  Y(n, j) = (Σ_k X(n, k) · W(j, k)) · s(n) + b(j):
  output 4 holds Y; the 16 rows of output 5 add up to the column sums of Y over all 100000 rows, and
  those of output 6 to the column sums of Y².
-/
import proofs.«103207_j63436666962551_2_alg».proof.Proof.KRegion0Out4
import proofs.«103207_j63436666962551_2_alg».proof.Proof.KRegion0Out5
import proofs.«103207_j63436666962551_2_alg».proof.Proof.KRegion0Out6

noncomputable section

namespace Cert.KernelIdeal.KValue0

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b)) (c : Dev nD)

/-- The layer's value written out over the arrays the region finds. -/
theorem Y0_eq : Y0 V c = Spec.lin (Spec.toMat (V c (Pipeline.arrRef spec0 0))) (fun j k => V c (Pipeline.arrRef spec0 2) (ix2 k j))
    (Spec.toCol (V c (Pipeline.arrRef spec0 1))) (Spec.toRow (V c (Pipeline.arrRef spec0 3))) := rfl

/-- Output 4, output 5's row total and output 6's row total, together. -/
theorem region0_arrays :
    (∀ (n : Fin 100000) (j : Fin 512), @Eq EReal ((Gen.dat0 (F := Ideal) V c).arrAt 4 cfg0.N (ValueIdx.ix2 n j)) (Y0 V c n j))
    ∧ (∀ j : Fin 512, (∑ r : Fin 16, ((Gen.dat0 (F := Ideal) V c).arrAt 5 cfg0.N (ValueIdx.ix2 r j) : EReal) : EReal) = ∑ n : Fin 100000, Y0 V c n j)
    ∧ (∀ j : Fin 512, (∑ r : Fin 16, ((Gen.dat0 (F := Ideal) V c).arrAt 6 cfg0.N (ValueIdx.ix2 r j) : EReal) : EReal) = ∑ n : Fin 100000, Y0 V c n j * Y0 V c n j) :=
  ⟨arr0_4 V c, arr0_5_sum V c, arr0_6_sum V c⟩

end Cert.KernelIdeal.KValue0

end
-- ==== Proof.KRegion1Pay.lean ====
/-
  The middle layer's arithmetic on one block of 2000 rows, read at an entry over the extended reals.

  Entry (r, j) of the block the body stores: the rows' entries are centred by the mean row, scaled by the inverse
  root of the variance row plus the offset and clipped at zero; the clipped row r is contracted with column j of the
  weight block; the product is scaled by row r's entry of the scale column, and entry j of the bias is added.
  The two running rows: the row already held plus the column sums of the block, respectively of its squares.
-/
import proofs.«103207_j63436666962551_2_alg».proof.Proof.Gen.KernelIdeal.Skeleton
import proofs.«103207_j63436666962551_2_alg».proof.Proof.Spec
import proofs.«103207_j63436666962551_2_alg».proof.Proof.LibPlainMatmul
import proofs.«103207_j63436666962551_2_alg».proof.Proof.LibColumnLayout
import Idealize.ShloMosaic.Lib.ValueLayout
import Idealize.ShloMosaic.PureOps.Ideal.Laws

noncomputable section

namespace Cert.KernelIdeal.KValue1

open Idealize.ShloMosaic Idealize.ShloMosaic.ValueIdx Cert.KernelIdeal Cert.KernelIdeal.Gen

/-- the block's entry (r, j) as a function of the six blocks the body loads -/
def blockY (x0 : Vec Ideal S2000x512 .f32) (x1 x2 : Vec Ideal S1x512 .f32) (x3 : Vec Ideal S2000x1 .f32)
    (x4 : Vec Ideal S512x512 .bf16) (x5 : Vec Ideal S512 .f32) (r : Fin 2000) (j : Fin 512) : EReal :=
  (∑ k : Fin 512, max ((x0 (ix2 r k) - x1 (ix2 (0 : Fin 1) k)) * Ideal.rsqrt (x2 (ix2 (0 : Fin 1) k) + Spec.eps)) 0 * x4 (ix2 k j))
    * x3 (ix2 r (0 : Fin 1)) + x5 (ix1 j)

/-- the [2000, 512] by [512, 512] product into zero at (r, j) -/
theorem matmul_apply' (u : FVec Ideal S2000x512 .bf16) (w : FVec Ideal S512x512 .bf16) (r : Fin 2000) (j : Fin 512) :
    matmul dot_S2000x512_S512x512_S2000x512_1_0_0_1_n_n none u w (constant (F := Ideal) S2000x512 .f32 0x00000000#32) (ix2 r j)
      = ∑ k : Fin 512, u (ix2 r k) * w (ix2 k j) :=
  Cert.Lib.matmul_plain_zero_apply none u w r j

theorem pay5_apply (x0 : Vec Ideal S2000x512 .f32) (x1 x2 : Vec Ideal S1x512 .f32) (x3 : Vec Ideal S2000x1 .f32)
    (x4 : Vec Ideal S512x512 .bf16) (x5 : Vec Ideal S512 .f32) (r : Fin 2000) (j : Fin 512) :
    k1_pay5 (F := Ideal) x0 x1 x2 x4 x3 x5 (ix2 r j) = blockY x0 x1 x2 x3 x4 x5 r j := by
  unfold k1_pay5 blockY
  simp only [shapeCast_self]
  refine congrArg₂ (· + ·) (congrArg₂ (· * ·) ?_ ?_) ?_
  · refine (matmul_apply' _ _ r j).trans (Finset.sum_congr rfl fun k _ => congrArg₂ (· * ·) ?_ rfl)
    show max ((x0 (ix2 r k) - broadcastTo S2000x512 x1 broadcasts_S1x512_S2000x512 (ix2 r k))
        * Ideal.rsqrt (broadcastTo S2000x512 x2 broadcasts_S1x512_S2000x512 (ix2 r k) + Ideal.ofBits .f32 0x3727C5AC#32))
      (Ideal.ofBits .f32 0x00000000#32) = _
    rw [broadcastTo_1b_ab_apply, broadcastTo_1b_ab_apply, Ideal.ofBits_zero_f32]
    rfl
  · exact Cert.Lib.broadcastTo_a1_ab_apply x3 broadcasts_S2000x1_S2000x512 r j
  · exact (broadcastTo_1b_ab_apply _ broadcasts_S1x512_S2000x512 r j).trans (shapeCast_a_1a_apply x5 shapeCasts_S512_S1x512 0 j)

/-- column sums of a block from zero: at column j the sum over the 2000 rows -/
theorem col_sum_zero_apply (src : FVec Ideal S2000x512 .f32) (j : Fin 512) :
    multiReduction .add [0] S512 src 0x00000000#32 reduces_S2000x512_S512 (.inl rfl) rfl (ix1 j)
      = ∑ r : Fin 2000, src (ix2 r j) := by
  refine (Ideal.multiReduction_add_single src 0x00000000#32 reduces_S2000x512_S512 (.inl rfl) rfl (ix1 j)).trans ?_
  show ∑ k : Fin 2000, src (reduces_S2000x512_S512.lift (ix1 j) k) = _
  refine Finset.sum_congr rfl fun k _ => congrArg src ?_
  funext d; apply Fin.ext
  fin_cases d <;> rfl

/-- the running row of column sums: what was held plus the block's column sums -/
theorem pay1_apply (y : FVec Ideal S2000x512 .f32) (v : Vec Ideal S1x512 .f32) (j : Fin 512) :
    k1_pay1 (F := Ideal) y v (ix2 (0 : Fin 1) j) = v (ix2 (0 : Fin 1) j) + ∑ r : Fin 2000, y (ix2 r j) := by
  unfold k1_pay1
  simp only [shapeCast_self]
  refine congrArg₂ (· + ·) rfl ?_
  exact (shapeCast_a_1a_apply _ shapeCasts_S512_S1x512 0 j).trans (col_sum_zero_apply y j)

/-- the running row of column sums of squares -/
theorem pay2_apply (y : FVec Ideal S2000x512 .f32) (v : Vec Ideal S1x512 .f32) (j : Fin 512) :
    k1_pay2 (F := Ideal) y v (ix2 (0 : Fin 1) j) = v (ix2 (0 : Fin 1) j) + ∑ r : Fin 2000, y (ix2 r j) * y (ix2 r j) := by
  unfold k1_pay2
  simp only [shapeCast_self]
  refine congrArg₂ (· + ·) rfl ?_
  exact (shapeCast_a_1a_apply _ shapeCasts_S512_S1x512 0 j).trans (col_sum_zero_apply (mulf y y) j)

end Cert.KernelIdeal.KValue1

end
-- ==== Proof.KRegion1Acc.lean ====
/-
  What one grid point of the middle layer leaves in its three output blocks, over the extended reals.

  The [2000, 512] block is the layer's arithmetic on the six loaded blocks.  The two [8, 512] blocks of running
  statistics are written through their first row only: at the first point of a half they are zeroed and row 0
  becomes zero plus the column sums of the block (of its squares, for the second); at every other point row 0
  gains those column sums and rows 1 to 7 keep what they held.
-/
import proofs.«103207_j63436666962551_2_alg».proof.Proof.Gen.KernelIdeal.Frame
import Idealize.ShloMosaic.Lib.Pipeline.Value
import proofs.«103207_j63436666962551_2_alg».proof.Proof.KRegion1Pay
import Idealize.ShloMosaic.Lib.ValueIdx

noncomputable section

namespace Cert.KernelIdeal.KValue1

open Idealize.ShloMosaic Idealize.ShloMosaic.TcCoe Idealize.ShloMosaic.Tactic Idealize.SL.Sem
open Idealize.ShloMosaic.Pipeline (Dat)
open Cert.KernelIdeal Cert.KernelIdeal.Gen Idealize.ShloMosaic.ValueIdx

theorem hz1 : (![0] : Fin 1 → Nat) = fun _ => 0 := funext fun a => by fin_cases a; rfl

theorem hz : (![0, 0] : Fin 2 → Nat) = fun _ => 0 := funext fun a => by fin_cases a <;> rfl

variable (c : Dev nD) (i : grid1.Coords)
  (a2 : Memref sig .tc .vmem S2000x512 .f32) (h2 : a2.IsWhole) (a3 : Memref sig .tc .vmem S1x512 .f32) (h3 : a3.IsWhole)
  (a4 : Memref sig .tc .vmem S1x512 .f32) (h4 : a4.IsWhole) (a5 : Memref sig .tc .vmem S2000x1 .f32) (h5 : a5.IsWhole)
  (a6 : Memref sig .tc .vmem S512x512 .bf16) (h6 : a6.IsWhole) (a7 : Memref sig .tc .vmem S512 .f32) (h7 : a7.IsWhole)
  (a8 : Memref sig .tc .vmem S2000x512 .f32) (h8 : a8.IsWhole) (a9 : Memref sig .tc .vmem S8x512 .f32) (h9 : a9.IsWhole)
  (a10 : Memref sig .tc .vmem S8x512 .f32) (h10 : a10.IsWhole)
  (x0 : Vec Ideal S2000x512 .f32) (x1 : Vec Ideal S1x512 .f32) (x2 : Vec Ideal S1x512 .f32) (x3 : Vec Ideal S2000x1 .f32)
  (x4 : Vec Ideal S512x512 .bf16) (x5 : Vec Ideal S512 .f32)

section RowZero

/-- the first row of an [8, 512] block, as the rectangle the body's one-row stores and loads go through -/
abbrev row0 : Rect S8x512 := Rect.unit (s := S8x512) ![0, 0] S1x512.size inb_S8x512_S1x512_0_0

theorem row0_emb (j : Fin 512) : row0.emb (ix2 (0 : Fin 1) j : S1x512.Idx) = ix2 (0 : Fin 8) j := by
  funext a; apply Fin.ext
  match a with
  | ⟨0, _⟩ => rfl
  | ⟨1, _⟩ => show 0 + 1 * j.val = j.val; omega

theorem not_mem_row0 (b : Fin 8) (hb : b.val ≠ 0) (j : Fin 512) : (ix2 b j : S8x512.Idx) ∉ row0.set := by
  rw [Rect.mem_set_unit]
  intro h
  have h0 := (h 0).2
  have : b.val < 0 + 1 := h0
  omega

end RowZero

variable (xo7 xo8 : Vec Ideal S8x512 .f32)

theorem out_A_6 (hc : cond1_0 i) :
    out1_A_6 (F := Ideal) c i a2 h2 a3 h3 a4 h4 a5 h5 a6 h6 a7 h7 a8 h8 a9 h9 a10 h10 hc x0 x1 x2 x3 x4 x5 = k1_pay5 x0 x1 x2 x4 x3 x5 := by
  unfold out1_A_6
  rw [View.read_writes_eq_canon _ _ _ (cover1_A_6 c i a2 h2 a3 h3 a4 h4 a5 h5 a6 h6 a7 h7 a8 h8 a9 h9 a10 h10 hc x0 x1 x2 x3 x4 x5)]
  unfold kernelRun1_A
  dsimp only
  rw [View.canon_unit_zero hz]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1]

theorem out_B_6 (hc : ¬cond1_0 i) :
    out1_B_6 (F := Ideal) c i a2 h2 a3 h3 a4 h4 a5 h5 a6 h6 a7 h7 a8 h8 a9 h9 a10 h10 hc x0 x1 x2 x3 x4 x5 xo7 xo8 = k1_pay5 x0 x1 x2 x4 x3 x5 := by
  unfold out1_B_6
  rw [View.read_writes_eq_canon _ _ _ (cover1_B_6 c i a2 h2 a3 h3 a4 h4 a5 h5 a6 h6 a7 h7 a8 h8 a9 h9 a10 h10 hc x0 x1 x2 x3 x4 x5 xo7 xo8)]
  unfold kernelRun1_B
  dsimp only
  rw [View.canon_unit_zero hz]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1]

theorem out_B_7_row0 (hc : ¬cond1_0 i) (j : Fin 512) :
    out1_B_7 (F := Ideal) c i a2 h2 a3 h3 a4 h4 a5 h5 a6 h6 a7 h7 a8 h8 a9 h9 a10 h10 hc x0 x1 x2 x3 x4 x5 xo7 xo8 (ix2 (0 : Fin 8) j)
      = k1_pay1 (k1_pay5 x0 x1 x2 x4 x3 x5) (fun y => xo7 (row0.emb y)) (ix2 (0 : Fin 1) j) := by
  unfold out1_B_7
  unfold kernelRun1_B
  dsimp only
  sl_unfold_words
  rw [← row0_emb j, View.read_writes_cons_emb]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1, h9.read_unread]
  rfl

theorem out_B_7_rest (hc : ¬cond1_0 i) (b : Fin 8) (hb : b.val ≠ 0) (j : Fin 512) :
    out1_B_7 (F := Ideal) c i a2 h2 a3 h3 a4 h4 a5 h5 a6 h6 a7 h7 a8 h8 a9 h9 a10 h10 hc x0 x1 x2 x3 x4 x5 xo7 xo8 (ix2 b j) = xo7 (ix2 b j) := by
  unfold out1_B_7
  unfold kernelRun1_B
  dsimp only
  rw [View.writes_singleton, View.read_slice_write_of_not_mem _ _ _ _ (by rw [Rect.map_emb_univ]; exact not_mem_row0 b hb j),
    h9.read_unread]

theorem out_A_7_row0 (hc : cond1_0 i) (j : Fin 512) :
    out1_A_7 (F := Ideal) c i a2 h2 a3 h3 a4 h4 a5 h5 a6 h6 a7 h7 a8 h8 a9 h9 a10 h10 hc x0 x1 x2 x3 x4 x5 (ix2 (0 : Fin 8) j)
      = k1_pay1 (k1_pay5 x0 x1 x2 x4 x3 x5) (fun y => k1_pay3 (F := Ideal) (row0.emb y)) (ix2 (0 : Fin 1) j) := by
  unfold out1_A_7
  rw [View.read_writes_eq_canon _ _ _ (cover1_A_7 c i a2 h2 a3 h3 a4 h4 a5 h5 a6 h6 a7 h7 a8 h8 a9 h9 a10 h10 hc x0 x1 x2 x3 x4 x5)]
  unfold kernelRun1_A
  dsimp only
  sl_unfold_words
  rw [← row0_emb j, View.canon_cons_emb, View.readCov_eq_canon', View.canon_unit_zero hz]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1]
  rfl

theorem out_A_7_rest (hc : cond1_0 i) (b : Fin 8) (hb : b.val ≠ 0) (j : Fin 512) :
    out1_A_7 (F := Ideal) c i a2 h2 a3 h3 a4 h4 a5 h5 a6 h6 a7 h7 a8 h8 a9 h9 a10 h10 hc x0 x1 x2 x3 x4 x5 (ix2 b j) = k1_pay3 (F := Ideal) (ix2 b j) := by
  unfold out1_A_7
  rw [View.read_writes_eq_canon _ _ _ (cover1_A_7 c i a2 h2 a3 h3 a4 h4 a5 h5 a6 h6 a7 h7 a8 h8 a9 h9 a10 h10 hc x0 x1 x2 x3 x4 x5)]
  unfold kernelRun1_A
  dsimp only
  sl_unfold_words
  rw [View.canon_cons_of_not_mem _ _ (not_mem_row0 b hb j), View.canon_unit_zero hz]

theorem out_B_8_row0 (hc : ¬cond1_0 i) (j : Fin 512) :
    out1_B_8 (F := Ideal) c i a2 h2 a3 h3 a4 h4 a5 h5 a6 h6 a7 h7 a8 h8 a9 h9 a10 h10 hc x0 x1 x2 x3 x4 x5 xo7 xo8 (ix2 (0 : Fin 8) j)
      = k1_pay2 (k1_pay5 x0 x1 x2 x4 x3 x5) (fun y => xo8 (row0.emb y)) (ix2 (0 : Fin 1) j) := by
  unfold out1_B_8
  unfold kernelRun1_B
  dsimp only
  sl_unfold_words
  rw [← row0_emb j, View.read_writes_cons_emb]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1, h10.read_unread]
  rfl

theorem out_B_8_rest (hc : ¬cond1_0 i) (b : Fin 8) (hb : b.val ≠ 0) (j : Fin 512) :
    out1_B_8 (F := Ideal) c i a2 h2 a3 h3 a4 h4 a5 h5 a6 h6 a7 h7 a8 h8 a9 h9 a10 h10 hc x0 x1 x2 x3 x4 x5 xo7 xo8 (ix2 b j) = xo8 (ix2 b j) := by
  unfold out1_B_8
  unfold kernelRun1_B
  dsimp only
  rw [View.writes_singleton, View.read_slice_write_of_not_mem _ _ _ _ (by rw [Rect.map_emb_univ]; exact not_mem_row0 b hb j),
    h10.read_unread]

theorem out_A_8_row0 (hc : cond1_0 i) (j : Fin 512) :
    out1_A_8 (F := Ideal) c i a2 h2 a3 h3 a4 h4 a5 h5 a6 h6 a7 h7 a8 h8 a9 h9 a10 h10 hc x0 x1 x2 x3 x4 x5 (ix2 (0 : Fin 8) j)
      = k1_pay2 (k1_pay5 x0 x1 x2 x4 x3 x5) (fun y => k1_pay4 (F := Ideal) (row0.emb y)) (ix2 (0 : Fin 1) j) := by
  unfold out1_A_8
  rw [View.read_writes_eq_canon _ _ _ (cover1_A_8 c i a2 h2 a3 h3 a4 h4 a5 h5 a6 h6 a7 h7 a8 h8 a9 h9 a10 h10 hc x0 x1 x2 x3 x4 x5)]
  unfold kernelRun1_A
  dsimp only
  sl_unfold_words
  rw [← row0_emb j, View.canon_cons_emb, View.readCov_eq_canon', View.canon_unit_zero hz]
  simp only [View.readAt_eq_ld, h2.read_unread, h3.read_unread, h4.read_unread, h5.read_unread, h6.read_unread, h7.read_unread, View.ld_unit_zero (S := S2000x512) hz, View.ld_unit_zero (S := S1x512) hz, View.ld_unit_zero (S := S512x512) hz, View.ld_unit_zero (S := S2000x1) hz, View.ld_unit_zero (S := S512) hz1]
  rfl

theorem out_A_8_rest (hc : cond1_0 i) (b : Fin 8) (hb : b.val ≠ 0) (j : Fin 512) :
    out1_A_8 (F := Ideal) c i a2 h2 a3 h3 a4 h4 a5 h5 a6 h6 a7 h7 a8 h8 a9 h9 a10 h10 hc x0 x1 x2 x3 x4 x5 (ix2 b j) = k1_pay4 (F := Ideal) (ix2 b j) := by
  unfold out1_A_8
  rw [View.read_writes_eq_canon _ _ _ (cover1_A_8 c i a2 h2 a3 h3 a4 h4 a5 h5 a6 h6 a7 h7 a8 h8 a9 h9 a10 h10 hc x0 x1 x2 x3 x4 x5)]
  unfold kernelRun1_A
  dsimp only
  sl_unfold_words
  rw [View.canon_cons_of_not_mem _ _ (not_mem_row0 b hb j), View.canon_unit_zero hz]

/-! ### The two running blocks read at an entry -/

theorem pay3_apply (y : S8x512.Idx) : k1_pay3 (F := Ideal) y = 0 := Ideal.ofBits_zero_f32
theorem pay4_apply (y : S8x512.Idx) : k1_pay4 (F := Ideal) y = 0 := Ideal.ofBits_zero_f32

/-- at a first point of a half, the block of column sums holds in row 0 zero plus the block's column sums, zero below -/
theorem out_A_7_apply (hc : cond1_0 i) (b : Fin 8) (j : Fin 512) :
    out1_A_7 (F := Ideal) c i a2 h2 a3 h3 a4 h4 a5 h5 a6 h6 a7 h7 a8 h8 a9 h9 a10 h10 hc x0 x1 x2 x3 x4 x5 (ix2 b j)
      = if b.val = 0 then 0 + ∑ r : Fin 2000, k1_pay5 x0 x1 x2 x4 x3 x5 (ix2 r j) else 0 := by
  by_cases hb : b.val = 0
  · obtain rfl : b = 0 := Fin.ext hb
    rw [if_pos hb]
    exact (out_A_7_row0 c i a2 h2 a3 h3 a4 h4 a5 h5 a6 h6 a7 h7 a8 h8 a9 h9 a10 h10 x0 x1 x2 x3 x4 x5 hc j).trans
      ((pay1_apply _ _ j).trans (congrArg₂ (· + ·) (pay3_apply _) rfl))
  · rw [if_neg hb]
    exact (out_A_7_rest c i a2 h2 a3 h3 a4 h4 a5 h5 a6 h6 a7 h7 a8 h8 a9 h9 a10 h10 x0 x1 x2 x3 x4 x5 hc b hb j).trans (pay3_apply _)

theorem out_A_8_apply (hc : cond1_0 i) (b : Fin 8) (j : Fin 512) :
    out1_A_8 (F := Ideal) c i a2 h2 a3 h3 a4 h4 a5 h5 a6 h6 a7 h7 a8 h8 a9 h9 a10 h10 hc x0 x1 x2 x3 x4 x5 (ix2 b j)
      = if b.val = 0 then 0 + ∑ r : Fin 2000, k1_pay5 x0 x1 x2 x4 x3 x5 (ix2 r j) * k1_pay5 x0 x1 x2 x4 x3 x5 (ix2 r j) else 0 := by
  by_cases hb : b.val = 0
  · obtain rfl : b = 0 := Fin.ext hb
    rw [if_pos hb]
    exact (out_A_8_row0 c i a2 h2 a3 h3 a4 h4 a5 h5 a6 h6 a7 h7 a8 h8 a9 h9 a10 h10 x0 x1 x2 x3 x4 x5 hc j).trans
      ((pay2_apply _ _ j).trans (congrArg₂ (· + ·) (pay4_apply _) rfl))
  · rw [if_neg hb]
    exact (out_A_8_rest c i a2 h2 a3 h3 a4 h4 a5 h5 a6 h6 a7 h7 a8 h8 a9 h9 a10 h10 x0 x1 x2 x3 x4 x5 hc b hb j).trans (pay4_apply _)

/-- at any other point, row 0 gains the block's column sums and the rows below stay -/
theorem out_B_7_apply (hc : ¬cond1_0 i) (b : Fin 8) (j : Fin 512) :
    out1_B_7 (F := Ideal) c i a2 h2 a3 h3 a4 h4 a5 h5 a6 h6 a7 h7 a8 h8 a9 h9 a10 h10 hc x0 x1 x2 x3 x4 x5 xo7 xo8 (ix2 b j)
      = if b.val = 0 then xo7 (ix2 (0 : Fin 8) j) + ∑ r : Fin 2000, k1_pay5 x0 x1 x2 x4 x3 x5 (ix2 r j) else xo7 (ix2 b j) := by
  by_cases hb : b.val = 0
  · obtain rfl : b = 0 := Fin.ext hb
    rw [if_pos hb]
    exact (out_B_7_row0 c i a2 h2 a3 h3 a4 h4 a5 h5 a6 h6 a7 h7 a8 h8 a9 h9 a10 h10 x0 x1 x2 x3 x4 x5 xo7 xo8 hc j).trans
      ((pay1_apply _ _ j).trans (congrArg₂ (· + ·) (congrArg xo7 (row0_emb j)) rfl))
  · rw [if_neg hb]
    exact out_B_7_rest c i a2 h2 a3 h3 a4 h4 a5 h5 a6 h6 a7 h7 a8 h8 a9 h9 a10 h10 x0 x1 x2 x3 x4 x5 xo7 xo8 hc b hb j

theorem out_B_8_apply (hc : ¬cond1_0 i) (b : Fin 8) (j : Fin 512) :
    out1_B_8 (F := Ideal) c i a2 h2 a3 h3 a4 h4 a5 h5 a6 h6 a7 h7 a8 h8 a9 h9 a10 h10 hc x0 x1 x2 x3 x4 x5 xo7 xo8 (ix2 b j)
      = if b.val = 0 then xo8 (ix2 (0 : Fin 8) j) + ∑ r : Fin 2000, k1_pay5 x0 x1 x2 x4 x3 x5 (ix2 r j) * k1_pay5 x0 x1 x2 x4 x3 x5 (ix2 r j)
        else xo8 (ix2 b j) := by
  by_cases hb : b.val = 0
  · obtain rfl : b = 0 := Fin.ext hb
    rw [if_pos hb]
    exact (out_B_8_row0 c i a2 h2 a3 h3 a4 h4 a5 h5 a6 h6 a7 h7 a8 h8 a9 h9 a10 h10 x0 x1 x2 x3 x4 x5 xo7 xo8 hc j).trans
      ((pay2_apply _ _ j).trans (congrArg₂ (· + ·) (congrArg xo8 (row0_emb j)) rfl))
  · rw [if_neg hb]
    exact out_B_8_rest c i a2 h2 a3 h3 a4 h4 a5 h5 a6 h6 a7 h7 a8 h8 a9 h9 a10 h10 x0 x1 x2 x3 x4 x5 xo7 xo8 hc b hb j

end Cert.KernelIdeal.KValue1

end
-- ==== Proof.KRegion1Blocks.lean ====
/-
  The blocks the middle layer's body loads at a grid point, read off the arrays its launch finds.

  The launch walks 50 points (a 2 × 25 grid, flattened row by row). Point t loads rows 2000·t … 2000·t + 1999
  of the previous layer's output y and of the node scales s, and — whole, at every point — the row of column
  means μ, the row of column variances v, the transposed weights and the bias. So the block the body stores at
  point t has, at (r, j), the middle layer's value at row n = 2000·t + r:

      (Σ_k max ((y (n, k) − μ k) · (v k + ε)^(−1/2), 0) · wt (k, j)) · s n + bias j.
-/
import proofs.«103207_j63436666962551_2_alg».proof.Proof.Gen.KernelIdeal.Frame
import proofs.«103207_j63436666962551_2_alg».proof.Proof.KRegion1Pay
import proofs.«103207_j63436666962551_2_alg».proof.Proof.Spec
import Idealize.ShloMosaic.Lib.Pipeline.Value
import Idealize.ShloMosaic.Lib.ValueIdx

set_option maxRecDepth 16384

noncomputable section

namespace Cert.KernelIdeal.KValue1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays the launch finds, at their literal shapes -/

/-- the previous layer's output, [100000, 512] -/
abbrev arr1Y (c : Dev nD) : S100000x512.Idx → EReal := V c (Pipeline.arrRef spec1 0)
/-- the column means, [1, 512] -/
abbrev arr1Mean (c : Dev nD) : S1x512.Idx → EReal := V c (Pipeline.arrRef spec1 1)
/-- the column variances, [1, 512] -/
abbrev arr1Var (c : Dev nD) : S1x512.Idx → EReal := V c (Pipeline.arrRef spec1 2)
/-- the node scales, [100000, 1] -/
abbrev arr1Scale (c : Dev nD) : S100000x1.Idx → EReal := V c (Pipeline.arrRef spec1 3)
/-- the transposed weights, [512 (input feature), 512 (output feature)] -/
abbrev arr1WT (c : Dev nD) : S512x512.Idx → EReal := V c (Pipeline.arrRef spec1 4)
/-- the bias, [512] -/
abbrev arr1Bias (c : Dev nD) : S512.Idx → EReal := V c (Pipeline.arrRef spec1 5)

/-- The middle layer of the arrays the launch finds: the linear layer of the centred, scaled, clipped input. -/
def lay1 (c : Dev nD) : Cert.Spec.Mat :=
  Cert.Spec.lin
    (Cert.Spec.act (fun j => arr1Mean V c (ix2 (0 : Fin 1) j)) (fun j => arr1Var V c (ix2 (0 : Fin 1) j)) (Cert.Spec.toMat (arr1Y V c)))
    (fun j k => arr1WT V c (ix2 k j)) (Cert.Spec.toCol (arr1Scale V c)) (Cert.Spec.toRow (arr1Bias V c))

/-! ## The blocks' places in their arrays -/

/-- The printed index maps over the 50 points: the row-blocked windows (input 0, scales 3, result 6) sit at block
    row t, the two running-sum windows (7, 8) at block row t / 25, the others at block 0. -/
theorem block_places1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val / 25 ∧ win1_7.index t (1 : Fin 2) = 0
    ∧ win1_8.index t (0 : Fin 2) = t.val / 25 ∧ win1_8.index t (1 : Fin 2) = 0 :=
  (by decide +kernel : ∀ t : Fin grid1.N, _)

/-- Block t of the input, at (r, k), is the input at row 2000·t + r. -/
theorem blk1_0_apply (c : Dev nD) (t : Fin cfg1.N) (r : Fin 2000) (k : Fin 512) (n : Fin 100000)
    (hn : n.val = t.val * 2000 + r.val) :
    (iblk1 V c 0 t : Vec Ideal S2000x512 .f32) (ix2 r k) = arr1Y V c (ix2 n k) := by
  obtain ⟨e0, e1, -⟩ := block_places1 t
  show V c (Pipeline.arrRef spec1 0) (((cfg1.win 0).blk t).view.emb (ix2 r k)) = V c (Pipeline.arrRef spec1 0) (ix2 n k)
  refine congrArg (V c (Pipeline.arrRef spec1 0)) ?_
  funext d; apply Fin.ext
  match d with
  | ⟨0, _⟩ => show win1_0.index t (0 : Fin 2) * 2000 + 1 * r.val = n.val; rw [e0, hn]; omega
  | ⟨1, _⟩ => show win1_0.index t (1 : Fin 2) * 512 + 1 * k.val = k.val; rw [e1]; omega

/-- The means' one block, at (0, k), is the means' row at k (every point). -/
theorem blk1_1_apply (c : Dev nD) (t : Fin cfg1.N) (k : Fin 512) :
    (iblk1 V c 1 t : Vec Ideal S1x512 .f32) (ix2 (0 : Fin 1) k) = arr1Mean V c (ix2 (0 : Fin 1) k) := by
  obtain ⟨-, -, e0, e1, -⟩ := block_places1 t
  show V c (Pipeline.arrRef spec1 1) (((cfg1.win 1).blk t).view.emb (ix2 (0 : Fin 1) k)) = V c (Pipeline.arrRef spec1 1) (ix2 (0 : Fin 1) k)
  refine congrArg (V c (Pipeline.arrRef spec1 1)) ?_
  funext d; apply Fin.ext
  match d with
  | ⟨0, _⟩ => show win1_1.index t (0 : Fin 2) * 1 + 1 * 0 = 0; rw [e0]
  | ⟨1, _⟩ => show win1_1.index t (1 : Fin 2) * 512 + 1 * k.val = k.val; rw [e1]; omega

/-- The variances' one block, at (0, k), is the variances' row at k (every point). -/
theorem blk1_2_apply (c : Dev nD) (t : Fin cfg1.N) (k : Fin 512) :
    (iblk1 V c 2 t : Vec Ideal S1x512 .f32) (ix2 (0 : Fin 1) k) = arr1Var V c (ix2 (0 : Fin 1) k) := by
  obtain ⟨-, -, -, -, e0, e1, -⟩ := block_places1 t
  show V c (Pipeline.arrRef spec1 2) (((cfg1.win 2).blk t).view.emb (ix2 (0 : Fin 1) k)) = V c (Pipeline.arrRef spec1 2) (ix2 (0 : Fin 1) k)
  refine congrArg (V c (Pipeline.arrRef spec1 2)) ?_
  funext d; apply Fin.ext
  match d with
  | ⟨0, _⟩ => show win1_2.index t (0 : Fin 2) * 1 + 1 * 0 = 0; rw [e0]
  | ⟨1, _⟩ => show win1_2.index t (1 : Fin 2) * 512 + 1 * k.val = k.val; rw [e1]; omega

/-- Block t of the node scales, at (r, 0), is the scale of node 2000·t + r. -/
theorem blk1_3_apply (c : Dev nD) (t : Fin cfg1.N) (r : Fin 2000) (n : Fin 100000)
    (hn : n.val = t.val * 2000 + r.val) :
    (iblk1 V c 3 t : Vec Ideal S2000x1 .f32) (ix2 r (0 : Fin 1)) = arr1Scale V c (ix2 n (0 : Fin 1)) := by
  obtain ⟨-, -, -, -, -, -, e0, e1, -⟩ := block_places1 t
  show V c (Pipeline.arrRef spec1 3) (((cfg1.win 3).blk t).view.emb (ix2 r (0 : Fin 1))) = V c (Pipeline.arrRef spec1 3) (ix2 n (0 : Fin 1))
  refine congrArg (V c (Pipeline.arrRef spec1 3)) ?_
  funext d; apply Fin.ext
  match d with
  | ⟨0, _⟩ => show win1_3.index t (0 : Fin 2) * 2000 + 1 * r.val = n.val; rw [e0, hn]; omega
  | ⟨1, _⟩ => show win1_3.index t (1 : Fin 2) * 1 + 1 * 0 = 0; rw [e1]

/-- The weights' one block is the weights array (every point). -/
theorem blk1_4_apply (c : Dev nD) (t : Fin cfg1.N) (k j : Fin 512) :
    (iblk1 V c 4 t : Vec Ideal S512x512 .bf16) (ix2 k j) = arr1WT V c (ix2 k j) := by
  obtain ⟨-, -, -, -, -, -, -, -, e0, e1, -⟩ := block_places1 t
  show V c (Pipeline.arrRef spec1 4) (((cfg1.win 4).blk t).view.emb (ix2 k j)) = V c (Pipeline.arrRef spec1 4) (ix2 k j)
  refine congrArg (V c (Pipeline.arrRef spec1 4)) ?_
  funext d; apply Fin.ext
  match d with
  | ⟨0, _⟩ => show win1_4.index t (0 : Fin 2) * 512 + 1 * k.val = k.val; rw [e0]; omega
  | ⟨1, _⟩ => show win1_4.index t (1 : Fin 2) * 512 + 1 * j.val = j.val; rw [e1]; omega

/-- The bias's one block is the bias (every point). -/
theorem blk1_5_apply (c : Dev nD) (t : Fin cfg1.N) (j : Fin 512) :
    (iblk1 V c 5 t : Vec Ideal S512 .f32) (ix1 j) = arr1Bias V c (ix1 j) := by
  obtain ⟨-, -, -, -, -, -, -, -, -, -, e0, -⟩ := block_places1 t
  show V c (Pipeline.arrRef spec1 5) (((cfg1.win 5).blk t).view.emb (ix1 j)) = V c (Pipeline.arrRef spec1 5) (ix1 j)
  refine congrArg (V c (Pipeline.arrRef spec1 5)) ?_
  funext d; apply Fin.ext
  match d with
  | ⟨0, _⟩ => show win1_5.index t (0 : Fin 1) * 512 + 1 * j.val = j.val; rw [e0]; omega

/-- The block the body stores at point t, at (r, j), is the middle layer's value at row 2000·t + r. -/
theorem blk1_pay (c : Dev nD) (t : Fin cfg1.N) (r : Fin 2000) (j : Fin 512) (n : Fin 100000)
    (hn : n.val = t.val * 2000 + r.val) :
    k1_pay5 (F := Ideal) (iblk1 V c 0 t) (iblk1 V c 1 t) (iblk1 V c 2 t) (iblk1 V c 4 t) (iblk1 V c 3 t) (iblk1 V c 5 t) (ix2 r j)
      = lay1 V c n j := by
  refine (pay5_apply (iblk1 V c 0 t) (iblk1 V c 1 t) (iblk1 V c 2 t) (iblk1 V c 3 t) (iblk1 V c 4 t) (iblk1 V c 5 t) r j).trans ?_
  unfold blockY lay1 Cert.Spec.lin
  refine congrArg₂ (· + ·) (congrArg₂ (· * ·) (Finset.sum_congr rfl fun k _ => ?_) (blk1_3_apply V c t r n hn)) (blk1_5_apply V c t j)
  rw [blk1_0_apply V c t r k n hn, blk1_1_apply V c t k, blk1_2_apply V c t k, blk1_4_apply V c t k j]
  rfl

end Cert.KernelIdeal.KValue1

end
-- ==== Proof.KRegion1Run.lean ====
/-
  The two running statistics of the middle layer over the grid, as sums.

  After every point the [8, 512] block of column sums holds zeros in rows 1 to 7, and in row 0 a running sum that
  restarts at the first point of each half of the grid: zero plus the column sums of the first block, then one
  block's column sums more at each point.  So after the last point of a half, row 0 is the sum of the 25 blocks'
  column sums of that half.  The block of sums of squares goes the same way.
-/
import proofs.«103207_j63436666962551_2_alg».proof.Proof.Gen.KernelIdeal.Frame
import proofs.«103207_j63436666962551_2_alg».proof.Proof.KRegion1Acc
import proofs.«103207_j63436666962551_2_alg».proof.Proof.KRegion1Blocks
import proofs.«103207_j63436666962551_2_alg».proof.Proof.KSums
import Idealize.ShloMosaic.Lib.Pipeline.Value

noncomputable section

namespace Cert.KernelIdeal.KValue1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- the [2000, 512] block point t stores: the layer's arithmetic on the point's six input blocks -/
abbrev blkOut (t : Fin cfg1.N) : Vec Ideal S2000x512 .f32 :=
  k1_pay5 (F := Ideal) (iblk1 V c 0 t) (iblk1 V c 1 t) (iblk1 V c 2 t) (iblk1 V c 4 t) (iblk1 V c 3 t) (iblk1 V c 5 t)

theorem outs7_A (t : Fin cfg1.N) (h0 : t.val % 25 = 0) (b : Fin 8) (j : Fin 512) :
    (outsAt1 V c t.val t.isLt).2.1 (ix2 b j) = if b.val = 0 then 0 + ∑ r : Fin 2000, blkOut V c t (ix2 r j) else 0 := by
  rw [outsAt1_A V c t h0]
  dsimp only
  exact out_A_7_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0) b j

theorem outs7_B (t : Fin cfg1.N) (h0 : ¬t.val % 25 = 0) (b : Fin 8) (j : Fin 512) :
    (outsAt1 V c t.val t.isLt).2.1 (ix2 b j)
      = if b.val = 0 then (outsAt1 V c (t.val - 1) (Nat.lt_of_le_of_lt (Nat.sub_le _ _) t.isLt)).2.1 (ix2 (0 : Fin 8) j)
            + ∑ r : Fin 2000, blkOut V c t (ix2 r j)
        else (outsAt1 V c (t.val - 1) (Nat.lt_of_le_of_lt (Nat.sub_le _ _) t.isLt)).2.1 (ix2 b j) := by
  rw [outsAt1_B V c t h0]
  dsimp only
  exact out_B_7_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) b j

theorem outs8_A (t : Fin cfg1.N) (h0 : t.val % 25 = 0) (b : Fin 8) (j : Fin 512) :
    (outsAt1 V c t.val t.isLt).2.2 (ix2 b j)
      = if b.val = 0 then 0 + ∑ r : Fin 2000, blkOut V c t (ix2 r j) * blkOut V c t (ix2 r j) else 0 := by
  rw [outsAt1_A V c t h0]
  dsimp only
  exact out_A_8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0) b j

theorem outs8_B (t : Fin cfg1.N) (h0 : ¬t.val % 25 = 0) (b : Fin 8) (j : Fin 512) :
    (outsAt1 V c t.val t.isLt).2.2 (ix2 b j)
      = if b.val = 0 then (outsAt1 V c (t.val - 1) (Nat.lt_of_le_of_lt (Nat.sub_le _ _) t.isLt)).2.2 (ix2 (0 : Fin 8) j)
            + ∑ r : Fin 2000, blkOut V c t (ix2 r j) * blkOut V c t (ix2 r j)
        else (outsAt1 V c (t.val - 1) (Nat.lt_of_le_of_lt (Nat.sub_le _ _) t.isLt)).2.2 (ix2 b j) := by
  rw [outsAt1_B V c t h0]
  dsimp only
  exact out_B_8_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) b j

/-- rows 1 to 7 of the block of column sums are zero after every point -/
theorem outs7_rest : ∀ (n : ℕ) (h : n < cfg1.N) (b : Fin 8) (hb : b.val ≠ 0) (j : Fin 512),
    (outsAt1 V c n h).2.1 (ix2 b j) = 0
  | 0, h, b, hb, j => (outs7_A V c ⟨0, h⟩ rfl b j).trans (if_neg hb)
  | n + 1, h, b, hb, j => by
    by_cases h0 : (n + 1) % 25 = 0
    · exact (outs7_A V c ⟨n + 1, h⟩ h0 b j).trans (if_neg hb)
    · exact ((outs7_B V c ⟨n + 1, h⟩ h0 b j).trans (if_neg hb)).trans (outs7_rest n _ b hb j)

theorem outs8_rest : ∀ (n : ℕ) (h : n < cfg1.N) (b : Fin 8) (hb : b.val ≠ 0) (j : Fin 512),
    (outsAt1 V c n h).2.2 (ix2 b j) = 0
  | 0, h, b, hb, j => (outs8_A V c ⟨0, h⟩ rfl b j).trans (if_neg hb)
  | n + 1, h, b, hb, j => by
    by_cases h0 : (n + 1) % 25 = 0
    · exact (outs8_A V c ⟨n + 1, h⟩ h0 b j).trans (if_neg hb)
    · exact ((outs8_B V c ⟨n + 1, h⟩ h0 b j).trans (if_neg hb)).trans (outs8_rest n _ b hb j)

/-! ### Row 0 as a running sum over the points of a half -/

/-- row 0, column j of the block of column sums after point n -/
def acc7 (j : Fin 512) (n : ℕ) : EReal := if h : n < cfg1.N then (outsAt1 V c n h).2.1 (ix2 (0 : Fin 8) j) else 0
def acc8 (j : Fin 512) (n : ℕ) : EReal := if h : n < cfg1.N then (outsAt1 V c n h).2.2 (ix2 (0 : Fin 8) j) else 0
/-- column j's sum over the block point n stores, and the sum of its squares -/
def cs7 (j : Fin 512) (n : ℕ) : EReal := if h : n < cfg1.N then ∑ r : Fin 2000, blkOut V c ⟨n, h⟩ (ix2 r j) else 0
def cs8 (j : Fin 512) (n : ℕ) : EReal :=
  if h : n < cfg1.N then ∑ r : Fin 2000, blkOut V c ⟨n, h⟩ (ix2 r j) * blkOut V c ⟨n, h⟩ (ix2 r j) else 0

theorem acc7_first (j : Fin 512) (k : ℕ) (hk : k < 50) (hm : k % 25 = 0) : acc7 V c j k = 0 + cs7 V c j k := by
  have hN : k < cfg1.N := by rw [show cfg1.N = 50 from N_1]; exact hk
  simp only [acc7, cs7, dif_pos hN]
  exact (outs7_A V c ⟨k, hN⟩ hm 0 j).trans (if_pos rfl)

theorem acc7_step (j : Fin 512) (k : ℕ) (hk : k < 50) (hm : k % 25 ≠ 0) :
    acc7 V c j k = acc7 V c j (k - 1) + cs7 V c j k := by
  have hN : k < cfg1.N := by rw [show cfg1.N = 50 from N_1]; exact hk
  have hN' : k - 1 < cfg1.N := Nat.lt_of_le_of_lt (Nat.sub_le _ _) hN
  simp only [acc7, cs7, dif_pos hN, dif_pos hN']
  exact (outs7_B V c ⟨k, hN⟩ hm 0 j).trans (if_pos rfl)

theorem acc8_first (j : Fin 512) (k : ℕ) (hk : k < 50) (hm : k % 25 = 0) : acc8 V c j k = 0 + cs8 V c j k := by
  have hN : k < cfg1.N := by rw [show cfg1.N = 50 from N_1]; exact hk
  simp only [acc8, cs8, dif_pos hN]
  exact (outs8_A V c ⟨k, hN⟩ hm 0 j).trans (if_pos rfl)

theorem acc8_step (j : Fin 512) (k : ℕ) (hk : k < 50) (hm : k % 25 ≠ 0) :
    acc8 V c j k = acc8 V c j (k - 1) + cs8 V c j k := by
  have hN : k < cfg1.N := by rw [show cfg1.N = 50 from N_1]; exact hk
  have hN' : k - 1 < cfg1.N := Nat.lt_of_le_of_lt (Nat.sub_le _ _) hN
  simp only [acc8, cs8, dif_pos hN, dif_pos hN']
  exact (outs8_B V c ⟨k, hN⟩ hm 0 j).trans (if_pos rfl)

theorem acc7_24 (j : Fin 512) : acc7 V c j 24 = ∑ i : Fin 25, cs7 V c j i.val :=
  Cert.Spec.acc_run_24 (cs7 V c j) (acc7 V c j) (acc7_first V c j) (acc7_step V c j)
theorem acc7_49 (j : Fin 512) : acc7 V c j 49 = ∑ i : Fin 25, cs7 V c j (25 + i.val) :=
  Cert.Spec.acc_run_49 (cs7 V c j) (acc7 V c j) (acc7_first V c j) (acc7_step V c j)
theorem acc8_24 (j : Fin 512) : acc8 V c j 24 = ∑ i : Fin 25, cs8 V c j i.val :=
  Cert.Spec.acc_run_24 (cs8 V c j) (acc8 V c j) (acc8_first V c j) (acc8_step V c j)
theorem acc8_49 (j : Fin 512) : acc8 V c j 49 = ∑ i : Fin 25, cs8 V c j (25 + i.val) :=
  Cert.Spec.acc_run_49 (cs8 V c j) (acc8 V c j) (acc8_first V c j) (acc8_step V c j)

end Cert.KernelIdeal.KValue1

end
-- ==== Proof.KRegion1.lean ====
/-
  The two [16, 512] arrays of running statistics after the middle layer's region, and their column totals.

  Each array is written back twice, by the last point of each half of the grid: rows 0 to 7 take the first half's
  block, rows 8 to 15 the second half's.  A block holds its half's sum in row 0 and zeros below, so the array holds
  in row 0 the sum over the first 25 blocks of 2000 rows, in row 8 the sum over the last 25, and zeros elsewhere.
  Adding the 16 rows of a column therefore gives the sum over all 100000 rows of the layer's output in that column
  (for the second array, of its square): only the order and grouping of a finite sum change.
-/
import proofs.«103207_j63436666962551_2_alg».proof.Proof.KRegion1Run

noncomputable section

namespace Cert.KernelIdeal.KValue1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- where the two running blocks sit in their [16, 512] arrays: block row t / 25 -/
theorem places78 : ∀ t : Fin cfg1.N, win1_7.index t (0 : Fin 2) = t.val / 25 ∧ win1_7.index t (1 : Fin 2) = 0
    ∧ win1_8.index t (0 : Fin 2) = t.val / 25 ∧ win1_8.index t (1 : Fin 2) = 0 :=
  (by decide +kernel : ∀ t : Fin grid1.N, _)

/-- the [16, 512] array of column sums after the region: row 0 the first half's sums, row 8 the second half's,
    zero elsewhere -/
def tab7 : S16x512.Idx → EReal := fun i =>
  if (i 0).val = 0 then acc7 V c (i 1) 24 else if (i 0).val = 8 then acc7 V c (i 1) 49 else 0
def tab8 : S16x512.Idx → EReal := fun i =>
  if (i 0).val = 0 then acc8 V c (i 1) 24 else if (i 0).val = 8 then acc8 V c (i 1) 49 else 0

theorem tab7_apply (i : S16x512.Idx) (r : ℕ) (j : Fin 512) (h0 : (i 0).val = r) (h1 : i 1 = j) :
    tab7 V c i = if r = 0 then acc7 V c j 24 else if r = 8 then acc7 V c j 49 else 0 := by
  subst h0 h1; rfl
theorem tab8_apply (i : S16x512.Idx) (r : ℕ) (j : Fin 512) (h0 : (i 0).val = r) (h1 : i 1 = j) :
    tab8 V c i = if r = 0 then acc8 V c j 24 else if r = 8 then acc8 V c j 49 else 0 := by
  subst h0 h1; rfl

theorem flushed7_eq (t : Fin cfg1.N) (hf : (cfg1.win 7).flush t = true) :
    (dat1 V c).flushed 7 t = ((cfg1.win 7).blk t).view.read (Elt Ideal) (tab7 V c) := by
  have ht : t.val % 25 = 24 := (flush1_7 t).mp hf
  have hN : cfg1.N = 50 := N_1
  obtain ⟨e0, e1, -⟩ := places78 t
  show (cfg1.win 7).cut (grid1.coords t) ((dat1 V c).after 7 t) = _
  rw [after1_7]
  funext y
  show (outsAt1 V c t.val t.isLt).2.1 y = tab7 V c (((cfg1.win 7).blk t).view.emb y)
  obtain ⟨b, j, rfl⟩ : ∃ (b : Fin 8) (j : Fin 512), y = ix2 b j := ⟨y 0, y 1, eq_ix2 y⟩
  have hrow : ((((cfg1.win 7).blk t).view.emb (ix2 b j)) 0).val = t.val / 25 * 8 + b.val := by
    show win1_7.index t (0 : Fin 2) * 8 + 1 * b.val = _
    rw [e0]; omega
  have hcol : (((cfg1.win 7).blk t).view.emb (ix2 b j)) 1 = j := by
    apply Fin.ext
    show win1_7.index t (1 : Fin 2) * 512 + 1 * j.val = j.val
    rw [e1]; omega
  have hL : (outsAt1 V c t.val t.isLt).2.1 (ix2 b j) = if b.val = 0 then acc7 V c j t.val else 0 := by
    by_cases hb : b.val = 0
    · obtain rfl : b = 0 := Fin.ext hb
      rw [if_pos hb]; unfold acc7; rw [dif_pos t.isLt]
    · rw [if_neg hb]; exact outs7_rest V c t.val t.isLt b hb j
  rw [hL, tab7_apply V c _ _ j hrow hcol]
  have hb8 : b.val < 8 := b.isLt
  rcases (show t.val = 24 ∨ t.val = 49 by have := t.isLt; omega) with h | h
  · rw [h]
    by_cases hb : b.val = 0
    · rw [if_pos hb, if_pos (by omega)]
    · rw [if_neg hb, if_neg (by omega), if_neg (by omega)]
  · rw [h]
    by_cases hb : b.val = 0
    · rw [if_pos hb, if_neg (by omega), if_pos (by omega)]
    · rw [if_neg hb, if_neg (by omega), if_neg (by omega)]

theorem flushed8_eq (t : Fin cfg1.N) (hf : (cfg1.win 8).flush t = true) :
    (dat1 V c).flushed 8 t = ((cfg1.win 8).blk t).view.read (Elt Ideal) (tab8 V c) := by
  have ht : t.val % 25 = 24 := (flush1_8 t).mp hf
  have hN : cfg1.N = 50 := N_1
  obtain ⟨-, -, e0, e1⟩ := places78 t
  show (cfg1.win 8).cut (grid1.coords t) ((dat1 V c).after 8 t) = _
  rw [after1_8]
  funext y
  show (outsAt1 V c t.val t.isLt).2.2 y = tab8 V c (((cfg1.win 8).blk t).view.emb y)
  obtain ⟨b, j, rfl⟩ : ∃ (b : Fin 8) (j : Fin 512), y = ix2 b j := ⟨y 0, y 1, eq_ix2 y⟩
  have hrow : ((((cfg1.win 8).blk t).view.emb (ix2 b j)) 0).val = t.val / 25 * 8 + b.val := by
    show win1_8.index t (0 : Fin 2) * 8 + 1 * b.val = _
    rw [e0]; omega
  have hcol : (((cfg1.win 8).blk t).view.emb (ix2 b j)) 1 = j := by
    apply Fin.ext
    show win1_8.index t (1 : Fin 2) * 512 + 1 * j.val = j.val
    rw [e1]; omega
  have hL : (outsAt1 V c t.val t.isLt).2.2 (ix2 b j) = if b.val = 0 then acc8 V c j t.val else 0 := by
    by_cases hb : b.val = 0
    · obtain rfl : b = 0 := Fin.ext hb
      rw [if_pos hb]; unfold acc8; rw [dif_pos t.isLt]
    · rw [if_neg hb]; exact outs8_rest V c t.val t.isLt b hb j
  rw [hL, tab8_apply V c _ _ j hrow hcol]
  have hb8 : b.val < 8 := b.isLt
  rcases (show t.val = 24 ∨ t.val = 49 by have := t.isLt; omega) with h | h
  · rw [h]
    by_cases hb : b.val = 0
    · rw [if_pos hb, if_pos (by omega)]
    · rw [if_neg hb, if_neg (by omega), if_neg (by omega)]
  · rw [h]
    by_cases hb : b.val = 0
    · rw [if_pos hb, if_neg (by omega), if_pos (by omega)]
    · rw [if_neg hb, if_neg (by omega), if_neg (by omega)]

theorem mem_blk7 (t : Fin cfg1.N) (i : S16x512.Idx) :
    i ∈ ((cfg1.win 7).blk t).view.set ↔ ∀ a : Fin 2, win1_7.index t a * S8x512.size a ≤ (i a).val
      ∧ (i a).val < win1_7.index t a * S8x512.size a + S8x512.size a := by
  show i ∈ ((View.whole main_v55_1).slice (win1_7.rect t)).set ↔ _
  rw [View.set_slice_whole, Rect.mem_set_unit]
  exact Iff.rfl

/-- row r of the [16, 512] array lies in the block the last point of half r / 8 writes back -/
theorem cover7 (i : S16x512.Idx) :
    ∃ t : Fin cfg1.N, (cfg1.win 7).flush t = true ∧ i ∈ ((cfg1.win 7).blk t).view.set := by
  have hN : cfg1.N = 50 := N_1
  have hi0 : (i 0).val < 16 := idx2_lt0 i
  have hi1 : (i 1).val < 512 := idx2_lt1 i
  obtain ⟨t, htv⟩ : ∃ t : Fin cfg1.N, t.val = 25 * ((i 0).val / 8) + 24 := ⟨⟨25 * ((i 0).val / 8) + 24, by omega⟩, rfl⟩
  obtain ⟨e0, e1, -⟩ := places78 t
  refine ⟨t, (flush1_7 t).mpr (by rw [htv]; omega), ?_⟩
  rw [mem_blk7]
  intro a
  match a with
  | ⟨0, _⟩ =>
    show win1_7.index t (0 : Fin 2) * 8 ≤ (i 0).val ∧ (i 0).val < win1_7.index t (0 : Fin 2) * 8 + 8
    rw [e0, htv]; omega
  | ⟨1, _⟩ =>
    show win1_7.index t (1 : Fin 2) * 512 ≤ (i 1).val ∧ (i 1).val < win1_7.index t (1 : Fin 2) * 512 + 512
    rw [e1]; omega

/-- the array after the region -/
theorem arr7 : (dat1 V c).arrAt 7 cfg1.N = tab7 V c :=
  (dat1 V c).arrAt_eq_of_cover 7 (tab7 V c) (flushed7_eq V c) (cover7)

theorem cs7_eq (j : Fin 512) (k : ℕ) (hk : k < 50) :
    cs7 V c j k = ∑ r : Fin 2000, lay1 V c ⟨k * 2000 + r.val, by have := r.isLt; omega⟩ j := by
  have hN : k < cfg1.N := by rw [show cfg1.N = 50 from N_1]; exact hk
  unfold cs7; rw [dif_pos hN]
  exact Finset.sum_congr rfl fun r _ => blk1_pay V c ⟨k, hN⟩ r j ⟨k * 2000 + r.val, by have := r.isLt; omega⟩ rfl

theorem tab7_sum (j : Fin 512) :
    ∑ r : Fin 16, tab7 V c (ix2 r j) = ∑ n : Fin 100000, lay1 V c n j := by
  rw [Cert.Spec.sum_sixteen (fun r => tab7 V c (ix2 r j)) (fun r h0 h8 => by
    rw [tab7_apply V c (ix2 r j) r.val j rfl rfl, if_neg h0, if_neg h8])]
  rw [tab7_apply V c (ix2 (0 : Fin 16) j) 0 j rfl rfl, if_pos rfl, tab7_apply V c (ix2 (8 : Fin 16) j) 8 j rfl rfl,
    if_neg (by decide), if_pos rfl]
  rw [acc7_24, acc7_49, Cert.Spec.sum_rows_halves_blocks (fun n => lay1 V c n j), Fin.sum_univ_two]
  refine congrArg₂ (· + ·) (Finset.sum_congr rfl fun i _ => ?_) (Finset.sum_congr rfl fun i _ => ?_)
  · rw [cs7_eq V c j i.val (by have := i.isLt; omega)]
    refine Finset.sum_congr rfl fun r _ => ?_
    have e : (⟨i.val * 2000 + r.val, by have := r.isLt; have := i.isLt; omega⟩ : Fin 100000)
        = ⟨((0 : Fin 2).val * 25 + i.val) * 2000 + r.val, by have := r.isLt; have := i.isLt; show (0 * 25 + i.val) * 2000 + r.val < 100000; omega⟩ :=
      Fin.ext (by show i.val * 2000 + r.val = (0 * 25 + i.val) * 2000 + r.val; omega)
    rw [e]
  · rw [cs7_eq V c j (25 + i.val) (by have := i.isLt; omega)]
    refine Finset.sum_congr rfl fun r _ => ?_
    have e : (⟨(25 + i.val) * 2000 + r.val, by have := r.isLt; have := i.isLt; omega⟩ : Fin 100000)
        = ⟨((1 : Fin 2).val * 25 + i.val) * 2000 + r.val, by have := r.isLt; have := i.isLt; show (1 * 25 + i.val) * 2000 + r.val < 100000; omega⟩ :=
      Fin.ext (by show (25 + i.val) * 2000 + r.val = (1 * 25 + i.val) * 2000 + r.val; omega)
    rw [e]

theorem mem_blk8 (t : Fin cfg1.N) (i : S16x512.Idx) :
    i ∈ ((cfg1.win 8).blk t).view.set ↔ ∀ a : Fin 2, win1_8.index t a * S8x512.size a ≤ (i a).val
      ∧ (i a).val < win1_8.index t a * S8x512.size a + S8x512.size a := by
  show i ∈ ((View.whole main_v55_2).slice (win1_8.rect t)).set ↔ _
  rw [View.set_slice_whole, Rect.mem_set_unit]
  exact Iff.rfl

/-- row r of the [16, 512] array lies in the block the last point of half r / 8 writes back -/
theorem cover8 (i : S16x512.Idx) :
    ∃ t : Fin cfg1.N, (cfg1.win 8).flush t = true ∧ i ∈ ((cfg1.win 8).blk t).view.set := by
  have hN : cfg1.N = 50 := N_1
  have hi0 : (i 0).val < 16 := idx2_lt0 i
  have hi1 : (i 1).val < 512 := idx2_lt1 i
  obtain ⟨t, htv⟩ : ∃ t : Fin cfg1.N, t.val = 25 * ((i 0).val / 8) + 24 := ⟨⟨25 * ((i 0).val / 8) + 24, by omega⟩, rfl⟩
  obtain ⟨-, -, e0, e1⟩ := places78 t
  refine ⟨t, (flush1_8 t).mpr (by rw [htv]; omega), ?_⟩
  rw [mem_blk8]
  intro a
  match a with
  | ⟨0, _⟩ =>
    show win1_8.index t (0 : Fin 2) * 8 ≤ (i 0).val ∧ (i 0).val < win1_8.index t (0 : Fin 2) * 8 + 8
    rw [e0, htv]; omega
  | ⟨1, _⟩ =>
    show win1_8.index t (1 : Fin 2) * 512 ≤ (i 1).val ∧ (i 1).val < win1_8.index t (1 : Fin 2) * 512 + 512
    rw [e1]; omega

/-- the array after the region -/
theorem arr8 : (dat1 V c).arrAt 8 cfg1.N = tab8 V c :=
  (dat1 V c).arrAt_eq_of_cover 8 (tab8 V c) (flushed8_eq V c) (cover8)

theorem cs8_eq (j : Fin 512) (k : ℕ) (hk : k < 50) :
    cs8 V c j k = ∑ r : Fin 2000, lay1 V c ⟨k * 2000 + r.val, by have := r.isLt; omega⟩ j * lay1 V c ⟨k * 2000 + r.val, by have := r.isLt; omega⟩ j := by
  have hN : k < cfg1.N := by rw [show cfg1.N = 50 from N_1]; exact hk
  unfold cs8; rw [dif_pos hN]
  exact Finset.sum_congr rfl fun r _ => congrArg₂ (· * ·) (blk1_pay V c ⟨k, hN⟩ r j ⟨k * 2000 + r.val, by have := r.isLt; omega⟩ rfl)
    (blk1_pay V c ⟨k, hN⟩ r j ⟨k * 2000 + r.val, by have := r.isLt; omega⟩ rfl)

theorem tab8_sum (j : Fin 512) :
    ∑ r : Fin 16, tab8 V c (ix2 r j) = ∑ n : Fin 100000, lay1 V c n j * lay1 V c n j := by
  rw [Cert.Spec.sum_sixteen (fun r => tab8 V c (ix2 r j)) (fun r h0 h8 => by
    rw [tab8_apply V c (ix2 r j) r.val j rfl rfl, if_neg h0, if_neg h8])]
  rw [tab8_apply V c (ix2 (0 : Fin 16) j) 0 j rfl rfl, if_pos rfl, tab8_apply V c (ix2 (8 : Fin 16) j) 8 j rfl rfl,
    if_neg (by decide), if_pos rfl]
  rw [acc8_24, acc8_49, Cert.Spec.sum_rows_halves_blocks (fun n => lay1 V c n j * lay1 V c n j), Fin.sum_univ_two]
  refine congrArg₂ (· + ·) (Finset.sum_congr rfl fun i _ => ?_) (Finset.sum_congr rfl fun i _ => ?_)
  · rw [cs8_eq V c j i.val (by have := i.isLt; omega)]
    refine Finset.sum_congr rfl fun r _ => ?_
    have e : (⟨i.val * 2000 + r.val, by have := r.isLt; have := i.isLt; omega⟩ : Fin 100000)
        = ⟨((0 : Fin 2).val * 25 + i.val) * 2000 + r.val, by have := r.isLt; have := i.isLt; show (0 * 25 + i.val) * 2000 + r.val < 100000; omega⟩ :=
      Fin.ext (by show i.val * 2000 + r.val = (0 * 25 + i.val) * 2000 + r.val; omega)
    rw [e]
  · rw [cs8_eq V c j (25 + i.val) (by have := i.isLt; omega)]
    refine Finset.sum_congr rfl fun r _ => ?_
    have e : (⟨(25 + i.val) * 2000 + r.val, by have := r.isLt; have := i.isLt; omega⟩ : Fin 100000)
        = ⟨((1 : Fin 2).val * 25 + i.val) * 2000 + r.val, by have := r.isLt; have := i.isLt; show (1 * 25 + i.val) * 2000 + r.val < 100000; omega⟩ :=
      Fin.ext (by show (25 + i.val) * 2000 + r.val = (1 * 25 + i.val) * 2000 + r.val; omega)
    rw [e]

/-- the column sums of the layer's output, read off the array of running sums after the region -/
theorem arr1_7_sum (T : S16x512.Idx → EReal) (hT : (dat1 (F := Ideal) V c).arrAt 7 cfg1.N = T) (j : Fin 512) :
    ∑ r : Fin 16, T (ix2 r j) = ∑ n : Fin 100000, lay1 V c n j := by
  have e : T = tab7 V c := hT.symm.trans (arr7 V c)
  rw [e]; exact tab7_sum V c j

/-- the column sums of the squares of the layer's output -/
theorem arr1_8_sum (T : S16x512.Idx → EReal) (hT : (dat1 (F := Ideal) V c).arrAt 8 cfg1.N = T) (j : Fin 512) :
    ∑ r : Fin 16, T (ix2 r j) = ∑ n : Fin 100000, lay1 V c n j * lay1 V c n j := by
  have e : T = tab8 V c := hT.symm.trans (arr8 V c)
  rw [e]; exact tab8_sum V c j

end Cert.KernelIdeal.KValue1

end
-- ==== Proof.KRegion1Out6.lean ====
/-
  What the middle launch leaves in its first result array (the layer's value), over the extended reals.

  Every one of the 50 points — the first of its half of the grid, which also resets the running sums, or not —
  stores, whole, the body's value of the blocks it loaded, and that block is written back to rows
  2000·t … 2000·t + 1999 of the result. Block t of the result is therefore block t of ONE function of the
  arrays the launch found: the linear layer applied to the centred, scaled and clipped input. The 50 blocks
  tile the 100000 rows (row r lies in block r / 2000), so the whole result array is that function.
-/
import proofs.«103207_j63436666962551_2_alg».proof.Proof.KRegion1Blocks
import Idealize.ShloMosaic.Lib.Pipeline.Value
import Idealize.ShloMosaic.Lib.Tactic
import Idealize.ShloMosaic.Lib.ValueIdx

set_option maxRecDepth 16384

noncomputable section

namespace Cert.KernelIdeal.KValue1

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

/-! ## The one store of the result's block, in either case of the body's conditional -/

theorem unit2_zero : (![0, 0] : Fin 2 → Nat) = fun _ => 0 := funext fun a => by fin_cases a <;> rfl
theorem unit1_zero : (![0] : Fin 1 → Nat) = fun _ => 0 := funext fun a => by fin_cases a; rfl

/-- At a first point of a half of the grid the block stored for the result is the body's value of the loaded blocks. -/
theorem stored_first_6 (c : Dev nD) (i : grid1.Coords) (a2 : Memref sig .tc .vmem S2000x512 .f32) (h2 : a2.IsWhole) (a3 : Memref sig .tc .vmem S1x512 .f32) (h3 : a3.IsWhole) (a4 : Memref sig .tc .vmem S1x512 .f32) (h4 : a4.IsWhole) (a5 : Memref sig .tc .vmem S2000x1 .f32) (h5 : a5.IsWhole) (a6 : Memref sig .tc .vmem S512x512 .bf16) (h6 : a6.IsWhole) (a7 : Memref sig .tc .vmem S512 .f32) (h7 : a7.IsWhole) (a8 : Memref sig .tc .vmem S2000x512 .f32) (h8 : a8.IsWhole) (a9 : Memref sig .tc .vmem S8x512 .f32) (h9 : a9.IsWhole) (a10 : Memref sig .tc .vmem S8x512 .f32) (h10 : a10.IsWhole) (x0 : Vec Ideal S2000x512 .f32) (x1 x2 : Vec Ideal S1x512 .f32) (x3 : Vec Ideal S2000x1 .f32) (x4 : Vec Ideal S512x512 .bf16) (x5 : Vec Ideal S512 .f32) (hc : cond1_0 i) :
    out1_A_6 (F := Ideal) c i a2 h2 a3 h3 a4 h4 a5 h5 a6 h6 a7 h7 a8 h8 a9 h9 a10 h10 hc x0 x1 x2 x3 x4 x5 = k1_pay5 x0 x1 x2 x4 x3 x5 := by
  unfold out1_A_6
  rw [View.read_writes_eq_canon _ _ _ (cover1_A_6 c i a2 h2 a3 h3 a4 h4 a5 h5 a6 h6 a7 h7 a8 h8 a9 h9 a10 h10 hc x0 x1 x2 x3 x4 x5)]
  unfold kernelRun1_A
  dsimp only
  rw [View.canon_unit_zero unit2_zero]
  simp only [View.readAt_eq_ld, h2.read_unread, h3.read_unread, h4.read_unread, h5.read_unread, h6.read_unread, h7.read_unread,
    View.ld_unit_zero (S := S2000x512) unit2_zero, View.ld_unit_zero (S := S1x512) unit2_zero, View.ld_unit_zero (S := S512x512) unit2_zero,
    View.ld_unit_zero (S := S2000x1) unit2_zero, View.ld_unit_zero (S := S512) unit1_zero]

/-- At every other point too (what the running sums held does not enter it). -/
theorem stored_later_6 (c : Dev nD) (i : grid1.Coords) (a2 : Memref sig .tc .vmem S2000x512 .f32) (h2 : a2.IsWhole) (a3 : Memref sig .tc .vmem S1x512 .f32) (h3 : a3.IsWhole) (a4 : Memref sig .tc .vmem S1x512 .f32) (h4 : a4.IsWhole) (a5 : Memref sig .tc .vmem S2000x1 .f32) (h5 : a5.IsWhole) (a6 : Memref sig .tc .vmem S512x512 .bf16) (h6 : a6.IsWhole) (a7 : Memref sig .tc .vmem S512 .f32) (h7 : a7.IsWhole) (a8 : Memref sig .tc .vmem S2000x512 .f32) (h8 : a8.IsWhole) (a9 : Memref sig .tc .vmem S8x512 .f32) (h9 : a9.IsWhole) (a10 : Memref sig .tc .vmem S8x512 .f32) (h10 : a10.IsWhole) (x0 : Vec Ideal S2000x512 .f32) (x1 x2 : Vec Ideal S1x512 .f32) (x3 : Vec Ideal S2000x1 .f32) (x4 : Vec Ideal S512x512 .bf16) (x5 : Vec Ideal S512 .f32) (xo7 xo8 : Vec Ideal S8x512 .f32) (hc : ¬cond1_0 i) :
    out1_B_6 (F := Ideal) c i a2 h2 a3 h3 a4 h4 a5 h5 a6 h6 a7 h7 a8 h8 a9 h9 a10 h10 hc x0 x1 x2 x3 x4 x5 xo7 xo8 = k1_pay5 x0 x1 x2 x4 x3 x5 := by
  unfold out1_B_6
  rw [View.read_writes_eq_canon _ _ _ (cover1_B_6 c i a2 h2 a3 h3 a4 h4 a5 h5 a6 h6 a7 h7 a8 h8 a9 h9 a10 h10 hc x0 x1 x2 x3 x4 x5 xo7 xo8)]
  unfold kernelRun1_B
  dsimp only
  rw [View.canon_unit_zero unit2_zero]
  simp only [View.readAt_eq_ld, h2.read_unread, h3.read_unread, h4.read_unread, h5.read_unread, h6.read_unread, h7.read_unread,
    View.ld_unit_zero (S := S2000x512) unit2_zero, View.ld_unit_zero (S := S1x512) unit2_zero, View.ld_unit_zero (S := S512x512) unit2_zero,
    View.ld_unit_zero (S := S2000x1) unit2_zero, View.ld_unit_zero (S := S512) unit1_zero]

variable (V : (c : Dev nD) → (b : Ref sig .tc) → Buf (Elt Ideal) ((c : Thread nD τ).loc b))

/-- … as an array over the result's index set. -/
def lay1Arr (c : Dev nD) : S100000x512.Idx → EReal := fun i => lay1 V c (i 0) (i 1)

/-! ## What every point leaves in the result's block -/

/-- At every point, first of its half of the grid or not, the stored block is the body's value of the point's blocks. -/
theorem stored1_6 (c : Dev nD) (t : Fin cfg1.N) :
    (outsAt1 V c t.val t.isLt).1
      = k1_pay5 (F := Ideal) (iblk1 V c 0 t) (iblk1 V c 1 t) (iblk1 V c 2 t) (iblk1 V c 4 t) (iblk1 V c 3 t) (iblk1 V c 5 t) := by
  by_cases h0 : t.val % 25 = 0
  · rw [outsAt1_A V c t h0]
    dsimp only
    exact stored_first_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)
  · rw [outsAt1_B V c t h0]
    dsimp only
    exact stored_later_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h))

/-- Where the result's block t puts its entry (r, j): row 2000·t + r, column j. -/
theorem blk1_6_emb (t : Fin cfg1.N) (r : Fin 2000) (j : Fin 512) (n : Fin 100000) (hn : n.val = t.val * 2000 + r.val) :
    (((cfg1.win 6).blk t).view.emb (ix2 r j) : S100000x512.Idx) = ix2 n j := by
  obtain ⟨-, -, -, -, -, -, -, -, -, -, -, e0, e1, -⟩ := block_places1 t
  funext d
  apply Fin.ext
  match d with
  | ⟨0, _⟩ => show win1_6.index t (0 : Fin 2) * 2000 + 1 * r.val = n.val; rw [e0, hn]; omega
  | ⟨1, _⟩ => show win1_6.index t (1 : Fin 2) * 512 + 1 * j.val = j.val; rw [e1]; omega

/-- Point t writes back block t of the middle layer of the arrays the launch found. -/
theorem flushed1_6_eq (c : Dev nD) (t : Fin cfg1.N) :
    (dat1 V c).flushed 6 t = ((cfg1.win 6).blk t).view.read (Elt Ideal) (lay1Arr V c) := by
  show (cfg1.win 6).cut (grid1.coords t) ((dat1 V c).after 6 t) = _
  rw [after1_6, stored1_6]
  funext y
  obtain ⟨r, j, rfl⟩ : ∃ (r : Fin 2000) (j : Fin 512), y = ix2 r j := ⟨y 0, y 1, eq_ix2 y⟩
  have hN : cfg1.N = 50 := N_1
  have ht : t.val < 50 := hN ▸ t.isLt
  obtain ⟨n, hn⟩ : ∃ n : Fin 100000, n.val = t.val * 2000 + r.val := ⟨⟨t.val * 2000 + r.val, by have := r.isLt; omega⟩, rfl⟩
  refine (blk1_pay V c t r j n hn).trans ?_
  rw [View.read_apply]
  show _ = lay1Arr V c (((cfg1.win 6).blk t).view.emb (ix2 r j))
  rw [blk1_6_emb t r j n hn]
  rfl

/-! ## The blocks tile the result -/

/-- An index of the result is in point t's block iff each coordinate is in the block's range on its axis. -/
theorem mem_blk1_6 (t : Fin cfg1.N) (i : S100000x512.Idx) :
    i ∈ ((cfg1.win 6).blk t).view.set ↔ ∀ a : Fin 2, win1_6.index t a * S2000x512.size a ≤ (i a).val ∧ (i a).val < win1_6.index t a * S2000x512.size a + S2000x512.size a := by
  show i ∈ ((View.whole main_v55_0).slice (win1_6.rect t)).set ↔ _
  rw [View.set_slice_whole, Rect.mem_set_unit]
  exact Iff.rfl

/-- Row r of the result lies in the block of point r / 2000, and every point writes back. -/
theorem covered1_6 (i : S100000x512.Idx) :
    ∃ t : Fin cfg1.N, (cfg1.win 6).flush t = true ∧ i ∈ ((cfg1.win 6).blk t).view.set := by
  have hi0 : (i 0).val < 100000 := (i 0).isLt
  have hi1 : (i 1).val < 512 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, -, e0, e1, -⟩ := block_places1 t
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; rw [e0, ht]; omega
  | ⟨1, _⟩ => show win1_6.index t (1 : Fin 2) * 512 ≤ (i 1).val ∧ (i 1).val < win1_6.index t (1 : Fin 2) * 512 + 512; rw [e1]; omega

/-! ## The result array -/

/-- The result array after the launch is the middle layer of the arrays the launch found. -/
theorem arr1_6_eq (c : Dev nD) : (dat1 V c).arrAt 6 cfg1.N = lay1Arr V c :=
  (dat1 V c).arrAt_eq_of_cover 6 (lay1Arr V c) (fun t _ => flushed1_6_eq V c t) (covered1_6)

/-- … read at node n and feature j, with the layer spelt out. -/
theorem arr1_6 (c : Dev nD) (n : Fin 100000) (j : Fin 512) :
    (dat1 V c).arrAt 6 cfg1.N (ix2 n j)
      = Cert.Spec.lin
          (Cert.Spec.act (fun j => arr1Mean V c (ix2 (0 : Fin 1) j)) (fun j => arr1Var V c (ix2 (0 : Fin 1) j)) (Cert.Spec.toMat (arr1Y V c)))
          (fun j k => arr1WT V c (ix2 k j)) (Cert.Spec.toCol (arr1Scale V c)) (Cert.Spec.toRow (arr1Bias V c)) n j := by
  rw [arr1_6_eq]
  rfl

/-- … and with the six arrays the launch finds given by name. -/
theorem arr1_6_of (c : Dev nD) (Y : S100000x512.Idx → EReal) (μ v : S1x512.Idx → EReal) (s : S100000x1.Idx → EReal)
    (wt : S512x512.Idx → EReal) (bias : S512.Idx → EReal)
    (hY : (V c (Pipeline.arrRef spec1 0) : S100000x512.Idx → EReal) = Y)
    (hμ : (V c (Pipeline.arrRef spec1 1) : S1x512.Idx → EReal) = μ)
    (hv : (V c (Pipeline.arrRef spec1 2) : S1x512.Idx → EReal) = v)
    (hs : (V c (Pipeline.arrRef spec1 3) : S100000x1.Idx → EReal) = s)
    (hw : (V c (Pipeline.arrRef spec1 4) : S512x512.Idx → EReal) = wt)
    (hb : (V c (Pipeline.arrRef spec1 5) : S512.Idx → EReal) = bias)
    (n : Fin 100000) (j : Fin 512) :
    (dat1 V c).arrAt 6 cfg1.N (ix2 n j)
      = Cert.Spec.lin (Cert.Spec.act (fun j => μ (ix2 (0 : Fin 1) j)) (fun j => v (ix2 (0 : Fin 1) j)) (Cert.Spec.toMat Y))
          (fun j k => wt (ix2 k j)) (Cert.Spec.toCol s) (Cert.Spec.toRow bias) n j := by
  subst hY hμ hv hs hw hb
  exact arr1_6 V c n j

end Cert.KernelIdeal.KValue1

end
-- ==== Proof.KRegion2Pay.lean ====
/-
  The last layer's block computation, read at one entry, over the extended reals.

  For one block of 2000 rows the body takes the rows y of the previous layer, the column means μ and
  variances v (one row each), the transposed weights (entry (k, j) is the weight of input feature k
  for output feature j), the block's node scales (a column) and the bias, and stores

      out (a, j) = (Σ_k max ((y (a, k) − μ k) · (v k + ε)^(−1/2), 0) · wt (k, j)) · s a + bias j.

  Every step is read through at an index: the format change before the product is the identity, the
  product into the zero block is the sum over the contracted coordinate, and the three spreads (a row
  over the rows, a column over the lanes, the bias recast as a row and spread) read the entry of the
  matching row or column.
-/
import proofs.«103207_j63436666962551_2_alg».proof.Proof.Gen.KernelIdeal.Skeleton
import proofs.«103207_j63436666962551_2_alg».proof.Proof.Spec
import proofs.«103207_j63436666962551_2_alg».proof.Proof.LibPlainMatmul
import proofs.«103207_j63436666962551_2_alg».proof.Proof.LibColumnLayout
import Idealize.ShloMosaic.Lib.Pipeline.Value
import Idealize.ShloMosaic.Lib.ValueLayout

noncomputable section

namespace Cert.KernelIdeal.KValue

open Idealize.ShloMosaic Idealize.ShloMosaic.ValueIdx
open Cert.KernelIdeal Cert.KernelIdeal.Gen

/-- A [1, 512] row, recast to its own shape twice and spread over 2000 rows, reads at (a, b) the row's entry b. -/
theorem row_spread_apply (v : FVec Ideal S1x512 .f32) (h1 h2 : S1x512.ShapeCasts S1x512)
    (hb : S1x512.Broadcasts S2000x512) (a : Fin 2000) (b : Fin 512) :
    broadcastTo S2000x512 (shapeCast S1x512 (shapeCast S1x512 v h1) h2) hb (ix2 a b) = v (ix2 (0 : Fin 1) b) := by
  rw [broadcastTo_1b_ab_apply, shapeCast_self, shapeCast_self]

/-- A [2000, 1] column, recast to its own shape twice and spread over 512 lanes, reads at (a, b) the column's entry a. -/
theorem col_spread_apply (v : FVec Ideal S2000x1 .f32) (h1 h2 : S2000x1.ShapeCasts S2000x1)
    (hb : S2000x1.Broadcasts S2000x512) (a : Fin 2000) (b : Fin 512) :
    broadcastTo S2000x512 (shapeCast S2000x1 (shapeCast S2000x1 v h1) h2) hb (ix2 a b) = v (ix2 a (0 : Fin 1)) := by
  rw [Cert.Lib.broadcastTo_a1_ab_apply, shapeCast_self, shapeCast_self]

/-- A [512] vector recast as a [1, 512] row and spread over 2000 rows reads at (a, b) the vector's entry b. -/
theorem bias_spread_apply (v : FVec Ideal S512 .f32) (h0 : S512.ShapeCasts S1x512) (h1 : S1x512.ShapeCasts S1x512)
    (hb : S1x512.Broadcasts S2000x512) (a : Fin 2000) (b : Fin 512) :
    broadcastTo S2000x512 (shapeCast S1x512 (shapeCast S1x512 v h0) h1) hb (ix2 a b) = v (ix1 b) := by
  rw [broadcastTo_1b_ab_apply, shapeCast_self, shapeCast_a_1a_apply]

/-- The body's product of a [2000, 512] block with the [512, 512] weights into the zero block, at (a, b). -/
theorem product_apply (A : FVec Ideal S2000x512 .bf16) (B : FVec Ideal S512x512 .bf16) (a : Fin 2000) (b : Fin 512) :
    matmul dot_S2000x512_S512x512_S2000x512_1_0_0_1_n_n none A B (constant S2000x512 .f32 0x00000000#32) (ix2 a b)
      = ∑ k : Fin 512, A (ix2 a k) * B (ix2 k b) :=
  Cert.Lib.matmul_plain_zero_apply none A B a b

/-- The block the body stores, at row a and column b of the block. -/
theorem pay2_apply (x0 : FVec Ideal S2000x512 .f32) (x1 x2 : FVec Ideal S1x512 .f32) (x4 : FVec Ideal S512x512 .bf16)
    (x3 : FVec Ideal S2000x1 .f32) (x5 : FVec Ideal S512 .f32) (a : Fin 2000) (b : Fin 512) :
    k2_pay1 (F := Ideal) x0 x1 x2 x4 x3 x5 (ix2 a b)
      = (∑ k : Fin 512, max ((x0 (ix2 a k) - x1 (ix2 (0 : Fin 1) k)) * Ideal.rsqrt (x2 (ix2 (0 : Fin 1) k) + Cert.Spec.eps)) 0
            * x4 (ix2 k b)) * x3 (ix2 a (0 : Fin 1)) + x5 (ix1 b) := by
  unfold k2_pay1
  refine (congrArg₂ (· + ·) (congrArg₂ (· * ·) (product_apply _ _ a b) (col_spread_apply x3 _ _ _ a b))
    (bias_spread_apply x5 _ _ _ a b)).trans ?_
  refine congrArg₂ (· + ·) (congrArg₂ (· * ·) (Finset.sum_congr rfl fun k _ => ?_) rfl) rfl
  refine congrArg₂ (· * ·) ?_ (congrFun (shapeCast_self x4 _) _)
  show max ((shapeCast S2000x512 x0 _ (ix2 a k) - broadcastTo S2000x512 (shapeCast S1x512 (shapeCast S1x512 x1 _) _) _ (ix2 a k))
      * Ideal.rsqrt (broadcastTo S2000x512 (shapeCast S1x512 (shapeCast S1x512 x2 _) _) _ (ix2 a k) + Ideal.ofBits .f32 0x3727C5AC#32))
      (Ideal.ofBits .f32 0x00000000#32) = _
  rw [row_spread_apply, row_spread_apply, shapeCast_self, Ideal.ofBits_zero_f32]
  rfl

end Cert.KernelIdeal.KValue

end
-- ==== Proof.KRegion2.lean ====
/-
  What the last launch leaves in its result array, over the extended reals.

  The launch walks 50 blocks of 2000 rows. At block t the body reads rows 2000·t … 2000·t + 1999 of
  the previous layer's output y and of the node scales s, and — whole, at every block — the row of
  column means μ, the row of column variances v, the transposed weights and the bias; it stores, whole,
  the block

      out (a, j) = (Σ_k max ((y (a, k) − μ k) · (v k + ε)^(−1/2), 0) · wt (k, j)) · s a + bias j

  and the block is written back to rows 2000·t … 2000·t + 1999 of the result. A row of the result
  depends on that row of y and s only, so block t of the result is block t of ONE function of the arrays
  the launch found: the linear layer applied to the centred, scaled and clipped y. The 50 blocks tile
  the 100000 rows (row r lies in block r / 2000), so the whole result array is that function.
-/
import proofs.«103207_j63436666962551_2_alg».proof.Proof.Gen.KernelIdeal.Frame
import proofs.«103207_j63436666962551_2_alg».proof.Proof.KRegion2Pay
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays the launch finds, at their literal shapes -/

/-- the previous layer's output, [100000, 512] -/
abbrev arr2Y (c : Dev nD) : S100000x512.Idx → EReal := V c (Pipeline.arrRef spec2 0)
/-- the column means, [1, 512] -/
abbrev arr2Mean (c : Dev nD) : S1x512.Idx → EReal := V c (Pipeline.arrRef spec2 1)
/-- the column variances, [1, 512] -/
abbrev arr2Var (c : Dev nD) : S1x512.Idx → EReal := V c (Pipeline.arrRef spec2 2)
/-- the node scales, [100000, 1] -/
abbrev arr2Scale (c : Dev nD) : S100000x1.Idx → EReal := V c (Pipeline.arrRef spec2 3)
/-- the transposed weights, [512 (input feature), 512 (output feature)] -/
abbrev arr2WT (c : Dev nD) : S512x512.Idx → EReal := V c (Pipeline.arrRef spec2 4)
/-- the bias, [512] -/
abbrev arr2Bias (c : Dev nD) : S512.Idx → EReal := V c (Pipeline.arrRef spec2 5)

/-- The last layer of the arrays the launch finds: the linear layer of the centred, scaled, clipped input. -/
def out2 (c : Dev nD) : Cert.Spec.Mat :=
  Cert.Spec.lin
    (Cert.Spec.act (fun j => arr2Mean V c (ix2 (0 : Fin 1) j)) (fun j => arr2Var V c (ix2 (0 : Fin 1) j)) (Cert.Spec.toMat (arr2Y V c)))
    (fun j k => arr2WT V c (ix2 k j)) (Cert.Spec.toCol (arr2Scale V c)) (Cert.Spec.toRow (arr2Bias V c))

/-- … as an array over the result's index set. -/
def out2Arr (c : Dev nD) : S100000x512.Idx → EReal := fun i => out2 V c (i 0) (i 1)

/-! ## The blocks' places in their arrays -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 50 points: the row-blocked windows (input, scales, result) sit at block row t,
    the others at block 0. -/
theorem block_places : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Block t of the input, at (a, k), is the input at row 2000·t + a. -/
theorem blk2_0_apply (c : Dev nD) (t : Fin cfg2.N) (a : Fin 2000) (k : Fin 512) (p : Fin 100000)
    (hp : p.val = t.val * 2000 + a.val) :
    (iblk2 V c 0 t : Vec Ideal S2000x512 .f32) (ix2 a k) = arr2Y V c (ix2 p k) := by
  obtain ⟨e0, e1, -⟩ := block_places t
  unfold iblk2
  rw [View.read_apply]
  show V c (Pipeline.arrRef spec2 0) _ = V c (Pipeline.arrRef spec2 0) _
  congr 1
  funext d
  apply Fin.ext
  match d with
  | ⟨0, _⟩ => show win2_0.index t (0 : Fin 2) * 2000 + 1 * a.val = p.val; rw [e0, hp]; omega
  | ⟨1, _⟩ => show win2_0.index t (1 : Fin 2) * 512 + 1 * k.val = k.val; rw [e1]; omega

/-- The means' one block, at (0, k), is the means' row at k (every point). -/
theorem blk2_1_apply (c : Dev nD) (t : Fin cfg2.N) (k : Fin 512) :
    (iblk2 V c 1 t : Vec Ideal S1x512 .f32) (ix2 (0 : Fin 1) k) = arr2Mean V c (ix2 (0 : Fin 1) k) := by
  obtain ⟨-, -, e0, e1, -⟩ := block_places t
  unfold iblk2
  rw [View.read_apply]
  show V c (Pipeline.arrRef spec2 1) _ = V c (Pipeline.arrRef spec2 1) _
  congr 1
  funext d
  apply Fin.ext
  match d with
  | ⟨0, _⟩ => show win2_1.index t (0 : Fin 2) * 1 + 1 * 0 = 0; rw [e0]
  | ⟨1, _⟩ => show win2_1.index t (1 : Fin 2) * 512 + 1 * k.val = k.val; rw [e1]; omega

/-- The variances' one block, at (0, k), is the variances' row at k (every point). -/
theorem blk2_2_apply (c : Dev nD) (t : Fin cfg2.N) (k : Fin 512) :
    (iblk2 V c 2 t : Vec Ideal S1x512 .f32) (ix2 (0 : Fin 1) k) = arr2Var V c (ix2 (0 : Fin 1) k) := by
  obtain ⟨-, -, -, -, e0, e1, -⟩ := block_places t
  unfold iblk2
  rw [View.read_apply]
  show V c (Pipeline.arrRef spec2 2) _ = V c (Pipeline.arrRef spec2 2) _
  congr 1
  funext d
  apply Fin.ext
  match d with
  | ⟨0, _⟩ => show win2_2.index t (0 : Fin 2) * 1 + 1 * 0 = 0; rw [e0]
  | ⟨1, _⟩ => show win2_2.index t (1 : Fin 2) * 512 + 1 * k.val = k.val; rw [e1]; omega

/-- Block t of the node scales, at (a, 0), is the scale of node 2000·t + a. -/
theorem blk2_3_apply (c : Dev nD) (t : Fin cfg2.N) (a : Fin 2000) (p : Fin 100000)
    (hp : p.val = t.val * 2000 + a.val) :
    (iblk2 V c 3 t : Vec Ideal S2000x1 .f32) (ix2 a (0 : Fin 1)) = arr2Scale V c (ix2 p (0 : Fin 1)) := by
  obtain ⟨-, -, -, -, -, -, e0, e1, -⟩ := block_places t
  unfold iblk2
  rw [View.read_apply]
  show V c (Pipeline.arrRef spec2 3) _ = V c (Pipeline.arrRef spec2 3) _
  congr 1
  funext d
  apply Fin.ext
  match d with
  | ⟨0, _⟩ => show win2_3.index t (0 : Fin 2) * 2000 + 1 * a.val = p.val; rw [e0, hp]; omega
  | ⟨1, _⟩ => show win2_3.index t (1 : Fin 2) * 1 + 1 * 0 = 0; rw [e1]

/-- The weights' one block is the weights array (every point). -/
theorem blk2_4_apply (c : Dev nD) (t : Fin cfg2.N) (k b : Fin 512) :
    (iblk2 V c 4 t : Vec Ideal S512x512 .bf16) (ix2 k b) = arr2WT V c (ix2 k b) := by
  obtain ⟨-, -, -, -, -, -, -, -, e0, e1, -⟩ := block_places t
  unfold iblk2
  rw [View.read_apply]
  show V c (Pipeline.arrRef spec2 4) _ = V c (Pipeline.arrRef spec2 4) _
  congr 1
  funext d
  apply Fin.ext
  match d with
  | ⟨0, _⟩ => show win2_4.index t (0 : Fin 2) * 512 + 1 * k.val = k.val; rw [e0]; omega
  | ⟨1, _⟩ => show win2_4.index t (1 : Fin 2) * 512 + 1 * b.val = b.val; rw [e1]; omega

/-- The bias's one block is the bias (every point). -/
theorem blk2_5_apply (c : Dev nD) (t : Fin cfg2.N) (b : Fin 512) :
    (iblk2 V c 5 t : Vec Ideal S512 .f32) (ix1 b) = arr2Bias V c (ix1 b) := by
  obtain ⟨-, -, -, -, -, -, -, -, -, -, e0, -⟩ := block_places t
  unfold iblk2
  rw [View.read_apply]
  show V c (Pipeline.arrRef spec2 5) _ = V c (Pipeline.arrRef spec2 5) _
  congr 1
  funext d
  apply Fin.ext
  match d with
  | ⟨0, _⟩ => show win2_5.index t (0 : Fin 1) * 512 + 1 * b.val = b.val; rw [e0]; omega

/-- Where the result's block t puts its entry (a, b): row 2000·t + a, column b. -/
theorem blk2_6_emb (t : Fin cfg2.N) (a : Fin 2000) (b : Fin 512) (p : Fin 100000) (hp : p.val = t.val * 2000 + a.val) :
    (((cfg2.win 6).blk t).view.emb (ix2 a b) : S100000x512.Idx) = ix2 p b := by
  obtain ⟨-, -, -, -, -, -, -, -, -, -, -, e0, e1⟩ := block_places t
  funext d
  apply Fin.ext
  match d with
  | ⟨0, _⟩ => show win2_6.index t (0 : Fin 2) * 2000 + 1 * a.val = p.val; rw [e0, hp]; omega
  | ⟨1, _⟩ => show win2_6.index t (1 : Fin 2) * 512 + 1 * b.val = b.val; rw [e1]; omega

/-! ## What point t writes back -/

/-- Point t writes back block t of the last layer of the arrays the launch found. -/
theorem flushed2_6_eq (c : Dev nD) (t : Fin cfg2.N) :
    (dat2 V c).flushed 6 t = ((cfg2.win 6).blk t).view.read (Elt Ideal) (out2Arr V c) := by
  show (cfg2.win 6).cut (grid2.coords t) ((dat2 V c).after 6 t) = _
  rw [after2_6]
  unfold out2_6
  rw [View.canon_unit_zero zeros2]
  simp only [View.ld_unit_zero (S := S2000x512) zeros2, View.ld_unit_zero (S := S1x512) zeros2,
    View.ld_unit_zero (S := S512x512) zeros2, View.ld_unit_zero (S := S2000x1) zeros2, View.ld_unit_zero (S := S512) zeros1]
  funext y
  obtain ⟨a, b, rfl⟩ : ∃ (a : Fin 2000) (b : Fin 512), y = ix2 a b := ⟨y 0, y 1, eq_ix2 y⟩
  have hN : cfg2.N = 50 := N_2
  have ht : t.val < 50 := hN ▸ t.isLt
  obtain ⟨p, hp⟩ : ∃ p : Fin 100000, p.val = t.val * 2000 + a.val := ⟨⟨t.val * 2000 + a.val, by have := a.isLt; omega⟩, rfl⟩
  refine (pay2_apply _ _ _ _ _ _ a b).trans ?_
  rw [View.read_apply]
  show _ = out2Arr V c (((cfg2.win 6).blk t).view.emb (ix2 a b))
  rw [blk2_6_emb t a b p hp]
  show _ = out2 V c p b
  unfold out2 Cert.Spec.lin
  refine congrArg₂ (· + ·) (congrArg₂ (· * ·) (Finset.sum_congr rfl fun k _ => ?_) (blk2_3_apply V c t a p hp)) (blk2_5_apply V c t b)
  rw [blk2_0_apply V c t a k p hp, blk2_1_apply V c t k, blk2_2_apply V c t k, blk2_4_apply V c t k b]
  rfl

/-! ## The blocks tile the result -/

/-- An index of the result is in point t's block iff each coordinate is in the block's range on its axis. -/
theorem mem_blk2_6 (t : Fin cfg2.N) (i : S100000x512.Idx) :
    i ∈ ((cfg2.win 6).blk t).view.set ↔ ∀ a : Fin 2, win2_6.index t a * S2000x512.size a ≤ (i a).val ∧ (i a).val < win2_6.index t a * S2000x512.size a + S2000x512.size a := by
  show i ∈ ((View.whole main_v68).slice (win2_6.rect t)).set ↔ _
  rw [View.set_slice_whole, Rect.mem_set_unit]
  exact Iff.rfl

/-- Row r of the result lies in the block of point r / 2000, and every point writes back. -/
theorem covered2_6 (i : S100000x512.Idx) :
    ∃ t : Fin cfg2.N, (cfg2.win 6).flush t = true ∧ i ∈ ((cfg2.win 6).blk t).view.set := by
  have hi0 : (i 0).val < 100000 := (i 0).isLt
  have hi1 : (i 1).val < 512 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, -, -, -, e0, e1⟩ := block_places t
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 512 ≤ (i 1).val ∧ (i 1).val < win2_6.index t (1 : Fin 2) * 512 + 512; rw [e1]; omega

/-! ## The result array -/

/-- The result array after the launch is the last layer of the arrays the launch found. -/
theorem arr2_6_eq (c : Dev nD) : (dat2 V c).arrAt 6 cfg2.N = out2Arr V c :=
  (dat2 V c).arrAt_eq_of_cover 6 (out2Arr V c) (fun t _ => flushed2_6_eq V c t) (covered2_6)

/-- … read at node n and feature j. -/
theorem arr2_6 (c : Dev nD) (n : Fin 100000) (j : Fin 512) :
    (dat2 V c).arrAt 6 cfg2.N (ix2 n j) = out2 V c n j := by
  rw [arr2_6_eq]
  rfl

/-- … with the layer spelt out. -/
theorem arr2_6_spec (c : Dev nD) (n : Fin 100000) (j : Fin 512) :
    (dat2 V c).arrAt 6 cfg2.N (ix2 n j)
      = Cert.Spec.lin
          (Cert.Spec.act (fun j => arr2Mean V c (ix2 (0 : Fin 1) j)) (fun j => arr2Var V c (ix2 (0 : Fin 1) j)) (Cert.Spec.toMat (arr2Y V c)))
          (fun j k => arr2WT V c (ix2 k j)) (Cert.Spec.toCol (arr2Scale V c)) (Cert.Spec.toRow (arr2Bias V c)) n j :=
  arr2_6 V c n j

/-- … and with the six arrays the launch finds given by name. -/
theorem arr2_6_of (c : Dev nD) (Y : S100000x512.Idx → EReal) (μ v : S1x512.Idx → EReal) (s : S100000x1.Idx → EReal)
    (wt : S512x512.Idx → EReal) (bias : S512.Idx → EReal)
    (hY : (V c (Pipeline.arrRef spec2 0) : S100000x512.Idx → EReal) = Y)
    (hμ : (V c (Pipeline.arrRef spec2 1) : S1x512.Idx → EReal) = μ)
    (hv : (V c (Pipeline.arrRef spec2 2) : S1x512.Idx → EReal) = v)
    (hs : (V c (Pipeline.arrRef spec2 3) : S100000x1.Idx → EReal) = s)
    (hw : (V c (Pipeline.arrRef spec2 4) : S512x512.Idx → EReal) = wt)
    (hb : (V c (Pipeline.arrRef spec2 5) : S512.Idx → EReal) = bias)
    (n : Fin 100000) (j : Fin 512) :
    (dat2 V c).arrAt 6 cfg2.N (ix2 n j)
      = Cert.Spec.lin (Cert.Spec.act (fun j => μ (ix2 (0 : Fin 1) j)) (fun j => v (ix2 (0 : Fin 1) j)) (Cert.Spec.toMat Y))
          (fun j k => wt (ix2 k j)) (Cert.Spec.toCol s) (Cert.Spec.toRow bias) n j := by
  subst hY hμ hv hs hw hb
  exact arr2_6 V c n j

end Cert.KernelIdeal.KValue

end
-- ==== Proof.KFinal.lean ====
/-
  The three launches' facts, read at the buffers they leave, and the kernel program's result.

  Each launch's output array is the layer of what the launch found (`found0`, `found1`, `found2`);
  each of the first two launches' tables of partial column sums adds up, over its sixteen rows, to
  the column sums of its layer and of the layer's square.  With these the result array, read at
  (n, j), is the network `netK` of the arguments.
-/
import proofs.«103207_j63436666962551_2_alg».proof.Proof.KValue
import proofs.«103207_j63436666962551_2_alg».proof.Proof.KRegion0
import proofs.«103207_j63436666962551_2_alg».proof.Proof.KRegion1
import proofs.«103207_j63436666962551_2_alg».proof.Proof.KRegion1Out6
import proofs.«103207_j63436666962551_2_alg».proof.Proof.KRegion2

set_option maxRecDepth 16384

noncomputable section

namespace Cert.KernelIdeal.KValue

open Idealize.ShloMosaic Idealize.ShloMosaic.TcCoe Idealize.ShloMosaic.ValueIdx
open Cert.KernelIdeal Cert.KernelIdeal.Gen Cert.Spec

variable (m : (ℓ : Loc nD τ sig) → Buf (Elt Ideal) ℓ) (ρ : Dev nD → PrngReg) (c : Dev nD)

/-- the first launch's output table is its layer over what it found -/
theorem first_launch (n : Fin 100000) (j : Fin 512) :
    rd S100000x512 (W2 (F := Ideal) m ρ c (Proc.devRef .tc main_v42_0)) (ix2 n j) = found0 m ρ c n j :=
  (congrFun (W2_arr m ρ c 4) (ix2 n j)).trans (Cert.KernelIdeal.KValue0.arr0_4 (V1 m ρ) c n j)

/-- its two tables of partial sums add up to the column sums of the layer and of its square -/
theorem first_sums (j : Fin 512) :
    ∑ r : Fin 16, rd S16x512 (W2 (F := Ideal) m ρ c (Proc.devRef .tc main_v42_1)) (ix2 r j)
      = ∑ n : Fin 100000, found0 m ρ c n j :=
  (Finset.sum_congr (M := EReal) rfl fun r _ => congrFun (W2_arr m ρ c 5) (ix2 r j)).trans
    (Cert.KernelIdeal.KValue0.arr0_5_sum (V1 m ρ) c j)

theorem first_squares (j : Fin 512) :
    ∑ r : Fin 16, rd S16x512 (W2 (F := Ideal) m ρ c (Proc.devRef .tc main_v42_2)) (ix2 r j)
      = ∑ n : Fin 100000, found0 m ρ c n j * found0 m ρ c n j :=
  (Finset.sum_congr (M := EReal) rfl fun r _ => congrFun (W2_arr m ρ c 6) (ix2 r j)).trans
    (Cert.KernelIdeal.KValue0.arr0_6_sum (V1 m ρ) c j)

/-- the second launch's output table is its layer over what it found -/
theorem second_launch (n : Fin 100000) (j : Fin 512) :
    rd S100000x512 (W4 (F := Ideal) m ρ c (Proc.devRef .tc main_v55_0)) (ix2 n j) = found1 m ρ c n j :=
  (congrFun (W4_arr m ρ c 6) (ix2 n j)).trans
    (Cert.KernelIdeal.KValue1.arr1_6_of (V3 m ρ) c _ _ _ _ _ _ rfl rfl rfl rfl rfl rfl n j)

theorem second_sums (j : Fin 512) :
    ∑ r : Fin 16, rd S16x512 (W4 (F := Ideal) m ρ c (Proc.devRef .tc main_v55_1)) (ix2 r j)
      = ∑ n : Fin 100000, found1 m ρ c n j :=
  Cert.KernelIdeal.KValue1.arr1_7_sum (V3 m ρ) c (W4 (F := Ideal) m ρ c (Proc.devRef .tc main_v55_1)) (W4_arr m ρ c 7).symm j

theorem second_squares (j : Fin 512) :
    ∑ r : Fin 16, rd S16x512 (W4 (F := Ideal) m ρ c (Proc.devRef .tc main_v55_2)) (ix2 r j)
      = ∑ n : Fin 100000, found1 m ρ c n j * found1 m ρ c n j :=
  Cert.KernelIdeal.KValue1.arr1_8_sum (V3 m ρ) c (W4 (F := Ideal) m ρ c (Proc.devRef .tc main_v55_2)) (W4_arr m ρ c 8).symm j

/-- the third launch's output table is its layer over what it found -/
theorem third_launch (n : Fin 100000) (j : Fin 512) :
    rd S100000x512 (W6 (F := Ideal) m ρ c (Proc.devRef .tc main_v68)) (ix2 n j) = found2 m ρ c n j :=
  (congrFun (W6_arr m ρ c 6) (ix2 n j)).trans
    (arr2_6_of (V5 m ρ) c _ _ _ _ _ _ rfl rfl rfl rfl rfl rfl n j)

/-- the kernel program's result array, read at (n, j), is `netK` of the arguments -/
theorem kernel_result (n : Fin 100000) (j : Fin 512) :
    rd S100000x512 (W6 (F := Ideal) m ρ c (Proc.devRef .tc main_v68)) (ix2 n j)
      = netK (aX m c) (aW0 m c) (ab0 m c) (aW1 m c) (ab1 m c) (aW2 m c) (ab2 m c) (aS m c) n j :=
  result_of m ρ c (first_launch m ρ c) (first_sums m ρ c) (first_squares m ρ c)
    (second_launch m ρ c) (second_sums m ρ c) (second_squares m ρ c) (third_launch m ρ c) n j

end Cert.KernelIdeal.KValue

end
-- ==== Proof.RefRunA.lean ====
/-
  The reference program's host operations as one list, and the program as that list run in order.

  The program is a straight line of tensor operations: the node scale computed from the edge list,
  then three linear layers, with the column statistics (mean, and variance as the mean squared
  deviation) and the clipped normalisation between consecutive layers.  The two statistics blocks
  and the two clips are written in the program as calls of local functions; a call runs the callee's
  operations on the call's own buffers, so each is listed here in place.  The list is cut where the
  mathematics cuts it, one stretch per stage, so that what a stage leaves in its result buffer can be
  read off that stretch alone: for each stretch, the buffers it writes, that it writes no others, and
  that every other buffer keeps its contents through it.
-/
import proofs.«103207_j63436666962551_2_alg».proof.ReferenceIdeal
import proofs.«103207_j63436666962551_2_alg».proof.Proof.Gen.ReferenceIdeal
import Idealize.ShloMosaic.Lib.StableHlo.Run

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts] {F : FTy → Type} [FloatOps F]

/-- the buffers after two stretches run one after the other -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- a single written buffer lies in a list of buffers that names it -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- the node scale from the edge list: the two edge rows, the loop mask, degree counts by an accumulating scatter, the power −1/2, two gathers at the wrapped indices, the second scatter, the column form -/
abbrev opsScale : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_v1 main_v3 main_v4 (cmpi .ne : (⟨S3200000, .i32⟩ : BufTy).Contents (Elt F) → (⟨S3200000, .i32⟩ : BufTy).Contents (Elt F) → (⟨S3200000, .i1⟩ : BufTy).Contents (Elt F)),
    StableHlo.unary main_v4 main_v5 (uitofp .f32 : (⟨S3200000, .i1⟩ : BufTy).Contents (Elt F) → (⟨S3200000, .f32⟩ : BufTy).Contents (Elt F)),
    StableHlo.nullary main_cst (constant S_ .f32 0x00000000#32),
    StableHlo.unary main_cst main_v6 (broadcastInDim S100000 ![] bcast_S_S100000 : (⟨S_, .f32⟩ : BufTy).Contents (Elt F) → (⟨S100000, .f32⟩ : BufTy).Contents (Elt F)),
    StableHlo.unary main_v3 main_v7 (broadcastInDim S3200000x1 ![0] bcast_S3200000_S3200000x1_0 : (⟨S3200000, .i32⟩ : BufTy).Contents (Elt F) → (⟨S3200000x1, .i32⟩ : BufTy).Contents (Elt F)),
    StableHlo.ternary main_v6 main_v7 main_v5 main_v8 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_0 (constant S_ .f32 0x3F800000#32),
    StableHlo.unary main_cst_0 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.nullary main_cst_1 (constant S_ .f32 0xBF000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (Host.powf : (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v13 (broadcastInDim S3200000 ![] bcast_S_S3200000 : (⟨S_, .i32⟩ : BufTy).Contents (Elt F) → (⟨S3200000, .i32⟩ : BufTy).Contents (Elt F)),
    StableHlo.binary main_v1 main_v13 main_v14 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v15 (broadcastInDim S3200000 ![] bcast_S_S3200000 : (⟨S_, .i32⟩ : BufTy).Contents (Elt F) → (⟨S3200000, .i32⟩ : BufTy).Contents (Elt F)),
    StableHlo.binary main_v1 main_v15 main_v16 (addi : (⟨S3200000, .i32⟩ : BufTy).Contents (Elt F) → (⟨S3200000, .i32⟩ : BufTy).Contents (Elt F) → (⟨S3200000, .i32⟩ : BufTy).Contents (Elt F)),
    StableHlo.ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v17 main_v18 (broadcastInDim S3200000x1 ![0] bcast_S3200000_S3200000x1_0 : (⟨S3200000, .i32⟩ : BufTy).Contents (Elt F) → (⟨S3200000x1, .i32⟩ : BufTy).Contents (Elt F)),
    StableHlo.binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_3 (constantI S_ 32 0#32),
    StableHlo.unary main_c_3 main_v20 (broadcastInDim S3200000 ![] bcast_S_S3200000 : (⟨S_, .i32⟩ : BufTy).Contents (Elt F) → (⟨S3200000, .i32⟩ : BufTy).Contents (Elt F)),
    StableHlo.binary main_v3 main_v20 main_v21 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v22 (broadcastInDim S3200000 ![] bcast_S_S3200000 : (⟨S_, .i32⟩ : BufTy).Contents (Elt F) → (⟨S3200000, .i32⟩ : BufTy).Contents (Elt F)),
    StableHlo.binary main_v3 main_v22 main_v23 (addi : (⟨S3200000, .i32⟩ : BufTy).Contents (Elt F) → (⟨S3200000, .i32⟩ : BufTy).Contents (Elt F) → (⟨S3200000, .i32⟩ : BufTy).Contents (Elt F)),
    StableHlo.ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v24 main_v25 (broadcastInDim S3200000x1 ![0] bcast_S3200000_S3200000x1_0 : (⟨S3200000, .i32⟩ : BufTy).Contents (Elt F) → (⟨S3200000x1, .i32⟩ : BufTy).Contents (Elt F)),
    StableHlo.binary main_v12 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v19 main_v26 main_v27 (mulf : (⟨S3200000, .f32⟩ : BufTy).Contents (Elt F) → (⟨S3200000, .f32⟩ : BufTy).Contents (Elt F) → (⟨S3200000, .f32⟩ : BufTy).Contents (Elt F)),
    StableHlo.binary main_v27 main_v5 main_v28 (mulf : (⟨S3200000, .f32⟩ : BufTy).Contents (Elt F) → (⟨S3200000, .f32⟩ : BufTy).Contents (Elt F) → (⟨S3200000, .f32⟩ : BufTy).Contents (Elt F)),
    StableHlo.nullary main_cst_5 (constant S_ .f32 0x00000000#32),
    StableHlo.unary main_cst_5 main_v29 (broadcastInDim S100000 ![] bcast_S_S100000 : (⟨S_, .f32⟩ : BufTy).Contents (Elt F) → (⟨S100000, .f32⟩ : BufTy).Contents (Elt F)),
    StableHlo.unary main_v1 main_v30 (broadcastInDim S3200000x1 ![0] bcast_S3200000_S3200000x1_0 : (⟨S3200000, .i32⟩ : BufTy).Contents (Elt F) → (⟨S3200000x1, .i32⟩ : BufTy).Contents (Elt F)),
    StableHlo.ternary main_v29 main_v30 main_v28 main_v31 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_6 (constant S_ .f32 0x3F800000#32),
    StableHlo.unary main_cst_6 main_v32 (broadcastInDim S100000 ![] bcast_S_S100000 : (⟨S_, .f32⟩ : BufTy).Contents (Elt F) → (⟨S100000, .f32⟩ : BufTy).Contents (Elt F)),
    StableHlo.binary main_v32 main_v10 main_v33 (Host.divf : (⟨S100000, .f32⟩ : BufTy).Contents (Elt F) → (⟨S100000, .f32⟩ : BufTy).Contents (Elt F) → (⟨S100000, .f32⟩ : BufTy).Contents (Elt F)),
    StableHlo.binary main_v31 main_v33 main_v34 (addf : (⟨S100000, .f32⟩ : BufTy).Contents (Elt F) → (⟨S100000, .f32⟩ : BufTy).Contents (Elt F) → (⟨S100000, .f32⟩ : BufTy).Contents (Elt F)),
    StableHlo.unary main_v34 main_v35 (broadcastInDim S100000x1 ![0] bcast_S100000_S100000x1_0 : (⟨S100000, .f32⟩ : BufTy).Contents (Elt F) → (⟨S100000x1, .f32⟩ : BufTy).Contents (Elt F)) ]

/-- the buffers that stretch writes -/
abbrev opsScale_W : List (Ref sig .tc) :=
  [main_v0, main_v1, main_v2, main_v3, main_v4, main_v5, main_cst, main_v6, main_v7, main_v8, main_cst_0, main_v9, main_v10, main_cst_1, main_v11, main_v12, main_c, main_v13, main_v14, main_c_2, main_v15, main_v16, main_v17, main_v18, main_v19, main_c_3, main_v20, main_v21, main_c_4, main_v22, main_v23, main_v24, main_v25, main_v26, main_v27, main_v28, main_cst_5, main_v29, main_v30, main_v31, main_cst_6, main_v32, main_v33, main_v34, main_v35]

set_option maxRecDepth 8192 in
theorem opsScale_writes : (opsScale (F := F)).Forall fun op => op.writes ⊆ (opsScale_W.map (Proc.devRef (τ := τ) .tc)).toFinset :=
  ⟨single_sub_of_mem (y := main_v0) (by decide),
    single_sub_of_mem (y := main_v1) (by decide),
    single_sub_of_mem (y := main_v2) (by decide),
    single_sub_of_mem (y := main_v3) (by decide),
    single_sub_of_mem (y := main_v4) (by decide),
    single_sub_of_mem (y := main_v5) (by decide),
    single_sub_of_mem (y := main_cst) (by decide),
    single_sub_of_mem (y := main_v6) (by decide),
    single_sub_of_mem (y := main_v7) (by decide),
    single_sub_of_mem (y := main_v8) (by decide),
    single_sub_of_mem (y := main_cst_0) (by decide),
    single_sub_of_mem (y := main_v9) (by decide),
    single_sub_of_mem (y := main_v10) (by decide),
    single_sub_of_mem (y := main_cst_1) (by decide),
    single_sub_of_mem (y := main_v11) (by decide),
    single_sub_of_mem (y := main_v12) (by decide),
    single_sub_of_mem (y := main_c) (by decide),
    single_sub_of_mem (y := main_v13) (by decide),
    single_sub_of_mem (y := main_v14) (by decide),
    single_sub_of_mem (y := main_c_2) (by decide),
    single_sub_of_mem (y := main_v15) (by decide),
    single_sub_of_mem (y := main_v16) (by decide),
    single_sub_of_mem (y := main_v17) (by decide),
    single_sub_of_mem (y := main_v18) (by decide),
    single_sub_of_mem (y := main_v19) (by decide),
    single_sub_of_mem (y := main_c_3) (by decide),
    single_sub_of_mem (y := main_v20) (by decide),
    single_sub_of_mem (y := main_v21) (by decide),
    single_sub_of_mem (y := main_c_4) (by decide),
    single_sub_of_mem (y := main_v22) (by decide),
    single_sub_of_mem (y := main_v23) (by decide),
    single_sub_of_mem (y := main_v24) (by decide),
    single_sub_of_mem (y := main_v25) (by decide),
    single_sub_of_mem (y := main_v26) (by decide),
    single_sub_of_mem (y := main_v27) (by decide),
    single_sub_of_mem (y := main_v28) (by decide),
    single_sub_of_mem (y := main_cst_5) (by decide),
    single_sub_of_mem (y := main_v29) (by decide),
    single_sub_of_mem (y := main_v30) (by decide),
    single_sub_of_mem (y := main_v31) (by decide),
    single_sub_of_mem (y := main_cst_6) (by decide),
    single_sub_of_mem (y := main_v32) (by decide),
    single_sub_of_mem (y := main_v33) (by decide),
    single_sub_of_mem (y := main_v34) (by decide),
    single_sub_of_mem (y := main_v35) (by decide)⟩

/-- a buffer that stretch does not write keeps its contents through it -/
theorem opsScale_keep (V : Valuation τ sig (Elt F)) (r : Ref sig .tc) (h : r ∉ opsScale_W) :
    after opsScale V (no_index (Proc.devRef .tc r)) = V (Proc.devRef .tc r) :=
  after_of_writes_sub opsScale V opsScale_writes h

set_option maxRecDepth 8192 in
theorem opsScale_sub : (opsScale (F := F)).Forall fun op => op.bufs ⊆ tcRefs τ sig :=
  ⟨unary_bufs_sub .., reshape_bufs_sub .., unary_bufs_sub .., reshape_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., binary_bufs_sub .., binary_bufs_sub .., unary_bufs_sub ..⟩

set_option maxRecDepth 8192 in
theorem opsScale_fresh : ∀ op ∈ opsScale (F := F), op.fresh = ∅ := by
  intro _ h; (repeat (cases h with | head => rfl | tail _ h => ?_)); exact nomatch h

/-- the first linear layer: transposed weights, contraction, node scale, bias -/
abbrev opsLin0 : List (HloOp τ sig (Elt F)) :=
  [ StableHlo.unary main_arg2 main_v36 ((transpose S512x512 [1, 0] · transposes_S512x512_S512x512_1_0) : (⟨S512x512, .f32⟩ : BufTy).Contents (Elt F) → (⟨S512x512, .f32⟩ : BufTy).Contents (Elt F)),
    StableHlo.binary main_arg0 main_v36 main_v37 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_v35 main_v38 (broadcastInDim S100000x512 ![0, 1] bcast_S100000x1_S100000x512_0_1 : (⟨S100000x1, .f32⟩ : BufTy).Contents (Elt F) → (⟨S100000x512, .f32⟩ : BufTy).Contents (Elt F)),
    StableHlo.binary main_v37 main_v38 main_v39 (mulf : (⟨S100000x512, .f32⟩ : BufTy).Contents (Elt F) → (⟨S100000x512, .f32⟩ : BufTy).Contents (Elt F) → (⟨S100000x512, .f32⟩ : BufTy).Contents (Elt F)),
    StableHlo.unary main_arg3 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S100000x512 ![0, 1] bcast_S1x512_S100000x512_0_1 : (⟨S1x512, .f32⟩ : BufTy).Contents (Elt F) → (⟨S100000x512, .f32⟩ : BufTy).Contents (Elt F)),
    StableHlo.binary main_v39 main_v41 main_v42 (addf : (⟨S100000x512, .f32⟩ : BufTy).Contents (Elt F) → (⟨S100000x512, .f32⟩ : BufTy).Contents (Elt F) → (⟨S100000x512, .f32⟩ : BufTy).Contents (Elt F)) ]

/-- the buffers that stretch writes -/
abbrev opsLin0_W : List (Ref sig .tc) :=
  [main_v36, main_v37, main_v38, main_v39, main_v40, main_v41, main_v42]

set_option maxRecDepth 8192 in
theorem opsLin0_writes : (opsLin0 (F := F)).Forall fun op => op.writes ⊆ (opsLin0_W.map (Proc.devRef (τ := τ) .tc)).toFinset :=
  ⟨single_sub_of_mem (y := main_v36) (by decide),
    single_sub_of_mem (y := main_v37) (by decide),
    single_sub_of_mem (y := main_v38) (by decide),
    single_sub_of_mem (y := main_v39) (by decide),
    single_sub_of_mem (y := main_v40) (by decide),
    single_sub_of_mem (y := main_v41) (by decide),
    single_sub_of_mem (y := main_v42) (by decide)⟩

/-- a buffer that stretch does not write keeps its contents through it -/
theorem opsLin0_keep (V : Valuation τ sig (Elt F)) (r : Ref sig .tc) (h : r ∉ opsLin0_W) :
    after opsLin0 V (no_index (Proc.devRef .tc r)) = V (Proc.devRef .tc r) :=
  after_of_writes_sub opsLin0 V opsLin0_writes h

set_option maxRecDepth 8192 in
theorem opsLin0_sub : (opsLin0 (F := F)).Forall fun op => op.bufs ⊆ tcRefs τ sig :=
  ⟨unary_bufs_sub .., binary_bufs_sub .., unary_bufs_sub .., binary_bufs_sub .., unary_bufs_sub .., unary_bufs_sub .., binary_bufs_sub ..⟩

set_option maxRecDepth 8192 in
theorem opsLin0_fresh : ∀ op ∈ opsLin0 (F := F), op.fresh = ∅ := by
  intro _ h; (repeat (cases h with | head => rfl | tail _ h => ?_)); exact nomatch h

/-- the first layer's column statistics: the mean, and the variance as the mean squared deviation with its guarded divisor -/
abbrev opsStat0 : List (HloOp τ sig (Elt F)) :=
  [ StableHlo.nullary main_cst_7 (constant S_ .f32 0x00000000#32),
    StableHlo.binary main_v42 main_cst_7 main_v43 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_8 (constant S_ .f32 0x47C35000#32),
    StableHlo.unary main_cst_8 main_v44 (broadcastInDim S512 ![] bcast_S_S512 : (⟨S_, .f32⟩ : BufTy).Contents (Elt F) → (⟨S512, .f32⟩ : BufTy).Contents (Elt F)),
    StableHlo.binary main_v43 main_v44 main_v45 (Host.divf : (⟨S512, .f32⟩ : BufTy).Contents (Elt F) → (⟨S512, .f32⟩ : BufTy).Contents (Elt F) → (⟨S512, .f32⟩ : BufTy).Contents (Elt F)),
    StableHlo.nullary main_c_9 (constantI S_ 32 0#32),
    StableHlo.TRef.nullary main_call0.cst (constant S_ .f32 0x00000000#32),
    StableHlo.TRef.binary (.of main_v42) main_call0.cst main_call0.v0 (fun x v => Host.reduceAdd x v reducesTo_S100000x512_S512_d0 h_S_),
    StableHlo.TRef.unary main_call0.v0 main_call0.v1 (broadcastInDim S1x512 ![1] bcast_S512_S1x512_1),
    StableHlo.TRef.nullary main_call0.cst_0 (constant S_ .f32 0x47C35000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S100000x512 ![0, 1] bcast_S1x512_S100000x512_0_1),
    StableHlo.TRef.binary (.of main_v42) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v45 main_v47 (broadcastInDim S1x512 ![1] bcast_S512_S1x512_1 : (⟨S512, .f32⟩ : BufTy).Contents (Elt F) → (⟨S1x512, .f32⟩ : BufTy).Contents (Elt F)) ]

/-- the buffers that stretch writes -/
abbrev opsStat0_W : List (Ref sig .tc) :=
  [main_cst_7, main_v43, main_cst_8, main_v44, main_v45, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v46, main_v47]

set_option maxRecDepth 8192 in
theorem opsStat0_writes : (opsStat0 (F := F)).Forall fun op => op.writes ⊆ (opsStat0_W.map (Proc.devRef (τ := τ) .tc)).toFinset :=
  ⟨single_sub_of_mem (y := main_cst_7) (by decide),
    single_sub_of_mem (y := main_v43) (by decide),
    single_sub_of_mem (y := main_cst_8) (by decide),
    single_sub_of_mem (y := main_v44) (by decide),
    single_sub_of_mem (y := main_v45) (by decide),
    single_sub_of_mem (y := main_c_9) (by decide),
    single_sub_of_mem (y := main_call0_cst) (by decide),
    single_sub_of_mem (y := main_call0_v0) (by decide),
    single_sub_of_mem (y := main_call0_v1) (by decide),
    single_sub_of_mem (y := main_call0_cst_0) (by decide),
    single_sub_of_mem (y := main_call0_v2) (by decide),
    single_sub_of_mem (y := main_call0_v3) (by decide),
    single_sub_of_mem (y := main_call0_v4) (by decide),
    single_sub_of_mem (y := main_call0_v5) (by decide),
    single_sub_of_mem (y := main_call0_v6) (by decide),
    single_sub_of_mem (y := main_call0_v7) (by decide),
    single_sub_of_mem (y := main_call0_cst_1) (by decide),
    single_sub_of_mem (y := main_call0_v8) (by decide),
    single_sub_of_mem (y := main_call0_cst_2) (by decide),
    single_sub_of_mem (y := main_call0_v9) (by decide),
    single_sub_of_mem (y := main_call0_v10) (by decide),
    single_sub_of_mem (y := main_call0_v11) (by decide),
    single_sub_of_mem (y := main_call0_cst_3) (by decide),
    single_sub_of_mem (y := main_call0_v12) (by decide),
    single_sub_of_mem (y := main_call0_cst_4) (by decide),
    single_sub_of_mem (y := main_call0_call0_v0) (by decide),
    single_sub_of_mem (y := main_call0_call0_v1) (by decide),
    single_sub_of_mem (y := main_v46) (by decide),
    single_sub_of_mem (y := main_v47) (by decide)⟩

/-- a buffer that stretch does not write keeps its contents through it -/
theorem opsStat0_keep (V : Valuation τ sig (Elt F)) (r : Ref sig .tc) (h : r ∉ opsStat0_W) :
    after opsStat0 V (no_index (Proc.devRef .tc r)) = V (Proc.devRef .tc r) :=
  after_of_writes_sub opsStat0 V opsStat0_writes h

set_option maxRecDepth 8192 in
theorem opsStat0_sub : (opsStat0 (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem opsStat0_fresh : ∀ op ∈ opsStat0 (F := F), op.fresh = ∅ := by
  intro _ h; (repeat (cases h with | head => rfl | tail _ h => ?_)); exact nomatch h

/-- the first layer's activation: centre, multiply by the inverse root of the offset variance, clip at zero -/
abbrev opsAct0 : List (HloOp τ sig (Elt F)) :=
  [ StableHlo.unary main_v47 main_v48 (broadcastInDim S100000x512 ![0, 1] bcast_S1x512_S100000x512_0_1 : (⟨S1x512, .f32⟩ : BufTy).Contents (Elt F) → (⟨S100000x512, .f32⟩ : BufTy).Contents (Elt F)),
    StableHlo.binary main_v42 main_v48 main_v49 (subf : (⟨S100000x512, .f32⟩ : BufTy).Contents (Elt F) → (⟨S100000x512, .f32⟩ : BufTy).Contents (Elt F) → (⟨S100000x512, .f32⟩ : BufTy).Contents (Elt F)),
    StableHlo.nullary main_cst_10 (constant S_ .f32 0x3727C5AC#32),
    StableHlo.unary main_cst_10 main_v50 (broadcastInDim S512 ![] bcast_S_S512 : (⟨S_, .f32⟩ : BufTy).Contents (Elt F) → (⟨S512, .f32⟩ : BufTy).Contents (Elt F)),
    StableHlo.binary main_v46 main_v50 main_v51 (addf : (⟨S512, .f32⟩ : BufTy).Contents (Elt F) → (⟨S512, .f32⟩ : BufTy).Contents (Elt F) → (⟨S512, .f32⟩ : BufTy).Contents (Elt F)),
    StableHlo.unary main_v51 main_v52 (Host.rsqrt : (⟨S512, .f32⟩ : BufTy).Contents (Elt F) → (⟨S512, .f32⟩ : BufTy).Contents (Elt F)),
    StableHlo.unary main_v52 main_v53 (broadcastInDim S1x512 ![1] bcast_S512_S1x512_1 : (⟨S512, .f32⟩ : BufTy).Contents (Elt F) → (⟨S1x512, .f32⟩ : BufTy).Contents (Elt F)),
    StableHlo.unary main_v53 main_v54 (broadcastInDim S100000x512 ![0, 1] bcast_S1x512_S100000x512_0_1 : (⟨S1x512, .f32⟩ : BufTy).Contents (Elt F) → (⟨S100000x512, .f32⟩ : BufTy).Contents (Elt F)),
    StableHlo.binary main_v49 main_v54 main_v55 (mulf : (⟨S100000x512, .f32⟩ : BufTy).Contents (Elt F) → (⟨S100000x512, .f32⟩ : BufTy).Contents (Elt F) → (⟨S100000x512, .f32⟩ : BufTy).Contents (Elt F)),
    StableHlo.TRef.nullary main_call1.cst (constant S_ .f32 0x00000000#32),
    StableHlo.TRef.unary main_call1.cst main_call1.v0 (broadcastInDim S100000x512 ![] bcast_S_S100000x512),
    StableHlo.TRef.binary (.of main_v55) main_call1.v0 main_call1.v1 maximumf ]

/-- the buffers that stretch writes -/
abbrev opsAct0_W : List (Ref sig .tc) :=
  [main_v48, main_v49, main_cst_10, main_v50, main_v51, main_v52, main_v53, main_v54, main_v55, main_call1_cst, main_call1_v0, main_v56]

set_option maxRecDepth 8192 in
theorem opsAct0_writes : (opsAct0 (F := F)).Forall fun op => op.writes ⊆ (opsAct0_W.map (Proc.devRef (τ := τ) .tc)).toFinset :=
  ⟨single_sub_of_mem (y := main_v48) (by decide),
    single_sub_of_mem (y := main_v49) (by decide),
    single_sub_of_mem (y := main_cst_10) (by decide),
    single_sub_of_mem (y := main_v50) (by decide),
    single_sub_of_mem (y := main_v51) (by decide),
    single_sub_of_mem (y := main_v52) (by decide),
    single_sub_of_mem (y := main_v53) (by decide),
    single_sub_of_mem (y := main_v54) (by decide),
    single_sub_of_mem (y := main_v55) (by decide),
    single_sub_of_mem (y := main_call1_cst) (by decide),
    single_sub_of_mem (y := main_call1_v0) (by decide),
    single_sub_of_mem (y := main_v56) (by decide)⟩

/-- a buffer that stretch does not write keeps its contents through it -/
theorem opsAct0_keep (V : Valuation τ sig (Elt F)) (r : Ref sig .tc) (h : r ∉ opsAct0_W) :
    after opsAct0 V (no_index (Proc.devRef .tc r)) = V (Proc.devRef .tc r) :=
  after_of_writes_sub opsAct0 V opsAct0_writes h

set_option maxRecDepth 8192 in
theorem opsAct0_sub : (opsAct0 (F := F)).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩

set_option maxRecDepth 8192 in
theorem opsAct0_fresh : ∀ op ∈ opsAct0 (F := F), op.fresh = ∅ := by
  intro _ h; (repeat (cases h with | head => rfl | tail _ h => ?_)); exact nomatch h

/-- the second linear layer -/
abbrev opsLin1 : List (HloOp τ sig (Elt F)) :=
  [ StableHlo.unary main_arg4 main_v57 ((transpose S512x512 [1, 0] · transposes_S512x512_S512x512_1_0) : (⟨S512x512, .f32⟩ : BufTy).Contents (Elt F) → (⟨S512x512, .f32⟩ : BufTy).Contents (Elt F)),
    StableHlo.binary main_v56 main_v57 main_v58 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_v35 main_v59 (broadcastInDim S100000x512 ![0, 1] bcast_S100000x1_S100000x512_0_1 : (⟨S100000x1, .f32⟩ : BufTy).Contents (Elt F) → (⟨S100000x512, .f32⟩ : BufTy).Contents (Elt F)),
    StableHlo.binary main_v58 main_v59 main_v60 (mulf : (⟨S100000x512, .f32⟩ : BufTy).Contents (Elt F) → (⟨S100000x512, .f32⟩ : BufTy).Contents (Elt F) → (⟨S100000x512, .f32⟩ : BufTy).Contents (Elt F)),
    StableHlo.unary main_arg5 main_v61 (broadcastInDim S1x512 ![1] bcast_S512_S1x512_1 : (⟨S512, .f32⟩ : BufTy).Contents (Elt F) → (⟨S1x512, .f32⟩ : BufTy).Contents (Elt F)),
    StableHlo.unary main_v61 main_v62 (broadcastInDim S100000x512 ![0, 1] bcast_S1x512_S100000x512_0_1 : (⟨S1x512, .f32⟩ : BufTy).Contents (Elt F) → (⟨S100000x512, .f32⟩ : BufTy).Contents (Elt F)),
    StableHlo.binary main_v60 main_v62 main_v63 (addf : (⟨S100000x512, .f32⟩ : BufTy).Contents (Elt F) → (⟨S100000x512, .f32⟩ : BufTy).Contents (Elt F) → (⟨S100000x512, .f32⟩ : BufTy).Contents (Elt F)) ]

/-- the buffers that stretch writes -/
abbrev opsLin1_W : List (Ref sig .tc) :=
  [main_v57, main_v58, main_v59, main_v60, main_v61, main_v62, main_v63]

set_option maxRecDepth 8192 in
theorem opsLin1_writes : (opsLin1 (F := F)).Forall fun op => op.writes ⊆ (opsLin1_W.map (Proc.devRef (τ := τ) .tc)).toFinset :=
  ⟨single_sub_of_mem (y := main_v57) (by decide),
    single_sub_of_mem (y := main_v58) (by decide),
    single_sub_of_mem (y := main_v59) (by decide),
    single_sub_of_mem (y := main_v60) (by decide),
    single_sub_of_mem (y := main_v61) (by decide),
    single_sub_of_mem (y := main_v62) (by decide),
    single_sub_of_mem (y := main_v63) (by decide)⟩

/-- a buffer that stretch does not write keeps its contents through it -/
theorem opsLin1_keep (V : Valuation τ sig (Elt F)) (r : Ref sig .tc) (h : r ∉ opsLin1_W) :
    after opsLin1 V (no_index (Proc.devRef .tc r)) = V (Proc.devRef .tc r) :=
  after_of_writes_sub opsLin1 V opsLin1_writes h

set_option maxRecDepth 8192 in
theorem opsLin1_sub : (opsLin1 (F := F)).Forall fun op => op.bufs ⊆ tcRefs τ sig :=
  ⟨unary_bufs_sub .., binary_bufs_sub .., unary_bufs_sub .., binary_bufs_sub .., unary_bufs_sub .., unary_bufs_sub .., binary_bufs_sub ..⟩

set_option maxRecDepth 8192 in
theorem opsLin1_fresh : ∀ op ∈ opsLin1 (F := F), op.fresh = ∅ := by
  intro _ h; (repeat (cases h with | head => rfl | tail _ h => ?_)); exact nomatch h

/-- the second layer's column statistics and activation -/
abbrev opsNorm1 : List (HloOp τ sig (Elt F)) :=
  [ StableHlo.nullary main_cst_11 (constant S_ .f32 0x00000000#32),
    StableHlo.binary main_v63 main_cst_11 main_v64 ((fun x v => Host.reduceAdd x v reducesTo_S100000x512_S512_d0 h_S_) : (⟨S100000x512, .f32⟩ : BufTy).Contents (Elt F) → (⟨S_, .f32⟩ : BufTy).Contents (Elt F) → (⟨S512, .f32⟩ : BufTy).Contents (Elt F)),
    StableHlo.nullary main_cst_12 (constant S_ .f32 0x47C35000#32),
    StableHlo.unary main_cst_12 main_v65 (broadcastInDim S512 ![] bcast_S_S512 : (⟨S_, .f32⟩ : BufTy).Contents (Elt F) → (⟨S512, .f32⟩ : BufTy).Contents (Elt F)),
    StableHlo.binary main_v64 main_v65 main_v66 (Host.divf : (⟨S512, .f32⟩ : BufTy).Contents (Elt F) → (⟨S512, .f32⟩ : BufTy).Contents (Elt F) → (⟨S512, .f32⟩ : BufTy).Contents (Elt F)),
    StableHlo.nullary main_c_13 (constantI S_ 32 0#32),
    StableHlo.TRef.nullary main_call2.cst (constant S_ .f32 0x00000000#32),
    StableHlo.TRef.binary (.of main_v63) main_call2.cst main_call2.v0 (fun x v => Host.reduceAdd x v reducesTo_S100000x512_S512_d0 h_S_),
    StableHlo.TRef.unary main_call2.v0 main_call2.v1 (broadcastInDim S1x512 ![1] bcast_S512_S1x512_1),
    StableHlo.TRef.nullary main_call2.cst_0 (constant S_ .f32 0x47C35000#32),
    StableHlo.TRef.unary main_call2.cst_0 main_call2.v2 (broadcastInDim S1x512 ![] bcast_S_S1x512),
    StableHlo.TRef.binary main_call2.v1 main_call2.v2 main_call2.v3 Host.divf,
    StableHlo.TRef.unary main_call2.v3 main_call2.v4 (broadcastInDim S100000x512 ![0, 1] bcast_S1x512_S100000x512_0_1),
    StableHlo.TRef.binary (.of main_v63) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x512_S512_d0 h_S_),
    StableHlo.TRef.unary main_call2.v8 main_call2.v10 (broadcastInDim S512 ![] bcast_S_S512),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S512 ![] bcast_S_S512),
    StableHlo.TRef.ternary main_call2.v12 main_call2.v11 main_call2.call0.v1 main_call2.call0.v2 (fun p a b => select (broadcastInDim S512 ![] bcast_S_S512 p) a b),
    StableHlo.unary main_v66 main_v68 (broadcastInDim S1x512 ![1] bcast_S512_S1x512_1 : (⟨S512, .f32⟩ : BufTy).Contents (Elt F) → (⟨S1x512, .f32⟩ : BufTy).Contents (Elt F)),
    StableHlo.unary main_v68 main_v69 (broadcastInDim S100000x512 ![0, 1] bcast_S1x512_S100000x512_0_1 : (⟨S1x512, .f32⟩ : BufTy).Contents (Elt F) → (⟨S100000x512, .f32⟩ : BufTy).Contents (Elt F)),
    StableHlo.binary main_v63 main_v69 main_v70 (subf : (⟨S100000x512, .f32⟩ : BufTy).Contents (Elt F) → (⟨S100000x512, .f32⟩ : BufTy).Contents (Elt F) → (⟨S100000x512, .f32⟩ : BufTy).Contents (Elt F)),
    StableHlo.nullary main_cst_14 (constant S_ .f32 0x3727C5AC#32),
    StableHlo.unary main_cst_14 main_v71 (broadcastInDim S512 ![] bcast_S_S512 : (⟨S_, .f32⟩ : BufTy).Contents (Elt F) → (⟨S512, .f32⟩ : BufTy).Contents (Elt F)),
    StableHlo.binary main_v67 main_v71 main_v72 (addf : (⟨S512, .f32⟩ : BufTy).Contents (Elt F) → (⟨S512, .f32⟩ : BufTy).Contents (Elt F) → (⟨S512, .f32⟩ : BufTy).Contents (Elt F)),
    StableHlo.unary main_v72 main_v73 (Host.rsqrt : (⟨S512, .f32⟩ : BufTy).Contents (Elt F) → (⟨S512, .f32⟩ : BufTy).Contents (Elt F)),
    StableHlo.unary main_v73 main_v74 (broadcastInDim S1x512 ![1] bcast_S512_S1x512_1 : (⟨S512, .f32⟩ : BufTy).Contents (Elt F) → (⟨S1x512, .f32⟩ : BufTy).Contents (Elt F)),
    StableHlo.unary main_v74 main_v75 (broadcastInDim S100000x512 ![0, 1] bcast_S1x512_S100000x512_0_1 : (⟨S1x512, .f32⟩ : BufTy).Contents (Elt F) → (⟨S100000x512, .f32⟩ : BufTy).Contents (Elt F)),
    StableHlo.binary main_v70 main_v75 main_v76 (mulf : (⟨S100000x512, .f32⟩ : BufTy).Contents (Elt F) → (⟨S100000x512, .f32⟩ : BufTy).Contents (Elt F) → (⟨S100000x512, .f32⟩ : BufTy).Contents (Elt F)),
    StableHlo.TRef.nullary main_call3.cst (constant S_ .f32 0x00000000#32),
    StableHlo.TRef.unary main_call3.cst main_call3.v0 (broadcastInDim S100000x512 ![] bcast_S_S100000x512),
    StableHlo.TRef.binary (.of main_v76) main_call3.v0 main_call3.v1 maximumf ]

/-- the buffers that stretch writes -/
abbrev opsNorm1_W : List (Ref sig .tc) :=
  [main_cst_11, main_v64, main_cst_12, main_v65, main_v66, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v67, main_v68, main_v69, main_v70, main_cst_14, main_v71, main_v72, main_v73, main_v74, main_v75, main_v76, main_call3_cst, main_call3_v0, main_v77]

set_option maxRecDepth 8192 in
theorem opsNorm1_writes : (opsNorm1 (F := F)).Forall fun op => op.writes ⊆ (opsNorm1_W.map (Proc.devRef (τ := τ) .tc)).toFinset :=
  ⟨single_sub_of_mem (y := main_cst_11) (by decide),
    single_sub_of_mem (y := main_v64) (by decide),
    single_sub_of_mem (y := main_cst_12) (by decide),
    single_sub_of_mem (y := main_v65) (by decide),
    single_sub_of_mem (y := main_v66) (by decide),
    single_sub_of_mem (y := main_c_13) (by decide),
    single_sub_of_mem (y := main_call2_cst) (by decide),
    single_sub_of_mem (y := main_call2_v0) (by decide),
    single_sub_of_mem (y := main_call2_v1) (by decide),
    single_sub_of_mem (y := main_call2_cst_0) (by decide),
    single_sub_of_mem (y := main_call2_v2) (by decide),
    single_sub_of_mem (y := main_call2_v3) (by decide),
    single_sub_of_mem (y := main_call2_v4) (by decide),
    single_sub_of_mem (y := main_call2_v5) (by decide),
    single_sub_of_mem (y := main_call2_v6) (by decide),
    single_sub_of_mem (y := main_call2_v7) (by decide),
    single_sub_of_mem (y := main_call2_cst_1) (by decide),
    single_sub_of_mem (y := main_call2_v8) (by decide),
    single_sub_of_mem (y := main_call2_cst_2) (by decide),
    single_sub_of_mem (y := main_call2_v9) (by decide),
    single_sub_of_mem (y := main_call2_v10) (by decide),
    single_sub_of_mem (y := main_call2_v11) (by decide),
    single_sub_of_mem (y := main_call2_cst_3) (by decide),
    single_sub_of_mem (y := main_call2_v12) (by decide),
    single_sub_of_mem (y := main_call2_cst_4) (by decide),
    single_sub_of_mem (y := main_call2_call0_v0) (by decide),
    single_sub_of_mem (y := main_call2_call0_v1) (by decide),
    single_sub_of_mem (y := main_v67) (by decide),
    single_sub_of_mem (y := main_v68) (by decide),
    single_sub_of_mem (y := main_v69) (by decide),
    single_sub_of_mem (y := main_v70) (by decide),
    single_sub_of_mem (y := main_cst_14) (by decide),
    single_sub_of_mem (y := main_v71) (by decide),
    single_sub_of_mem (y := main_v72) (by decide),
    single_sub_of_mem (y := main_v73) (by decide),
    single_sub_of_mem (y := main_v74) (by decide),
    single_sub_of_mem (y := main_v75) (by decide),
    single_sub_of_mem (y := main_v76) (by decide),
    single_sub_of_mem (y := main_call3_cst) (by decide),
    single_sub_of_mem (y := main_call3_v0) (by decide),
    single_sub_of_mem (y := main_v77) (by decide)⟩

/-- a buffer that stretch does not write keeps its contents through it -/
theorem opsNorm1_keep (V : Valuation τ sig (Elt F)) (r : Ref sig .tc) (h : r ∉ opsNorm1_W) :
    after opsNorm1 V (no_index (Proc.devRef .tc r)) = V (Proc.devRef .tc r) :=
  after_of_writes_sub opsNorm1 V opsNorm1_writes h

set_option maxRecDepth 8192 in
theorem opsNorm1_sub : (opsNorm1 (F := F)).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩

set_option maxRecDepth 8192 in
theorem opsNorm1_fresh : ∀ op ∈ opsNorm1 (F := F), op.fresh = ∅ := by
  intro _ h; (repeat (cases h with | head => rfl | tail _ h => ?_)); exact nomatch h

/-- the third linear layer -/
abbrev opsLin2 : List (HloOp τ sig (Elt F)) :=
  [ StableHlo.unary main_arg6 main_v78 ((transpose S512x512 [1, 0] · transposes_S512x512_S512x512_1_0) : (⟨S512x512, .f32⟩ : BufTy).Contents (Elt F) → (⟨S512x512, .f32⟩ : BufTy).Contents (Elt F)),
    StableHlo.binary main_v77 main_v78 main_v79 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_v35 main_v80 (broadcastInDim S100000x512 ![0, 1] bcast_S100000x1_S100000x512_0_1 : (⟨S100000x1, .f32⟩ : BufTy).Contents (Elt F) → (⟨S100000x512, .f32⟩ : BufTy).Contents (Elt F)),
    StableHlo.binary main_v79 main_v80 main_v81 (mulf : (⟨S100000x512, .f32⟩ : BufTy).Contents (Elt F) → (⟨S100000x512, .f32⟩ : BufTy).Contents (Elt F) → (⟨S100000x512, .f32⟩ : BufTy).Contents (Elt F)),
    StableHlo.unary main_arg7 main_v82 (broadcastInDim S1x512 ![1] bcast_S512_S1x512_1 : (⟨S512, .f32⟩ : BufTy).Contents (Elt F) → (⟨S1x512, .f32⟩ : BufTy).Contents (Elt F)),
    StableHlo.unary main_v82 main_v83 (broadcastInDim S100000x512 ![0, 1] bcast_S1x512_S100000x512_0_1 : (⟨S1x512, .f32⟩ : BufTy).Contents (Elt F) → (⟨S100000x512, .f32⟩ : BufTy).Contents (Elt F)),
    StableHlo.binary main_v81 main_v83 main_v84 (addf : (⟨S100000x512, .f32⟩ : BufTy).Contents (Elt F) → (⟨S100000x512, .f32⟩ : BufTy).Contents (Elt F) → (⟨S100000x512, .f32⟩ : BufTy).Contents (Elt F)) ]

/-- the buffers that stretch writes -/
abbrev opsLin2_W : List (Ref sig .tc) :=
  [main_v78, main_v79, main_v80, main_v81, main_v82, main_v83, main_v84]

set_option maxRecDepth 8192 in
theorem opsLin2_writes : (opsLin2 (F := F)).Forall fun op => op.writes ⊆ (opsLin2_W.map (Proc.devRef (τ := τ) .tc)).toFinset :=
  ⟨single_sub_of_mem (y := main_v78) (by decide),
    single_sub_of_mem (y := main_v79) (by decide),
    single_sub_of_mem (y := main_v80) (by decide),
    single_sub_of_mem (y := main_v81) (by decide),
    single_sub_of_mem (y := main_v82) (by decide),
    single_sub_of_mem (y := main_v83) (by decide),
    single_sub_of_mem (y := main_v84) (by decide)⟩

/-- a buffer that stretch does not write keeps its contents through it -/
theorem opsLin2_keep (V : Valuation τ sig (Elt F)) (r : Ref sig .tc) (h : r ∉ opsLin2_W) :
    after opsLin2 V (no_index (Proc.devRef .tc r)) = V (Proc.devRef .tc r) :=
  after_of_writes_sub opsLin2 V opsLin2_writes h

set_option maxRecDepth 8192 in
theorem opsLin2_sub : (opsLin2 (F := F)).Forall fun op => op.bufs ⊆ tcRefs τ sig :=
  ⟨unary_bufs_sub .., binary_bufs_sub .., unary_bufs_sub .., binary_bufs_sub .., unary_bufs_sub .., unary_bufs_sub .., binary_bufs_sub ..⟩

set_option maxRecDepth 8192 in
theorem opsLin2_fresh : ∀ op ∈ opsLin2 (F := F), op.fresh = ∅ := by
  intro _ h; (repeat (cases h with | head => rfl | tail _ h => ?_)); exact nomatch h

/-- the operations of the program's first window -/
abbrev opsA : List (HloOp τ sig (Elt F)) := opsScale ++ (opsLin0 ++ opsStat0)
/-- the operations of the program's second window -/
abbrev opsB : List (HloOp τ sig (Elt F)) := opsAct0 ++ (opsLin1 ++ (opsNorm1 ++ opsLin2))
/-- all the operations, in order -/
abbrev ops : List (HloOp τ sig (Elt F)) := opsA ++ opsB

set_option maxRecDepth 8192 in
set_option maxHeartbeats 4000000 in
theorem main_part0_eq (c : Dev nD) : main_part0 (F := F) c = seq opsA := rfl

set_option maxRecDepth 8192 in
set_option maxHeartbeats 4000000 in
theorem main_part1_eq (c : Dev nD) : main_part1 (F := F) c = seq opsB := rfl

/-- the program is its operations run in order -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- every operation touches buffers of the one device memory only -/
theorem ops_sub : (ops (F := F)).Forall fun op => op.bufs ⊆ tcRefs τ sig :=
  List.forall_iff_forall_mem.mpr fun op h => by
    simp only [ops, opsA, opsB, List.mem_append] at h
    rcases h with (h | h | h) | h | h | h | h
    exacts [List.forall_iff_forall_mem.mp opsScale_sub op h,
      List.forall_iff_forall_mem.mp opsLin0_sub op h,
      List.forall_iff_forall_mem.mp opsStat0_sub op h,
      List.forall_iff_forall_mem.mp opsAct0_sub op h,
      List.forall_iff_forall_mem.mp opsLin1_sub op h,
      List.forall_iff_forall_mem.mp opsNorm1_sub op h,
      List.forall_iff_forall_mem.mp opsLin2_sub op h]

/-- every operation determines its results -/
theorem ops_fresh : ∀ op ∈ ops (F := F), op.fresh = ∅ := fun op h => by
  simp only [ops, opsA, opsB, List.mem_append] at h
  rcases h with (h | h | h) | h | h | h | h
  exacts [opsScale_fresh op h, opsLin0_fresh op h, opsStat0_fresh op h, opsAct0_fresh op h, opsLin1_fresh op h, opsNorm1_fresh op h, opsLin2_fresh op h]

/-- the buffers after the whole list, stretch by stretch -/
theorem after_ops (V : Valuation τ sig (Elt F)) :
    after ops V = after opsLin2 (after opsNorm1 (after opsLin1 (after opsAct0 (after opsStat0 (after opsLin0 (after opsScale V)))))) := by
  simp only [ops, opsA, opsB, after_append']

end Cert.ReferenceIdeal.RefValue

end
-- ==== Proof.RefTerm.lean ====
/-
  The value the reference program computes, as one term over its eight arguments.

  The per-node scale comes from the edge list alone (`scale`).  A layer (`layer`) contracts the
  node features with the transposed weights, multiplies row `n` by the scale of node `n` and adds the
  bias.  Between layers (`norm`) every column is centred by its mean over the nodes, multiplied by the
  inverse root of its variance plus a small offset, and clipped at zero; the variance (`colVar`) is the
  mean squared deviation from the column mean, divided by the node count less a correction that is
  the integer zero here, with a guard that picks a not-a-number word when that divisor is not positive.
-/
import proofs.«103207_j63436666962551_2_alg».proof.ReferenceIdeal
import proofs.«103207_j63436666962551_2_alg».proof.Proof.Gen.ReferenceIdeal
import proofs.«103207_j63436666962551_2_alg».proof.Proof.Spec

noncomputable section

namespace Cert.ReferenceIdeal.RefValue

open Idealize.ShloMosaic
open Cert.ReferenceIdeal Cert.ReferenceIdeal.Facts₀ Cert.ReferenceIdeal.Facts

variable [Cert.ReferenceIdeal.Facts]

/-- the per-node scale column, from the edge list -/
def scale (a1 : IVec S2x3200000 32) : FVec Ideal S100000x1 .f32 :=
  Cert.Spec.scaleTerm slices_S2x3200000_S1x3200000_0_0 slices_S2x3200000_S1x3200000_1_0
    shapeCasts_S1x3200000_S3200000 bcast_S_S100000 bcast_S_S3200000 bcast_S3200000_S3200000x1_0
    bcast_S100000_S100000x1_0 scatter_S100000_S3200000x1_S3200000_n_0_0_1
    gather_S100000_S3200000x1_S3200000_n_0_n_n_0_1_1 a1

/-- one linear layer: contraction with the transposed weights, times the scale column spread
    along the rows, plus the bias spread along the columns -/
def layer (X : FVec Ideal S100000x512 .f32) (W : FVec Ideal S512x512 .f32) (b : FVec Ideal S512 .f32)
    (s : FVec Ideal S100000x1 .f32) : FVec Ideal S100000x512 .f32 :=
  addf
    (mulf
      (Host.dotGeneral (F := Ideal) dot_S100000x512_S512x512_S100000x512_1_0_0_1_n_n none X
        (transpose S512x512 [1, 0] W transposes_S512x512_S512x512_1_0))
      (broadcastInDim S100000x512 ![0, 1] bcast_S100000x1_S100000x512_0_1 s))
    (broadcastInDim S100000x512 ![0, 1] bcast_S1x512_S100000x512_0_1
      (broadcastInDim S1x512 ![1] bcast_S512_S1x512_1 b))

/-- column sums over the nodes, from the zero word -/
def colSum (Y : FVec Ideal S100000x512 .f32) : FVec Ideal S512 .f32 :=
  Host.reduceAdd (F := Ideal) Y (constant (F := Ideal) S_ .f32 0x00000000#32) reducesTo_S100000x512_S512_d0 h_S_

/-- column means: the column sums over the node count -/
def colMean (Y : FVec Ideal S100000x512 .f32) : FVec Ideal S512 .f32 :=
  Host.divf (F := Ideal) (colSum Y)
    (broadcastInDim S512 ![] bcast_S_S512 (constant (F := Ideal) S_ .f32 0x47C35000#32))

/-- the deviations from the column means, as the variance computes them (the mean kept as a row) -/
def colDev (Y : FVec Ideal S100000x512 .f32) : FVec Ideal S100000x512 .f32 :=
  subf Y
    (broadcastInDim S100000x512 ![0, 1] bcast_S1x512_S100000x512_0_1
      (Host.divf (F := Ideal)
        (broadcastInDim S1x512 ![1] bcast_S512_S1x512_1 (colSum Y))
        (broadcastInDim S1x512 ![] bcast_S_S1x512 (constant (F := Ideal) S_ .f32 0x47C35000#32))))

/-- the divisor of the variance: the node count less the correction, an integer zero -/
def varDen : FVec Ideal S_ .f32 :=
  subf (constant (F := Ideal) S_ .f32 0x47C35000#32) (sitofp (F := Ideal) .f32 (constantI S_ 32 0#32))

/-- column variances: the summed squared deviations over the divisor where the divisor is positive,
    the not-a-number word otherwise -/
def colVar (Y : FVec Ideal S100000x512 .f32) : FVec Ideal S512 .f32 :=
  select
    (broadcastInDim S512 ![] bcast_S_S512
      (cmpf (F := Ideal) .ogt varDen (constant (F := Ideal) S_ .f32 0x00000000#32)))
    (Host.divf (F := Ideal)
      (Host.reduceAdd (F := Ideal) (mulf (colDev Y) (colDev Y)) (constant (F := Ideal) S_ .f32 0x00000000#32)
        reducesTo_S100000x512_S512_d0 h_S_)
      (broadcastInDim S512 ![] bcast_S_S512 varDen))
    (broadcastInDim S512 ![] bcast_S_S512 (id (constant (F := Ideal) S_ .f32 0x7FC00000#32)))

/-- centre by the column mean, multiply by the inverse root of variance plus offset, clip at zero -/
def norm (Y : FVec Ideal S100000x512 .f32) : FVec Ideal S100000x512 .f32 :=
  maximumf
    (mulf
      (subf Y
        (broadcastInDim S100000x512 ![0, 1] bcast_S1x512_S100000x512_0_1
          (broadcastInDim S1x512 ![1] bcast_S512_S1x512_1 (colMean Y))))
      (broadcastInDim S100000x512 ![0, 1] bcast_S1x512_S100000x512_0_1
        (broadcastInDim S1x512 ![1] bcast_S512_S1x512_1
          (Host.rsqrt (F := Ideal)
            (addf (colVar Y)
              (broadcastInDim S512 ![] bcast_S_S512 (constant (F := Ideal) S_ .f32 0x3727C5AC#32)))))))
    (broadcastInDim S100000x512 ![] bcast_S_S100000x512 (constant (F := Ideal) S_ .f32 0x00000000#32))

/-- the reference's result: three layers with the column normalisation between them -/
def refTerm (a0 : FVec Ideal S100000x512 .f32) (a1 : IVec S2x3200000 32)
    (a2 : FVec Ideal S512x512 .f32) (a3 : FVec Ideal S512 .f32)
    (a4 : FVec Ideal S512x512 .f32) (a5 : FVec Ideal S512 .f32)
    (a6 : FVec Ideal S512x512 .f32) (a7 : FVec Ideal S512 .f32) : FVec Ideal S100000x512 .f32 :=
  layer (norm (layer (norm (layer a0 a2 a3 (scale a1))) a4 a5 (scale a1))) a6 a7 (scale a1)

end Cert.ReferenceIdeal.RefValue

end
-- ==== Proof.RefRunB.lean ====
/-
  What each stage of the reference program leaves in its result buffer, as a function of what the
  stage reads.

  From any contents `V` of the buffers: the scale stretch leaves the node scale of the edge list;
  a linear stretch leaves the layer of its input, weights, bias and the scale; a statistics-and-
  activation stretch leaves the normalised, clipped form of the layer before it.  Each is read off
  the stretch's own operations: the value an operation writes is its function of the values its
  operands hold, and the composition of those functions is, stage by stage, the term the
  specification of the reference names.
-/
import proofs.«103207_j63436666962551_2_alg».proof.Proof.RefRunA
import proofs.«103207_j63436666962551_2_alg».proof.Proof.RefTerm

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]

/-- the scale stretch leaves the node scale -/
theorem scale_v35 (V : Valuation τ sig (Elt Ideal)) :
    after (opsScale (F := Ideal)) V (no_index (Proc.devRef .tc main_v35)) = scale (V (Proc.devRef .tc main_arg1)) := by
  unfold opsScale
  after_results_simp
  rfl

/-- a linear stretch leaves the layer of its input -/
theorem lin0_v42 (V : Valuation τ sig (Elt Ideal)) :
    after (opsLin0 (F := Ideal)) V (no_index (Proc.devRef .tc main_v42))
      = layer (V (Proc.devRef .tc main_arg0)) (V (Proc.devRef .tc main_arg2)) (V (Proc.devRef .tc main_arg3)) (V (Proc.devRef .tc main_v35)) := by
  unfold opsLin0
  after_results_simp
  rfl

/-- a linear stretch leaves the layer of its input -/
theorem lin1_v63 (V : Valuation τ sig (Elt Ideal)) :
    after (opsLin1 (F := Ideal)) V (no_index (Proc.devRef .tc main_v63))
      = layer (V (Proc.devRef .tc main_v56)) (V (Proc.devRef .tc main_arg4)) (V (Proc.devRef .tc main_arg5)) (V (Proc.devRef .tc main_v35)) := by
  unfold opsLin1
  after_results_simp
  rfl

/-- a linear stretch leaves the layer of its input -/
theorem lin2_v84 (V : Valuation τ sig (Elt Ideal)) :
    after (opsLin2 (F := Ideal)) V (no_index (Proc.devRef .tc main_v84))
      = layer (V (Proc.devRef .tc main_v77)) (V (Proc.devRef .tc main_arg6)) (V (Proc.devRef .tc main_arg7)) (V (Proc.devRef .tc main_v35)) := by
  unfold opsLin2
  after_results_simp
  rfl

/-- the first statistics and activation stretches together leave the normalised, clipped layer -/
theorem norm0_v56 (V : Valuation τ sig (Elt Ideal)) :
    after (opsAct0 (F := Ideal)) (after opsStat0 V) (no_index (Proc.devRef .tc main_v56)) = norm (V (Proc.devRef .tc main_v42)) := by
  rw [← after_append']
  unfold opsStat0 opsAct0
  simp only [List.cons_append, List.nil_append]
  after_results_simp
  rfl

/-- the second statistics-and-activation stretch leaves the normalised, clipped layer -/
theorem norm1_v77 (V : Valuation τ sig (Elt Ideal)) :
    after (opsNorm1 (F := Ideal)) V (no_index (Proc.devRef .tc main_v77)) = norm (V (Proc.devRef .tc main_v63)) := by
  unfold opsNorm1
  after_results_simp
  rfl

end Cert.ReferenceIdeal.RefValue

end
-- ==== Proof.RefRun.lean ====
/-
  The reference program's run: every weakly fair execution terminates with its result buffer at the
  network term of its arguments, and its arguments unchanged.

  The result buffer after the whole list is read backwards stage by stage: the last linear stretch
  leaves the layer of what the stretch before it left, and so on down to the node scale, which
  depends on the edge list alone; a buffer a stretch does not write is carried through it, so the
  arguments, written by no stretch, arrive unchanged at every stage and at the end.
-/
import proofs.«103207_j63436666962551_2_alg».proof.Proof.RefRunB

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]

/-- the result buffer after all the operations is the network term of the arguments -/
theorem result_eq (V : Valuation τ sig (Elt Ideal)) :
    after (ops (F := Ideal)) V (Proc.devRef .tc main_v84)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  simp (disch := decide) only [lin2_v84, norm1_v77, lin1_v63, norm0_v56, lin0_v42, scale_v35, opsScale_keep, opsLin0_keep, opsStat0_keep, opsAct0_keep, opsLin1_keep, opsNorm1_keep, opsLin2_keep]
  rfl

theorem main_arg0_eq (V : Valuation τ sig (Elt Ideal)) :
    after (ops (F := Ideal)) V (Proc.devRef .tc main_arg0) = V (Proc.devRef .tc main_arg0) := by
  rw [after_ops]
  simp (disch := decide) only [opsScale_keep, opsLin0_keep, opsStat0_keep, opsAct0_keep, opsLin1_keep, opsNorm1_keep, opsLin2_keep]

theorem main_arg1_eq (V : Valuation τ sig (Elt Ideal)) :
    after (ops (F := Ideal)) V (Proc.devRef .tc main_arg1) = V (Proc.devRef .tc main_arg1) := by
  rw [after_ops]
  simp (disch := decide) only [opsScale_keep, opsLin0_keep, opsStat0_keep, opsAct0_keep, opsLin1_keep, opsNorm1_keep, opsLin2_keep]

theorem main_arg2_eq (V : Valuation τ sig (Elt Ideal)) :
    after (ops (F := Ideal)) V (Proc.devRef .tc main_arg2) = V (Proc.devRef .tc main_arg2) := by
  rw [after_ops]
  simp (disch := decide) only [opsScale_keep, opsLin0_keep, opsStat0_keep, opsAct0_keep, opsLin1_keep, opsNorm1_keep, opsLin2_keep]

theorem main_arg3_eq (V : Valuation τ sig (Elt Ideal)) :
    after (ops (F := Ideal)) V (Proc.devRef .tc main_arg3) = V (Proc.devRef .tc main_arg3) := by
  rw [after_ops]
  simp (disch := decide) only [opsScale_keep, opsLin0_keep, opsStat0_keep, opsAct0_keep, opsLin1_keep, opsNorm1_keep, opsLin2_keep]

theorem main_arg4_eq (V : Valuation τ sig (Elt Ideal)) :
    after (ops (F := Ideal)) V (Proc.devRef .tc main_arg4) = V (Proc.devRef .tc main_arg4) := by
  rw [after_ops]
  simp (disch := decide) only [opsScale_keep, opsLin0_keep, opsStat0_keep, opsAct0_keep, opsLin1_keep, opsNorm1_keep, opsLin2_keep]

theorem main_arg5_eq (V : Valuation τ sig (Elt Ideal)) :
    after (ops (F := Ideal)) V (Proc.devRef .tc main_arg5) = V (Proc.devRef .tc main_arg5) := by
  rw [after_ops]
  simp (disch := decide) only [opsScale_keep, opsLin0_keep, opsStat0_keep, opsAct0_keep, opsLin1_keep, opsNorm1_keep, opsLin2_keep]

theorem main_arg6_eq (V : Valuation τ sig (Elt Ideal)) :
    after (ops (F := Ideal)) V (Proc.devRef .tc main_arg6) = V (Proc.devRef .tc main_arg6) := by
  rw [after_ops]
  simp (disch := decide) only [opsScale_keep, opsLin0_keep, opsStat0_keep, opsAct0_keep, opsLin1_keep, opsNorm1_keep, opsLin2_keep]

theorem main_arg7_eq (V : Valuation τ sig (Elt Ideal)) :
    after (ops (F := Ideal)) V (Proc.devRef .tc main_arg7) = V (Proc.devRef .tc main_arg7) := by
  rw [after_ops]
  simp (disch := decide) only [opsScale_keep, opsLin0_keep, opsStat0_keep, opsAct0_keep, opsLin1_keep, opsNorm1_keep, opsLin2_keep]

/-- On every device, from any memory with zero counters: every weakly fair execution of the program
    terminates with the result buffer at the network term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v84) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v84).trans (result_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c)),
      (h c main_arg5).trans (main_arg5_eq (launchContents m c)),
      (h c main_arg6).trans (main_arg6_eq (launchContents m c)),
      (h c main_arg7).trans (main_arg7_eq (launchContents m c))⟩)
    (run_seq scopedRefs_eq scopedSems_eq defs main (fun _ => ops) main_eq (fun _ => ops_sub) m ρ (fun _ => ops_fresh))

end Cert.ReferenceIdeal.RefValue

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.RefReadLayer.lean ====
/-
  One linear layer of the reference read at an entry.

  At row `n` and column `j` the contraction with the transposed weights is `∑ k, X (n, k) · W (j, k)`
  (the transposed table at `(k, j)` is the table at `(j, k)`); the scale column spread along the rows
  reads the scale of node `n`, and the bias, first laid out as a one-row table and then spread along
  the columns, reads the bias of feature `j`.
-/
import proofs.«103207_j63436666962551_2_alg».proof.Proof.RefTerm
import proofs.«103207_j63436666962551_2_alg».proof.Proof.LibHostSpread
import Idealize.ShloMosaic.Lib.StackMember
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Facts₀ Cert.ReferenceIdeal.Facts

/-- A vector `[b]` laid along dimension 1 of `[1, b]` reads, at `(u, c)`, the vector at `c`. -/
theorem spread_b_1b_apply {α : Type} {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

variable [Cert.ReferenceIdeal.Facts]

/-- the reference's dimension numbers are the plain rows-by-columns product's -/
theorem dot_eq_plain :
    dot_S100000x512_S512x512_S100000x512_1_0_0_1_n_n = DotDims.plain 100000 512 512 := rfl

/-- the contraction with the transposed weights at `(n, j)` -/
theorem dot_transposed_apply (X : FVec Ideal S100000x512 .f32) (W : FVec Ideal S512x512 .f32)
    (n : Fin 100000) (j : Fin 512) :
    Host.dotGeneral (F := Ideal) dot_S100000x512_S512x512_S100000x512_1_0_0_1_n_n none X
        (transpose S512x512 [1, 0] W transposes_S512x512_S512x512_1_0) (ix2 n j)
      = ∑ k : Fin 512, X (ix2 n k) * W (ix2 j k) := by
  rw [dot_eq_plain]
  refine (StackMember.dotGeneral_plain_apply none X _ n j).trans ?_
  refine Finset.sum_congr rfl fun k _ => ?_
  rw [transpose_ix2_apply W transposes_S512x512_S512x512_1_0 k j]

/-- a bias laid out as a row and spread along the columns reads the bias of the column -/
theorem row_of_vec_apply (v : FVec Ideal S512 .f32) (n : Fin 100000) (j : Fin 512) :
    broadcastInDim S100000x512 ![0, 1] bcast_S1x512_S100000x512_0_1
        (broadcastInDim S1x512 ![1] bcast_S512_S1x512_1 v) (ix2 n j) = v (ix1 j) := by
  rw [Cert.Lib.spread_1b_ab_apply _ bcast_S1x512_S100000x512_0_1 n j,
    spread_b_1b_apply v bcast_S512_S1x512_1 0 j]

/-- one layer at `(n, j)` is the specification's linear layer -/
theorem layer_apply (X : FVec Ideal S100000x512 .f32) (W : FVec Ideal S512x512 .f32) (b : FVec Ideal S512 .f32)
    (s : FVec Ideal S100000x1 .f32) (n : Fin 100000) (j : Fin 512) :
    layer X W b s (ix2 n j)
      = Cert.Spec.lin (Cert.Spec.toMat X) (Cert.Spec.toWt W) (Cert.Spec.toCol s) (Cert.Spec.toRow b) n j := by
  unfold layer
  rw [addf_apply, mulf_apply, dot_transposed_apply X W n j, row_of_vec_apply b n j,
    Cert.Lib.spread_a1_ab_apply s bcast_S100000x1_S100000x512_0_1 n j]
  rfl

/-- the layer as a table -/
theorem toMat_layer (X : FVec Ideal S100000x512 .f32) (W : FVec Ideal S512x512 .f32) (b : FVec Ideal S512 .f32)
    (s : FVec Ideal S100000x1 .f32) :
    Cert.Spec.toMat (layer X W b s)
      = Cert.Spec.lin (Cert.Spec.toMat X) (Cert.Spec.toWt W) (Cert.Spec.toCol s) (Cert.Spec.toRow b) :=
  funext fun n => funext fun j => layer_apply X W b s n j

end Cert.ReferenceIdeal.RefValue

end
-- ==== Proof.RefReadNorm.lean ====
/-
  The column normalisation of the reference read at an entry.

  A column sum over the nodes is the plain sum `∑ n, Y (n, j)` (the reduction starts from the zero word).
  The column mean divides it by the node count.  The variance recomputes that mean as a one-row table,
  spreads it along the columns, sums the squared deviations and divides by the node count less the
  integer zero; the guard compares that divisor with zero, finds it positive, and so always takes the
  quotient.  An entry of the normalised table is the deviation from the mean times the inverse root of
  variance plus offset, clipped at zero.
-/
import proofs.«103207_j63436666962551_2_alg».proof.Proof.RefReadLayer
import proofs.«103207_j63436666962551_2_alg».proof.Proof.Consts

noncomputable section

namespace Cert.ReferenceIdeal.RefValue

open Idealize.ShloMosaic Idealize.ShloMosaic.ValueIdx
open Cert.ReferenceIdeal Cert.ReferenceIdeal.Facts₀ Cert.ReferenceIdeal.Facts

/-- the node axis is the one summed away -/
theorem reduces_nodes : S100000x512.Reduces [0] S512 := by decide

/-- the table index over column `j` with node `n` put back -/
theorem lift_nodes (j : Fin 512) (n : Fin 100000) : reduces_nodes.lift (ix1 j) n = ix2 n j := by
  funext c
  apply Fin.ext
  match c with
  | ⟨0, _⟩ => rfl
  | ⟨1, _⟩ => rfl

variable [Cert.ReferenceIdeal.Facts]

/-- a column sum is the sum over the nodes -/
theorem colSum_apply (Y : FVec Ideal S100000x512 .f32) (j : Fin 512) :
    colSum Y (ix1 j) = ∑ n : Fin 100000, Y (ix2 n j) := by
  unfold colSum
  show Ideal.hostReduceAdd reducesTo_S100000x512_S512_d0 Y (Ideal.ofBits .f32 0x00000000#32) (ix1 j) = _
  rw [Ideal.hostReduceAdd_single reducesTo_S100000x512_S512_d0 reduces_nodes Y _ (ix1 j),
    Ideal.ofBits_zero_f32, zero_add]
  exact Finset.sum_congr rfl fun n _ => congrArg Y (lift_nodes j n)

/-- a column mean is the specification's -/
theorem colMean_apply (Y : FVec Ideal S100000x512 .f32) (j : Fin 512) :
    colMean Y (ix1 j) = Cert.Spec.mean (Cert.Spec.toMat Y) j := by
  unfold colMean
  show Ideal.div (colSum Y (ix1 j))
    (broadcastInDim S512 ![] bcast_S_S512 (constant (F := Ideal) S_ .f32 0x47C35000#32) (ix1 j)) = _
  rw [colSum_apply, Cert.Lib.splat_apply bcast_S_S512 _ (ix1 j)]
  rfl

/-- a deviation as the variance computes it is the entry less the specification's column mean -/
theorem colDev_apply (Y : FVec Ideal S100000x512 .f32) (n : Fin 100000) (j : Fin 512) :
    colDev Y (ix2 n j) = Cert.Spec.toMat Y n j - Cert.Spec.mean (Cert.Spec.toMat Y) j := by
  unfold colDev
  rw [subf_apply, Cert.Lib.spread_1b_ab_apply _ bcast_S1x512_S100000x512_0_1 n j]
  show Y (ix2 n j) - Ideal.div
      (broadcastInDim S1x512 ![1] bcast_S512_S1x512_1 (colSum Y) (ix2 (0 : Fin 1) j))
      (broadcastInDim S1x512 ![] bcast_S_S1x512 (constant (F := Ideal) S_ .f32 0x47C35000#32) (ix2 (0 : Fin 1) j)) = _
  rw [spread_b_1b_apply _ bcast_S512_S1x512_1 0 j, Cert.Lib.splat_apply bcast_S_S1x512 _ (ix2 (0 : Fin 1) j),
    colSum_apply]
  rfl

/-- the variance's divisor is the node count: the correction is the integer zero -/
theorem varDen_apply (i : S_.Idx) : varDen i = Cert.Spec.cN := by
  show Ideal.ofBits .f32 0x47C35000#32 - (((0#32 : BitVec 32).toInt : ℝ) : EReal) = _
  have h0 : ((0#32 : BitVec 32).toInt : ℝ) = 0 := by simp
  rw [h0, EReal.coe_zero, sub_zero]
  rfl

/-- a column variance is the specification's: the divisor is positive, so the guard takes the quotient -/
theorem colVar_apply (Y : FVec Ideal S100000x512 .f32) (j : Fin 512) :
    colVar Y (ix1 j) = Cert.Spec.var (Cert.Spec.toMat Y) j := by
  have hc : cmpf (F := Ideal) .ogt varDen (constant (F := Ideal) S_ .f32 0x00000000#32) ix0 = 1#1 := by
    show Ideal.cmp .ogt (varDen ix0) (Ideal.ofBits .f32 0x00000000#32) = 1#1
    rw [varDen_apply, Ideal.ofBits_zero_f32, Cert.Spec.cN_eq]
    have hpos : (0 : EReal) < ((100000 : ℝ) : EReal) := by
      rw [← EReal.coe_zero, EReal.coe_lt_coe_iff]; norm_num
    simp [Ideal.cmp, hpos]
  unfold colVar
  rw [select_apply, Cert.Lib.splat_apply bcast_S_S512 _ (ix1 j), hc, select_one]
  show Ideal.div (colSum (mulf (colDev Y) (colDev Y)) (ix1 j))
    (broadcastInDim S512 ![] bcast_S_S512 varDen (ix1 j)) = _
  rw [colSum_apply, Cert.Lib.splat_apply bcast_S_S512 _ (ix1 j), varDen_apply]
  unfold Cert.Spec.var
  refine congrArg (fun x => Ideal.div x Cert.Spec.cN) (Finset.sum_congr rfl fun n _ => ?_)
  rw [mulf_apply, colDev_apply]

/-- an entry of the normalised table is the specification's -/
theorem norm_apply (Y : FVec Ideal S100000x512 .f32) (n : Fin 100000) (j : Fin 512) :
    norm Y (ix2 n j)
      = Cert.Spec.act (Cert.Spec.mean (Cert.Spec.toMat Y)) (Cert.Spec.var (Cert.Spec.toMat Y)) (Cert.Spec.toMat Y) n j := by
  unfold norm
  rw [maximumf_apply, mulf_apply, subf_apply, row_of_vec_apply (colMean Y) n j, row_of_vec_apply _ n j,
    Cert.Lib.splat_apply bcast_S_S100000x512 _ (ix2 n j)]
  show max ((Y (ix2 n j) - colMean Y (ix1 j))
      * Ideal.rsqrt (colVar Y (ix1 j)
          + broadcastInDim S512 ![] bcast_S_S512 (constant (F := Ideal) S_ .f32 0x3727C5AC#32) (ix1 j)))
    (Ideal.ofBits .f32 0x00000000#32) = _
  rw [colMean_apply, colVar_apply, Cert.Lib.splat_apply bcast_S_S512 _ (ix1 j), Ideal.ofBits_zero_f32]
  rfl

/-- the normalised table -/
theorem toMat_norm (Y : FVec Ideal S100000x512 .f32) :
    Cert.Spec.toMat (norm Y)
      = Cert.Spec.act (Cert.Spec.mean (Cert.Spec.toMat Y)) (Cert.Spec.var (Cert.Spec.toMat Y)) (Cert.Spec.toMat Y) :=
  funext fun n => funext fun j => norm_apply Y n j

end Cert.ReferenceIdeal.RefValue

end
-- ==== Proof.RefRead.lean ====
/-
  The reference's result read at an entry is the specification's network.

  The result is three linear layers with the column normalisation between them, each over the same
  per-node scale column; a layer's table is the specification's linear layer of its input's table and
  a normalised table is the specification's activation at the column means and variances, so the
  composition is the specification's network.  No entry needs to be finite: both sides are the same
  sums, products and quotients of extended reals.
-/
import proofs.«103207_j63436666962551_2_alg».proof.Proof.RefReadNorm

noncomputable section

namespace Cert.ReferenceIdeal.RefValue

open Idealize.ShloMosaic Idealize.ShloMosaic.ValueIdx
open Cert.ReferenceIdeal Cert.ReferenceIdeal.Facts₀ Cert.ReferenceIdeal.Facts

variable [Cert.ReferenceIdeal.Facts]

/-- the reference's result as a table is the specification's network over the arguments' tables -/
theorem toMat_refTerm (a0 : FVec Ideal S100000x512 .f32) (a1 : IVec S2x3200000 32)
    (a2 : FVec Ideal S512x512 .f32) (a3 : FVec Ideal S512 .f32)
    (a4 : FVec Ideal S512x512 .f32) (a5 : FVec Ideal S512 .f32)
    (a6 : FVec Ideal S512x512 .f32) (a7 : FVec Ideal S512 .f32) :
    Cert.Spec.toMat (refTerm a0 a1 a2 a3 a4 a5 a6 a7)
      = Cert.Spec.net (Cert.Spec.toMat a0) (Cert.Spec.toWt a2) (Cert.Spec.toRow a3) (Cert.Spec.toWt a4)
          (Cert.Spec.toRow a5) (Cert.Spec.toWt a6) (Cert.Spec.toRow a7) (Cert.Spec.toCol (scale a1)) := by
  unfold refTerm
  rw [toMat_layer, toMat_norm, toMat_layer, toMat_norm, toMat_layer]
  rfl

/-- the reference's result at node `n` and feature `j` -/
theorem refTerm_eq (a0 : FVec Ideal S100000x512 .f32) (a1 : IVec S2x3200000 32)
    (a2 : FVec Ideal S512x512 .f32) (a3 : FVec Ideal S512 .f32)
    (a4 : FVec Ideal S512x512 .f32) (a5 : FVec Ideal S512 .f32)
    (a6 : FVec Ideal S512x512 .f32) (a7 : FVec Ideal S512 .f32) (n : Fin 100000) (j : Fin 512) :
    refTerm a0 a1 a2 a3 a4 a5 a6 a7 (ValueIdx.ix2 n j)
      = Cert.Spec.net (Cert.Spec.toMat a0) (Cert.Spec.toWt a2) (Cert.Spec.toRow a3) (Cert.Spec.toWt a4)
          (Cert.Spec.toRow a5) (Cert.Spec.toWt a6) (Cert.Spec.toRow a7)
          (Cert.Spec.toCol (Cert.Spec.scaleTerm slices_S2x3200000_S1x3200000_0_0 slices_S2x3200000_S1x3200000_1_0
            shapeCasts_S1x3200000_S3200000 bcast_S_S100000 bcast_S_S3200000 bcast_S3200000_S3200000x1_0
            bcast_S100000_S100000x1_0 scatter_S100000_S3200000x1_S3200000_n_0_0_1
            gather_S100000_S3200000x1_S3200000_n_0_n_n_0_1_1 a1)) n j :=
  congrFun (congrFun (toMat_refTerm a0 a1 a2 a3 a4 a5 a6 a7) n) j

end Cert.ReferenceIdeal.RefValue

end
-- ==== Proof.LawVar.lean ====
/-
  The two spellings of the column variance agree on real data.

  For reals y₀ … y_{N−1} with N = 100000, S = Σ y, m = S / N:
  Σ (y − m)² = Σ y² − 2 m S + N m² = Σ y² − S² / N, so (Σ (y − m)²) / N = (Σ y²) / N − m².
  The left side is a mean of squares, hence nonnegative, and the clip at zero is the identity.
  Division by the real 100000 is multiplication by 1 / 100000, and sums, products and differences
  of real numbers are computed in the reals.
-/
import proofs.«103207_j63436666962551_2_alg».proof.Proof.Consts

noncomputable section

namespace Cert.Spec

open Idealize.ShloMosaic

/-- the coercion of a finite real sum is the sum of the coercions -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  rcases le_total x 0 with h | h
  · rw [max_eq_right h]; exact ⟨0, rfl⟩
  · rw [max_eq_left h]; exact hx

theorem isReal_sum {ι : Type} (s : Finset ι) {f : ι → EReal} (hf : ∀ i, IsReal (f i)) :
    IsReal (∑ i ∈ s, f i) := by
  choose g hg using hf
  exact ⟨∑ i ∈ s, g i, by rw [coe_sum]; exact Finset.sum_congr rfl fun i _ => hg i⟩

/-- the real identity: mean of squares less squared mean is the mean squared deviation -/
theorem real_var_id (y : Fin 100000 → ℝ) :
    (∑ n, y n * y n) * (1 / 100000) - ((∑ n, y n) * (1 / 100000)) * ((∑ n, y n) * (1 / 100000))
      = (∑ n, (y n - (∑ n, y n) * (1 / 100000)) * (y n - (∑ n, y n) * (1 / 100000))) * (1 / 100000) := by
  obtain ⟨m, hm⟩ : ∃ m : ℝ, m = (∑ n, y n) * (1 / 100000) := ⟨_, rfl⟩
  rw [← hm]
  have hexp : ∑ n, (y n - m) * (y n - m)
      = (∑ n, y n * y n) - 2 * m * (∑ n, y n) + 100000 * (m * m) := by
    have h1 : ∀ n, (y n - m) * (y n - m) = y n * y n - 2 * m * y n + m * m := fun n => by ring
    simp only [h1]
    rw [Finset.sum_add_distrib, Finset.sum_sub_distrib, ← Finset.mul_sum, Finset.sum_const,
      Finset.card_univ, Fintype.card_fin, nsmul_eq_mul]
    norm_num
  rw [hexp]
  have hS : (∑ n, y n) = 100000 * m := by rw [hm]; ring
  rw [hS]; ring

/-- a mean of squares is nonnegative -/
theorem real_var_nonneg (y : Fin 100000 → ℝ) (m : ℝ) :
    0 ≤ (∑ n, (y n - m) * (y n - m)) * (1 / 100000) :=
  mul_nonneg (Finset.sum_nonneg fun _ _ => mul_self_nonneg _) (by norm_num)

/-- the column mean of a real table -/
theorem mean_coe (y : Fin 100000 → Fin 512 → ℝ) (j : Fin 512) :
    mean (fun n j => ((y n j : ℝ) : EReal)) j = (((∑ n, y n j) * (1 / 100000) : ℝ) : EReal) := by
  simp only [mean]
  rw [cN_eq, Ideal.div_coe (by norm_num), ← coe_sum Finset.univ (fun n => y n j), ← EReal.coe_mul]

/-- the mean squared deviation of a real table -/
theorem var_coe (y : Fin 100000 → Fin 512 → ℝ) (j : Fin 512) :
    var (fun n j => ((y n j : ℝ) : EReal)) j
      = (((∑ n, (y n j - (∑ n, y n j) * (1 / 100000)) * (y n j - (∑ n, y n j) * (1 / 100000)))
          * (1 / 100000) : ℝ) : EReal) := by
  simp only [var, mean_coe]
  rw [cN_eq, Ideal.div_coe (by norm_num)]
  simp only [← EReal.coe_sub, ← EReal.coe_mul]
  rw [← coe_sum Finset.univ
    (fun n => (y n j - (∑ n, y n j) * (1 / 100000)) * (y n j - (∑ n, y n j) * (1 / 100000))),
    ← EReal.coe_mul]

/-- mean of squares less squared mean, clipped at zero, of a real table -/
theorem varK_coe (y : Fin 100000 → Fin 512 → ℝ) (j : Fin 512) :
    varK (fun n j => ((y n j : ℝ) : EReal)) j
      = max ((((∑ n, y n j * y n j) * (1 / 100000)
          - ((∑ n, y n j) * (1 / 100000)) * ((∑ n, y n j) * (1 / 100000)) : ℝ)) : EReal) 0 := by
  simp only [varK, mean_coe]
  rw [cN_eq, Ideal.div_coe (by norm_num)]
  simp only [← EReal.coe_mul]
  rw [← coe_sum Finset.univ (fun n => y n j * y n j), ← EReal.coe_mul, ← EReal.coe_sub]

theorem varK_eq_var {Y : Mat} (hY : ∀ n j, IsReal (Y n j)) : varK Y = var Y := by
  choose y hy using hY
  obtain rfl : Y = fun n j => ((y n j : ℝ) : EReal) := funext fun n => funext fun j => hy n j
  funext j
  rw [varK_coe, var_coe, real_var_id (fun n => y n j)]
  exact max_eq_left (EReal.coe_nonneg.mpr (real_var_nonneg _ _))

end Cert.Spec

end
-- ==== Proof.Law.lean ====
/-
  On real data every layer of the network stays real, and the network written with either
  spelling of the variance is the same function.

  A linear layer is a finite sum of products of reals, times a real, plus a real.  The
  activation divides the centred entry by the root of (variance + offset); the variance is a
  nonnegative real and the offset a positive real, so the root's argument is a positive real and
  its inverse root is the real (√(v + ε))⁻¹.
-/
import proofs.«103207_j63436666962551_2_alg».proof.Proof.LawVar

noncomputable section

namespace Cert.Spec

open Idealize.ShloMosaic

theorem lin_real {X : Mat} {W : Wt} {s : Col} {b : Row} (hX : ∀ n k, IsReal (X n k))
    (hW : ∀ j k, IsReal (W j k)) (hs : ∀ n, IsReal (s n)) (hb : ∀ j, IsReal (b j)) :
    ∀ n j, IsReal (lin X W s b n j) := fun n j =>
  (((isReal_sum Finset.univ fun k => (hX n k).mul (hW j k)).mul (hs n)).add (hb j))

/-- the inverse root of a positive real is a real -/
theorem rsqrt_real {r : ℝ} (hr : 0 < r) : IsReal (Ideal.rsqrt (r : EReal)) := by
  rw [Ideal.rsqrt_coe, if_neg (not_lt.mpr hr.le), if_neg hr.ne']
  exact isReal_coe _

theorem act_real {Y : Mat} (hY : ∀ n j, IsReal (Y n j)) :
    ∀ n j, IsReal (act (mean Y) (var Y) Y n j) := by
  choose y hy using hY
  obtain rfl : Y = fun n j => ((y n j : ℝ) : EReal) := funext fun n => funext fun j => hy n j
  obtain ⟨e, he, hee⟩ := eps_pos
  intro n j
  simp only [act]
  refine IsReal.max_zero (IsReal.mul ?_ ?_)
  · rw [mean_coe]; exact (isReal_coe _).sub (isReal_coe _)
  · rw [var_coe, hee, ← EReal.coe_add]
    exact rsqrt_real (add_pos_of_nonneg_of_pos (real_var_nonneg _ _) he)

theorem netK_eq_net {X : Mat} {W0 W1 W2 : Wt} {b0 b1 b2 : Row} {s : Col}
    (hX : ∀ n k, IsReal (X n k)) (hW0 : ∀ j k, IsReal (W0 j k)) (hb0 : ∀ j, IsReal (b0 j))
    (hW1 : ∀ j k, IsReal (W1 j k)) (hb1 : ∀ j, IsReal (b1 j))
    (hW2 : ∀ j k, IsReal (W2 j k)) (hb2 : ∀ j, IsReal (b2 j)) (hs : ∀ n, IsReal (s n)) :
    netK X W0 b0 W1 b1 W2 b2 s = net X W0 b0 W1 b1 W2 b2 s := by
  have h0 := lin_real hX hW0 hs hb0
  have h1 := lin_real (act_real h0) hW1 hs hb1
  simp only [netK, net]
  rw [varK_eq_var h0, varK_eq_var h1]

end Cert.Spec

end
-- ==== Proof.ScaleReal.lean ====
/-
  The node scale is a real number at every node.

  Each operation of the chain keeps "every entry is a real number":
  the edge mask is the cast of a one-bit word, a natural number, so a real that is at least zero;
  a slot of an accumulating scatter is the operand's slot plus a finite sum of updates, and a finite
  sum of reals (of reals at least zero) is a real (at least zero), wherever the updates land;
  the degree is such a sum plus one, so a real that is at least one;
  a real base to a real exponent is a real; every entry of a gather or of a broadcast is some entry of
  its operand; a product or sum of two reals is a real; and one divided by a real that is at least one
  is one times its reciprocal, a real.  Nothing is needed of the scatter's or the gather's dimension
  numbers: where the updates land, and which entries are read, does not matter for realness.

  Every step is first stated for arbitrary arrays, where an entry is an atom, and then applied to the
  chain's terms by name, so that no term of the chain is ever computed.
-/
import proofs.«103207_j63436666962551_2_alg».proof.Proof.Spec
import proofs.«103207_j63436666962551_2_alg».proof.Proof.Consts

noncomputable section

namespace Cert.Spec

open Idealize.ShloMosaic Idealize.ShloMosaic.ValueIdx

namespace ScaleReal

/-- an extended real that is a real number at least `c` -/
def IsRealGe (c : ℝ) (x : EReal) : Prop := ∃ r : ℝ, c ≤ r ∧ x = (r : EReal)

theorem IsRealGe.isReal {c : ℝ} {x : EReal} (h : IsRealGe c x) : IsReal x :=
  let ⟨r, _, hr⟩ := h; ⟨r, hr⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isRealGe_add {c d : ℝ} {x y : EReal} (hx : IsRealGe c x) (hy : IsRealGe d y) : IsRealGe (c + d) (x + y) := by
  obtain ⟨a, ha, rfl⟩ := hx
  obtain ⟨b, hb, rfl⟩ := hy
  exact ⟨a + b, add_le_add ha hb, (EReal.coe_add a b).symm⟩

/-- adding a real that is at least zero keeps a lower bound -/
theorem isRealGe_add_nonneg {c : ℝ} {x y : EReal} (hx : IsRealGe c x) (hy : IsRealGe 0 y) : IsRealGe c (x + y) := by
  have h : IsRealGe (c + 0) (x + y) := isRealGe_add hx hy
  rwa [add_zero] at h

theorem isRealGe_nonneg_add {c : ℝ} {x y : EReal} (hx : IsRealGe 0 x) (hy : IsRealGe c y) : IsRealGe c (x + y) := by
  have h : IsRealGe (0 + c) (x + y) := isRealGe_add hx hy
  rwa [zero_add] at h

/-- a finite sum of reals is a real -/
theorem isReal_sum {ι : Type*} (s : Finset ι) (f : ι → EReal) (h : ∀ j ∈ s, IsReal (f j)) :
    IsReal (∑ j ∈ s, f j) := by
  classical
  induction s using Finset.induction_on with
  | empty => exact ⟨0, by simp⟩
  | insert a s ha ih =>
    rw [Finset.sum_insert ha]
    exact isReal_add (h a (Finset.mem_insert_self a s)) (ih fun j hj => h j (Finset.mem_insert_of_mem hj))

/-- a finite sum of reals that are at least zero is a real that is at least zero -/
theorem isRealGe_sum {ι : Type*} (s : Finset ι) (f : ι → EReal) (h : ∀ j ∈ s, IsRealGe 0 (f j)) :
    IsRealGe 0 (∑ j ∈ s, f j) := by
  classical
  induction s using Finset.induction_on with
  | empty => exact ⟨0, le_refl _, by simp⟩
  | insert a s ha ih =>
    rw [Finset.sum_insert ha]
    exact isRealGe_add_nonneg (h a (Finset.mem_insert_self a s)) (ih fun j hj => h j (Finset.mem_insert_of_mem hj))

/-! ## The operations, one at a time, on arbitrary arrays -/

section Ops

variable {s si su t : Shape} {w : Nat}

/-- an accumulating scatter of reals into reals has real entries, whatever its dimension numbers -/
theorem scatterAdd_isReal (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact isReal_add (hx i) (isReal_sum _ _ fun j _ => hu j)

/-- … and entries at least `c` when the operand's are and the updates are at least zero -/
theorem scatterAdd_isRealGe (d : ScatterDims s si su) (x : FVec Ideal s .f32) (idx : IVec si w)
    (upd : FVec Ideal su .f32) (c : ℝ) (hx : ∀ i, IsRealGe c (x i)) (hu : ∀ j, IsRealGe 0 (upd j)) (i : s.Idx) :
    IsRealGe c (Host.scatterAdd (F := Ideal) d x idx upd i) := by
  show IsRealGe c (Ideal.hostScatterAdd d x idx upd i)
  unfold Ideal.hostScatterAdd
  exact isRealGe_add_nonneg (hx i) (isRealGe_sum _ _ fun j _ => hu j)

/-- every entry of a gather is an entry of its operand -/
theorem gather_isReal (g : GatherDims s si t) (x : FVec Ideal s .f32) (idx : IVec si w)
    (hx : ∀ i, IsReal (x i)) (j : t.Idx) : IsReal (Host.gather g x idx j) :=
  hx _

/-- every entry of a broadcast is an entry of its operand -/
theorem broadcast_isReal (dims : Fin s.rank → Fin t.rank) (h : s.BroadcastsInDim t dims) (x : FVec Ideal s .f32)
    (hx : ∀ i, IsReal (x i)) (j : t.Idx) : IsReal (broadcastInDim t dims h x j) :=
  hx _

theorem addf_isReal (x y : FVec Ideal s .f32) (i : s.Idx) (hx : IsReal (x i)) (hy : IsReal (y i)) :
    IsReal (addf x y i) :=
  isReal_add hx hy

theorem addf_isRealGe (x y : FVec Ideal s .f32) (i : s.Idx) (c : ℝ) (hx : IsRealGe 0 (x i)) (hy : IsRealGe c (y i)) :
    IsRealGe c (addf x y i) :=
  isRealGe_nonneg_add hx hy

theorem mulf_isReal (x y : FVec Ideal s .f32) (i : s.Idx) (hx : IsReal (x i)) (hy : IsReal (y i)) :
    IsReal (mulf x y i) :=
  isReal_mul hx hy

/-- a real base to a real exponent is a real -/
theorem powf_isReal (x y : FVec Ideal s .f32) (i : s.Idx) (hx : IsReal (x i)) (hy : IsReal (y i)) :
    IsReal (Host.powf (F := Ideal) x y i) := by
  show IsReal (Ideal.pow (x i) (y i))
  obtain ⟨a, ha⟩ := hx
  obtain ⟨b, hb⟩ := hy
  rw [ha, hb]
  exact ⟨Real.rpow a b, rfl⟩

/-- a real over a real that is at least one is a real -/
theorem divf_isReal (x y : FVec Ideal s .f32) (i : s.Idx) (hx : IsReal (x i)) (hy : IsRealGe 1 (y i)) :
    IsReal (Host.divf (F := Ideal) x y i) := by
  show IsReal (Ideal.div (x i) (y i))
  obtain ⟨d, hd1, hd⟩ := hy
  have hne : d ≠ 0 := (lt_of_lt_of_le one_pos hd1).ne'
  rw [hd, Ideal.div_coe hne]
  exact isReal_mul hx ⟨1 / d, rfl⟩

end Ops

/-! ## The chain -/

section Scale

variable (hsl0 : s2E.Slices ![0, 0] s1E) (hsl1 : s2E.Slices ![1, 0] s1E) (hsc : s1E.ShapeCasts sE)
  (hbN : s0.BroadcastsInDim sN (![] : Fin 0 → Fin sN.rank))
  (hbE : s0.BroadcastsInDim sE (![] : Fin 0 → Fin sE.rank))
  (hbE1 : sE.BroadcastsInDim sE1 (![0] : Fin 1 → Fin sE1.rank))
  (hbN1 : sN.BroadcastsInDim sN1 (![0] : Fin 1 → Fin sN1.rank))
  (sd : ScatterDims sN sE1 sE) (gd : GatherDims sN sE1 sE)

/-- the mask is the cast of a one-bit word: a natural number -/
theorem edgeMask_isRealGe (e : IVec s2E 32) (j : sE.Idx) : IsRealGe 0 (edgeMask hsl0 hsl1 hsc e j) :=
  ⟨(((cmpi .ne (edgeRow0 hsl0 hsc e) (edgeRow1 hsl1 hsc e)) j).toNat : ℝ), Nat.cast_nonneg _, rfl⟩

/-- the splat of the word of zero -/
theorem zeros_isRealGe (i : sN.Idx) :
    IsRealGe 0 (broadcastInDim sN ![] hbN (constant (F := Ideal) s0 .f32 0x00000000#32) i) :=
  ⟨0, le_refl _, zero_word⟩

/-- the splat of the word of one -/
theorem ones_isRealGe (i : sN.Idx) :
    IsRealGe 1 (broadcastInDim sN ![] hbN (constant (F := Ideal) s0 .f32 0x3F800000#32) i) :=
  ⟨1, le_refl _, one_word⟩

/-- the splat of the word of minus one half -/
theorem neg_halves_isReal (i : sN.Idx) :
    IsReal (broadcastInDim sN ![] hbN (constant (F := Ideal) s0 .f32 0xBF000000#32) i) :=
  ⟨-(1 / 2), neg_half_word⟩

/-- the degree is a real that is at least one -/
theorem degTerm_isRealGe (e : IVec s2E 32) (i : sN.Idx) :
    IsRealGe 1 (degTerm hsl0 hsl1 hsc hbN hbE1 sd e i) := by
  unfold degTerm
  refine addf_isRealGe _ _ i 1 ?_ (ones_isRealGe hbN i)
  exact scatterAdd_isRealGe sd _ _ _ 0 (zeros_isRealGe hbN) (edgeMask_isRealGe hsl0 hsl1 hsc e) i

/-- the degree to the power −1/2 is a real -/
theorem dinvTerm_isReal (e : IVec s2E 32) (i : sN.Idx) :
    IsReal (dinvTerm hsl0 hsl1 hsc hbN hbE1 sd e i) := by
  unfold dinvTerm
  exact powf_isReal _ _ i (degTerm_isRealGe hsl0 hsl1 hsc hbN hbE1 sd e i).isReal (neg_halves_isReal hbN i)

/-- the node scale is a real number at every node -/
theorem scaleTerm_isReal (e : IVec s2E 32) :
    ∀ n : Fin 100000, IsReal (toCol (scaleTerm hsl0 hsl1 hsc hbN hbE hbE1 hbN1 sd gd e) n) := by
  intro n
  unfold toCol scaleTerm
  refine broadcast_isReal _ hbN1 _ (fun i => ?_) _
  refine addf_isReal _ _ i ?_ ?_
  · refine scatterAdd_isReal sd _ _ _ (fun i => (zeros_isRealGe hbN i).isReal) (fun j => ?_) i
    refine mulf_isReal _ _ j (mulf_isReal _ _ j ?_ ?_) (edgeMask_isRealGe hsl0 hsl1 hsc e j).isReal
    · exact gather_isReal gd _ _ (dinvTerm_isReal hsl0 hsl1 hsc hbN hbE1 sd e) j
    · exact gather_isReal gd _ _ (dinvTerm_isReal hsl0 hsl1 hsc hbN hbE1 sd e) j
  · exact divf_isReal _ _ i (ones_isRealGe hbN i).isReal (degTerm_isRealGe hsl0 hsl1 hsc hbN hbE1 sd e i)

end Scale

end ScaleReal

/-- the node scale is a real number at every node, whatever the scatter's and the gather's dimension numbers -/
theorem scaleTerm_real (hsl0 : s2E.Slices ![0, 0] s1E) (hsl1 : s2E.Slices ![1, 0] s1E) (hsc : s1E.ShapeCasts sE)
    (hbN : s0.BroadcastsInDim sN (![] : Fin 0 → Fin sN.rank))
    (hbE : s0.BroadcastsInDim sE (![] : Fin 0 → Fin sE.rank))
    (hbE1 : sE.BroadcastsInDim sE1 (![0] : Fin 1 → Fin sE1.rank))
    (hbN1 : sN.BroadcastsInDim sN1 (![0] : Fin 1 → Fin sN1.rank))
    (sd : ScatterDims sN sE1 sE) (gd : GatherDims sN sE1 sE) (e : IVec s2E 32) :
    ∀ n : Fin 100000, IsReal (toCol (scaleTerm hsl0 hsl1 hsc hbN hbE hbE1 hbN1 sd gd e) n) :=
  ScaleReal.scaleTerm_isReal hsl0 hsl1 hsc hbN hbE hbE1 hbN1 sd gd e

/-- the degree is a real that is at least one at every node -/
theorem degTerm_real_ge_one (hsl0 : s2E.Slices ![0, 0] s1E) (hsl1 : s2E.Slices ![1, 0] s1E) (hsc : s1E.ShapeCasts sE)
    (hbN : s0.BroadcastsInDim sN (![] : Fin 0 → Fin sN.rank))
    (hbE1 : sE.BroadcastsInDim sE1 (![0] : Fin 1 → Fin sE1.rank))
    (sd : ScatterDims sN sE1 sE) (e : IVec s2E 32) (i : sN.Idx) :
    ∃ r : ℝ, 1 ≤ r ∧ degTerm hsl0 hsl1 hsc hbN hbE1 sd e i = (r : EReal) :=
  ScaleReal.degTerm_isRealGe hsl0 hsl1 hsc hbN hbE1 sd e i

end Cert.Spec

end
-- ==== Proof.PreReal.lean ====
/-
  From the precondition to real numbers.  The precondition says, array by array, that every
  entry's magnitude is below +∞; an extended real with that property is a real number.
-/
import proofs.«103207_j63436666962551_2_alg».proof.Pre_finite_inputs
import proofs.«103207_j63436666962551_2_alg».proof.Proof.Gen.Pre_finite_inputs
import proofs.«103207_j63436666962551_2_alg».proof.Proof.Spec
import Idealize.ShloMosaic.Lib.ReduceAll
import Idealize.ShloMosaic.Lib.Affine

noncomputable section

namespace Cert.Pre_finite_inputs.PreReal

open Idealize.ShloMosaic Idealize.ShloMosaic.ValueIdx Cert.Pre_finite_inputs Cert.Spec

instance : Subsingleton S_.Idx := ⟨fun a b => funext fun d => d.elim0⟩

/-- the f32 word with all exponent bits set and no fraction is +∞ -/
theorem inf_word : Ideal.ofBits .f32 0x7F800000#32 = (⊤ : EReal) := by
  simp [Ideal.ofBits, Ideal.ieee]

/-- an extended real whose magnitude max(x, −x) is below +∞ is a real number -/
theorem isReal_of_abs_lt (x : EReal)
    (h : Ideal.cmp .olt (max x (-x)) (Ideal.ofBits .f32 0x7F800000#32) = 1#1) : IsReal x := by
  rw [inf_word] at h
  induction x using EReal.rec with
  | bot => exact absurd h (by simp [Ideal.cmp])
  | coe r => exact ⟨r, rfl⟩
  | top => exact absurd h (by simp [Ideal.cmp])

variable [Facts]

/-- under the precondition every float argument array holds real numbers -/
theorem real_of_pre (a0 : FVec Ideal S100000x512 .f32) (a1 : IVec S2x3200000 32) (a2 : FVec Ideal S512x512 .f32)
    (a3 : FVec Ideal S512 .f32) (a4 : FVec Ideal S512x512 .f32) (a5 : FVec Ideal S512 .f32)
    (a6 : FVec Ideal S512x512 .f32) (a7 : FVec Ideal S512 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [fn, fn_part1, andi] at h0
  simp only [IntOp.andi_eq_one] at h0
  obtain ⟨⟨⟨⟨⟨⟨e0, e2⟩, e3⟩, e4⟩, e5⟩, e6⟩, e7⟩ := h0
  exact ⟨fun i => isReal_of_abs_lt _ (Host.reduce_andi_all _ _ _ _ _ e0 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i),
    fun i => isReal_of_abs_lt _ (Host.reduce_andi_all _ _ _ _ _ e7 i)⟩

end Cert.Pre_finite_inputs.PreReal

end
-- ==== Proof.lean ====
/-
  Three linear layers of a graph network, with batch statistics between them, computed by three
  launches and the host operations between them, against the plain array program.

  Both programs compute the same per-node scale from the edge list by the same host operations.
  Each launch computes one layer  Y(n, j) = (Σ_k X(n, k) · W(j, k)) · s(n) + b(j)  on blocks of 2000
  rows; the first two also accumulate the column sums of Y and of Y², from which the host forms
  the mean and the variance  max (E[Y²] − E[Y]², 0);  the next launch centres, scales by
  (variance + ε)^(−1/2) and clips at zero before its own layer.  The reference computes the
  variance as  E[(Y − E[Y])²].  On real data the two variances agree (the difference form is the
  mean squared deviation, which is nonnegative, so the clip is the identity), and real data stay
  real through every layer: the scale is real because every degree is at least one, the offset
  variance is positive so its inverse root is real.  The precondition makes every argument entry
  real.  So both results are the same network of the arguments.

  The frames of the two kernel programs are the generated ones; the reference's frame is its run
  with the result dropped; the idealization rewrote nothing.
-/
import proofs.«103207_j63436666962551_2_alg».proof.Defs
import proofs.«103207_j63436666962551_2_alg».proof.Proof.Gen.Kernel
import proofs.«103207_j63436666962551_2_alg».proof.Proof.Gen.Kernel.Frame
import proofs.«103207_j63436666962551_2_alg».proof.Proof.Gen.KernelIdeal
import proofs.«103207_j63436666962551_2_alg».proof.Proof.Gen.KernelIdeal.Frame
import proofs.«103207_j63436666962551_2_alg».proof.Proof.Gen.ReferenceIdeal
import proofs.«103207_j63436666962551_2_alg».proof.Proof.Gen.Pre_finite_inputs
import proofs.«103207_j63436666962551_2_alg».proof.Proof.KRun
import proofs.«103207_j63436666962551_2_alg».proof.Proof.KFinal
import proofs.«103207_j63436666962551_2_alg».proof.Proof.RefRun
import proofs.«103207_j63436666962551_2_alg».proof.Proof.RefRead
import proofs.«103207_j63436666962551_2_alg».proof.Proof.Law
import proofs.«103207_j63436666962551_2_alg».proof.Proof.ScaleReal
import proofs.«103207_j63436666962551_2_alg».proof.Proof.PreReal
import Idealize.ShloMosaic.Adequacy
import Idealize.ShloMosaic.Init

set_option maxRecDepth 16384

noncomputable section

/-! ## The claims -/

namespace Cert.Proof

open Idealize.ShloMosaic Idealize.ShloMosaic.TcCoe Idealize.ShloMosaic.ValueIdx Idealize.SL.Sem Cert.Spec

/-- the two programs compute the node scale by the same chain of host operations over shape
    records that agree field by field -/
theorem scale_agree (e : IVec Cert.Spec.s2E 32) :
    Cert.ReferenceIdeal.RefValue.scale e = Cert.KernelIdeal.KValue.scaleK e := by
  have hsd : Cert.ReferenceIdeal.scatter_S100000_S3200000x1_S3200000_n_0_0_1
      = Cert.KernelIdeal.scatter_S100000_S3200000x1_S3200000_n_0_0_1 := rfl
  have hgd : Cert.ReferenceIdeal.gather_S100000_S3200000x1_S3200000_n_0_n_n_0_1_1
      = Cert.KernelIdeal.gather_S100000_S3200000x1_S3200000_n_0_n_n_0_1_1 := rfl
  unfold Cert.ReferenceIdeal.RefValue.scale
  rw [hsd, hgd]

theorem frame_k : Cert.frame_Kernel := fun m ρ _ => Cert.Kernel.Gen.frame m ρ

theorem frame_ki : Cert.frame_KernelIdeal := fun m ρ _ => Cert.KernelIdeal.Gen.frame m ρ

/-- the reference's frame is its run with the result dropped -/
theorem frame_ri : Cert.frame_ReferenceIdeal := fun m ρ _ =>
  (θ_run Cert.ReferenceIdeal.defs _ _).mono (fun _ h c => (h c).2) (Cert.ReferenceIdeal.RefValue.run m ρ)

/-- the idealization rewrote nothing -/
theorem preserves : Cert.preserves_Kernel_KernelIdeal := trivial

/-- Both runs end; the kernel program's result is `netK` of the arguments, the reference's is `net` of
    the same arguments, and under the precondition every argument entry and every scale entry is a
    real number, where the two networks agree. -/
theorem algebraic : Cert.algebraic_KernelIdeal_ReferenceIdeal := by
  intro m ρ m' ρ' hpre hagree
  refine ⟨fun c => Cert.KernelIdeal.Gen.W6 m ρ c (Proc.devRef .tc Cert.KernelIdeal.main_v68),
    Cert.KernelIdeal.KValue.run_result m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  obtain ⟨r0, r2, r3, r4, r5, r6, r7⟩ := Cert.Pre_finite_inputs.PreReal.real_of_pre _ _ _ _ _ _ _ _ (hpre c)
  funext i
  obtain ⟨n, j, rfl⟩ : ∃ (n : Fin 100000) (j : Fin 512), i = ix2 n j := ⟨i 0, i 1, eq_ix2 i⟩
  refine (Cert.ReferenceIdeal.RefValue.refTerm_eq _ _ _ _ _ _ _ _ n j).trans ?_
  refine Eq.trans ?_ (Cert.KernelIdeal.KValue.kernel_result m ρ c n j).symm
  have hs : ∀ n : Fin 100000, IsReal (Cert.KernelIdeal.KValue.aS m c n) :=
    Cert.Spec.scaleTerm_real _ _ _ _ _ _ _ _ _ _
  rw [Cert.Spec.netK_eq_net (X := Cert.KernelIdeal.KValue.aX m c) (W0 := Cert.KernelIdeal.KValue.aW0 m c)
    (b0 := Cert.KernelIdeal.KValue.ab0 m c) (W1 := Cert.KernelIdeal.KValue.aW1 m c) (b1 := Cert.KernelIdeal.KValue.ab1 m c)
    (W2 := Cert.KernelIdeal.KValue.aW2 m c) (b2 := Cert.KernelIdeal.KValue.ab2 m c) (s := Cert.KernelIdeal.KValue.aS m c)
    (fun n k => r0 (ix2 n k)) (fun j k => r2 (ix2 j k)) (fun j => r3 (ix1 j))
    (fun j k => r4 (ix2 j k)) (fun j => r5 (ix1 j)) (fun j k => r6 (ix2 j k)) (fun j => r7 (ix1 j)) hs]
  exact congrFun (congrFun (congrArg _ (congrArg Cert.Spec.toCol (scale_agree _))) n) j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
